-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v154)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v154) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v298) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S2x128x128 : Shape := ⟨3, ![2, 128, 128]⟩
abbrev S2x128 : Shape := ⟨2, ![2, 128]⟩
abbrev S2x192x128 : Shape := ⟨3, ![2, 192, 128]⟩
abbrev S2x192x64 : Shape := ⟨3, ![2, 192, 64]⟩
abbrev S2x192 : Shape := ⟨2, ![2, 192]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_
  bcast_S_S2x192x128 : S_.BroadcastsInDim S2x192x128 (![] : Fin 0 → Fin S2x192x128.rank)
  reducesTo_S2x192x128_S_d0_1_2 : S2x192x128.ReducesTo [0, 1, 2] S_
  bcast_S_S2x192x64 : S_.BroadcastsInDim S2x192x64 (![] : Fin 0 → Fin S2x192x64.rank)
  reducesTo_S2x192x64_S_d0_1_2 : S2x192x64.ReducesTo [0, 1, 2] S_
  bcast_S_S2x192 : S_.BroadcastsInDim S2x192 (![] : Fin 0 → Fin S2x192.rank)
  reducesTo_S2x192_S_d0_1 : S2x192.ReducesTo [0, 1] S_

variable [Facts]

def fn_part3 {F : FTy → Type} [FloatOps F] (main_arg12 : FVec F S2x192 .f32) (main_arg13 : FVec F S2x192 .f32) (main_v48 : IVec S_ 1) (main_v49 : FVec F S2x192x64 .f32) (main_v50 : FVec F S2x192x64 .f32) : IVec S_ 1 :=
  let main_v51 : IVec S2x192x64 1 := cmpf .olt main_v49 main_v50
  let main_c_19 : IVec S_ 1 := constantI S_ 1 1#1
  let main_v52 : IVec S_ 1 := (fun x v => Host.reduce IntOp.andi x v reducesTo_S2x192x64_S_d0_1_2 h_S_) main_v51 main_c_19
  let main_v53 : IVec S_ 1 := andi main_v48 main_v52
  let main_v54 : FVec F S2x192 .f32 := Host.absf main_arg12
  let main_cst_20 : FVec F S_ .f32 := constant S_ .f32 0x7F800000#32
  let main_v55 : FVec F S2x192 .f32 := broadcastInDim S2x192 ![] bcast_S_S2x192 main_cst_20
  let main_v56 : IVec S2x192 1 := cmpf .olt main_v54 main_v55
  let main_c_21 : IVec S_ 1 := constantI S_ 1 1#1
  let main_v57 : IVec S_ 1 := (fun x v => Host.reduce IntOp.andi x v reducesTo_S2x192_S_d0_1 h_S_) main_v56 main_c_21
  let main_v58 : IVec S_ 1 := andi main_v53 main_v57
  let main_v59 : FVec F S2x192 .f32 := Host.absf main_arg13
  let main_cst_22 : FVec F S_ .f32 := constant S_ .f32 0x7F800000#32
  let main_v60 : FVec F S2x192 .f32 := broadcastInDim S2x192 ![] bcast_S_S2x192 main_cst_22
  let main_v61 : IVec S2x192 1 := cmpf .olt main_v59 main_v60
  let main_c_23 : IVec S_ 1 := constantI S_ 1 1#1
  let main_v62 : IVec S_ 1 := (fun x v => Host.reduce IntOp.andi x v reducesTo_S2x192_S_d0_1 h_S_) main_v61 main_c_23
  let main_v63 : IVec S_ 1 := andi main_v58 main_v62
  main_v63

def fn_part2 {F : FTy → Type} [FloatOps F] (main_arg8 : FVec F S2x128x128 .f32) (main_arg9 : FVec F S2x128 .f32) (main_arg10 : FVec F S2x192x128 .f32) (main_arg11 : FVec F S2x192x64 .f32) (main_arg12 : FVec F S2x192 .f32) (main_arg13 : FVec F S2x192 .f32) (main_v33 : IVec S_ 1) : IVec S_ 1 :=
  let main_v34 : FVec F S2x128x128 .f32 := Host.absf main_arg8
  let main_cst_12 : FVec F S_ .f32 := constant S_ .f32 0x7F800000#32
  let main_v35 : FVec F S2x128x128 .f32 := broadcastInDim S2x128x128 ![] bcast_S_S2x128x128 main_cst_12
  let main_v36 : IVec S2x128x128 1 := cmpf .olt main_v34 main_v35
  let main_c_13 : IVec S_ 1 := constantI S_ 1 1#1
  let main_v37 : IVec S_ 1 := (fun x v => Host.reduce IntOp.andi x v reducesTo_S2x128x128_S_d0_1_2 h_S_) main_v36 main_c_13
  let main_v38 : IVec S_ 1 := andi main_v33 main_v37
  let main_v39 : FVec F S2x128 .f32 := Host.absf main_arg9
  let main_cst_14 : FVec F S_ .f32 := constant S_ .f32 0x7F800000#32
  let main_v40 : FVec F S2x128 .f32 := broadcastInDim S2x128 ![] bcast_S_S2x128 main_cst_14
  let main_v41 : IVec S2x128 1 := cmpf .olt main_v39 main_v40
  let main_c_15 : IVec S_ 1 := constantI S_ 1 1#1
  let main_v42 : IVec S_ 1 := (fun x v => Host.reduce IntOp.andi x v reducesTo_S2x128_S_d0_1 h_S_) main_v41 main_c_15
  let main_v43 : IVec S_ 1 := andi main_v38 main_v42
  let main_v44 : FVec F S2x192x128 .f32 := Host.absf main_arg10
  let main_cst_16 : FVec F S_ .f32 := constant S_ .f32 0x7F800000#32
  let main_v45 : FVec F S2x192x128 .f32 := broadcastInDim S2x192x128 ![] bcast_S_S2x192x128 main_cst_16
  let main_v46 : IVec S2x192x128 1 := cmpf .olt main_v44 main_v45
  let main_c_17 : IVec S_ 1 := constantI S_ 1 1#1
  let main_v47 : IVec S_ 1 := (fun x v => Host.reduce IntOp.andi x v reducesTo_S2x192x128_S_d0_1_2 h_S_) main_v46 main_c_17
  let main_v48 : IVec S_ 1 := andi main_v43 main_v47
  let main_v49 : FVec F S2x192x64 .f32 := Host.absf main_arg11
  let main_cst_18 : FVec F S_ .f32 := constant S_ .f32 0x7F800000#32
  let main_v50 : FVec F S2x192x64 .f32 := broadcastInDim S2x192x64 ![] bcast_S_S2x192x64 main_cst_18
  fn_part3 (F := F) main_arg12 main_arg13 main_v48 main_v49 main_v50

def fn_part1 {F : FTy → Type} [FloatOps F] (main_arg5 : FVec F S2x192x64 .f32) (main_arg6 : FVec F S2x192 .f32) (main_arg7 : FVec F S2x192 .f32) (main_arg8 : FVec F S2x128x128 .f32) (main_arg9 : FVec F S2x128 .f32) (main_arg10 : FVec F S2x192x128 .f32) (main_arg11 : FVec F S2x192x64 .f32) (main_arg12 : FVec F S2x192 .f32) (main_arg13 : FVec F S2x192 .f32) (main_v13 : IVec S_ 1) (main_v16 : IVec S2x192x128 1) : IVec S_ 1 :=
  let main_c_5 : IVec S_ 1 := constantI S_ 1 1#1
  let main_v17 : IVec S_ 1 := (fun x v => Host.reduce IntOp.andi x v reducesTo_S2x192x128_S_d0_1_2 h_S_) main_v16 main_c_5
  let main_v18 : IVec S_ 1 := andi main_v13 main_v17
  let main_v19 : FVec F S2x192x64 .f32 := Host.absf main_arg5
  let main_cst_6 : FVec F S_ .f32 := constant S_ .f32 0x7F800000#32
  let main_v20 : FVec F S2x192x64 .f32 := broadcastInDim S2x192x64 ![] bcast_S_S2x192x64 main_cst_6
  let main_v21 : IVec S2x192x64 1 := cmpf .olt main_v19 main_v20
  let main_c_7 : IVec S_ 1 := constantI S_ 1 1#1
  let main_v22 : IVec S_ 1 := (fun x v => Host.reduce IntOp.andi x v reducesTo_S2x192x64_S_d0_1_2 h_S_) main_v21 main_c_7
  let main_v23 : IVec S_ 1 := andi main_v18 main_v22
  let main_v24 : FVec F S2x192 .f32 := Host.absf main_arg6
  let main_cst_8 : FVec F S_ .f32 := constant S_ .f32 0x7F800000#32
  let main_v25 : FVec F S2x192 .f32 := broadcastInDim S2x192 ![] bcast_S_S2x192 main_cst_8
  let main_v26 : IVec S2x192 1 := cmpf .olt main_v24 main_v25
  let main_c_9 : IVec S_ 1 := constantI S_ 1 1#1
  let main_v27 : IVec S_ 1 := (fun x v => Host.reduce IntOp.andi x v reducesTo_S2x192_S_d0_1 h_S_) main_v26 main_c_9
  let main_v28 : IVec S_ 1 := andi main_v23 main_v27
  let main_v29 : FVec F S2x192 .f32 := Host.absf main_arg7
  let main_cst_10 : FVec F S_ .f32 := constant S_ .f32 0x7F800000#32
  let main_v30 : FVec F S2x192 .f32 := broadcastInDim S2x192 ![] bcast_S_S2x192 main_cst_10
  let main_v31 : IVec S2x192 1 := cmpf .olt main_v29 main_v30
  let main_c_11 : IVec S_ 1 := constantI S_ 1 1#1
  let main_v32 : IVec S_ 1 := (fun x v => Host.reduce IntOp.andi x v reducesTo_S2x192_S_d0_1 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S50000x128 .f32) (main_arg1 : IVec S2x800000 32) (main_arg2 : FVec F S2x128x128 .f32) (main_arg3 : FVec F S2x128 .f32) (main_arg4 : FVec F S2x192x128 .f32) (main_arg5 : FVec F S2x192x64 .f32) (main_arg6 : FVec F S2x192 .f32) (main_arg7 : FVec F S2x192 .f32) (main_arg8 : FVec F S2x128x128 .f32) (main_arg9 : FVec F S2x128 .f32) (main_arg10 : FVec F S2x192x128 .f32) (main_arg11 : FVec F S2x192x64 .f32) (main_arg12 : FVec F S2x192 .f32) (main_arg13 : FVec F S2x192 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S2x128x128 .f32 := Host.absf main_arg2
  let main_cst_0 : FVec F S_ .f32 := constant S_ .f32 0x7F800000#32
  let main_v5 : FVec F S2x128x128 .f32 := broadcastInDim S2x128x128 ![] bcast_S_S2x128x128 main_cst_0
  let main_v6 : IVec S2x128x128 1 := cmpf .olt main_v4 main_v5
  let main_c_1 : IVec S_ 1 := constantI S_ 1 1#1
  let main_v7 : IVec S_ 1 := (fun x v => Host.reduce IntOp.andi x v reducesTo_S2x128x128_S_d0_1_2 h_S_) main_v6 main_c_1
  let main_v8 : IVec S_ 1 := andi main_v3 main_v7
  let main_v9 : FVec F S2x128 .f32 := Host.absf main_arg3
  let main_cst_2 : FVec F S_ .f32 := constant S_ .f32 0x7F800000#32
  let main_v10 : FVec F S2x128 .f32 := broadcastInDim S2x128 ![] bcast_S_S2x128 main_cst_2
  let main_v11 : IVec S2x128 1 := cmpf .olt main_v9 main_v10
  let main_c_3 : IVec S_ 1 := constantI S_ 1 1#1
  let main_v12 : IVec S_ 1 := (fun x v => Host.reduce IntOp.andi x v reducesTo_S2x128_S_d0_1 h_S_) main_v11 main_c_3
  let main_v13 : IVec S_ 1 := andi main_v8 main_v12
  let main_v14 : FVec F S2x192x128 .f32 := Host.absf main_arg4
  let main_cst_4 : FVec F S_ .f32 := constant S_ .f32 0x7F800000#32
  let main_v15 : FVec F S2x192x128 .f32 := broadcastInDim S2x192x128 ![] bcast_S_S2x192x128 main_cst_4
  let main_v16 : IVec S2x192x128 1 := cmpf .olt main_v14 main_v15
  fn_part1 (F := F) main_arg5 main_arg6 main_arg7 main_arg8 main_arg9 main_arg10 main_arg11 main_arg12 main_arg13 main_v13 main_v16
-- ==== Kernel.lean ====
abbrev S50000x128 : Shape := ⟨2, ![50000, 128]⟩
abbrev S2x800000 : Shape := ⟨2, ![2, 800000]⟩
abbrev S2x128x128 : Shape := ⟨3, ![2, 128, 128]⟩
abbrev S2x128 : Shape := ⟨2, ![2, 128]⟩
abbrev S2x192x128 : Shape := ⟨3, ![2, 192, 128]⟩
abbrev S2x192x64 : Shape := ⟨3, ![2, 192, 64]⟩
abbrev S2x192 : Shape := ⟨2, ![2, 192]⟩
abbrev S1x800000 : Shape := ⟨2, ![1, 800000]⟩
abbrev S800000 : Shape := ⟨1, ![800000]⟩
abbrev S50000x64 : Shape := ⟨2, ![50000, 64]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1x192x128 : Shape := ⟨3, ![1, 192, 128]⟩
abbrev S192x128 : Shape := ⟨2, ![192, 128]⟩
abbrev S1x192x64 : Shape := ⟨3, ![1, 192, 64]⟩
abbrev S192x64 : Shape := ⟨2, ![192, 64]⟩
abbrev S1x192 : Shape := ⟨2, ![1, 192]⟩
abbrev S192 : Shape := ⟨1, ![192]⟩
abbrev S_ : Shape := ⟨0, ![]⟩
abbrev S800000x1 : Shape := ⟨2, ![800000, 1]⟩
abbrev S800000x64 : Shape := ⟨2, ![800000, 64]⟩
abbrev S800000x128 : Shape := ⟨2, ![800000, 128]⟩
abbrev S4000x64 : Shape := ⟨2, ![4000, 64]⟩
abbrev S4000x128 : Shape := ⟨2, ![4000, 128]⟩
abbrev S128x192 : Shape := ⟨2, ![128, 192]⟩
abbrev S64x192 : Shape := ⟨2, ![64, 192]⟩
abbrev S1000x128 : Shape := ⟨2, ![1000, 128]⟩
abbrev S1000x64 : Shape := ⟨2, ![1000, 64]⟩
abbrev S1000x192 : Shape := ⟨2, ![1000, 192]⟩

abbrev nBuf : Space → Nat
  | .hbm => 189
  | .vmem => 72
  | .smem => 0
  | _ => 0

abbrev hbmTy0_0 (i : Nat) : BufTy := match i % 128 with
  | 0 => ⟨S50000x128, .f32⟩
  | 1 => ⟨S2x800000, .i32⟩
  | 2 => ⟨S2x128x128, .f32⟩
  | 3 => ⟨S2x128, .f32⟩
  | 4 => ⟨S2x192x128, .f32⟩
  | 5 => ⟨S2x192x64, .f32⟩
  | 6 => ⟨S2x192, .f32⟩
  | 7 => ⟨S2x192, .f32⟩
  | 8 => ⟨S2x128x128, .f32⟩
  | 9 => ⟨S2x128, .f32⟩
  | 10 => ⟨S2x192x128, .f32⟩
  | 11 => ⟨S2x192x64, .f32⟩
  | 12 => ⟨S2x192, .f32⟩
  | 13 => ⟨S2x192, .f32⟩
  | 14 => ⟨S1x800000, .i32⟩
  | 15 => ⟨S800000, .i32⟩
  | 16 => ⟨S1x800000, .i32⟩
  | 17 => ⟨S800000, .i32⟩
  | 18 => ⟨S50000x64, .f32⟩
  | 19 => ⟨S50000x64, .f32⟩
  | 20 => ⟨S1x128x128, .f32⟩
  | 21 => ⟨S128x128, .f32⟩
  | 22 => ⟨S1x128, .f32⟩
  | 23 => ⟨S128, .f32⟩
  | 24 => ⟨S1x192x128, .f32⟩
  | 25 => ⟨S192x128, .f32⟩
  | 26 => ⟨S1x192x64, .f32⟩
  | 27 => ⟨S192x64, .f32⟩
  | 28 => ⟨S1x192, .f32⟩
  | 29 => ⟨S192, .f32⟩
  | 30 => ⟨S1x192, .f32⟩
  | 31 => ⟨S192, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000x64, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000x64, .f32⟩
  | 50 => ⟨S128x128, .f32⟩
  | 51 => ⟨S1x128, .f32⟩
  | 52 => ⟨S800000x128, .f32⟩
  | 53 => ⟨S_, .f32⟩
  | 54 => ⟨S50000x128, .f32⟩
  | 55 => ⟨S800000x1, .i32⟩
  | 56 => ⟨S50000x128, .f32⟩
  | 57 => ⟨S128x192, .f32⟩
  | 58 => ⟨S64x192, .f32⟩
  | 59 => ⟨S1x192, .f32⟩
  | 60 => ⟨S1x192, .f32⟩
  | 61 => ⟨S50000x64, .f32⟩
  | 62 => ⟨S1x128x128, .f32⟩
  | 63 => ⟨S128x128, .f32⟩
  | 64 => ⟨S1x128, .f32⟩
  | 65 => ⟨S128, .f32⟩
  | 66 => ⟨S1x192x128, .f32⟩
  | 67 => ⟨S192x128, .f32⟩
  | 68 => ⟨S1x192x64, .f32⟩
  | 69 => ⟨S192x64, .f32⟩
  | 70 => ⟨S1x192, .f32⟩
  | 71 => ⟨S192, .f32⟩
  | 72 => ⟨S1x192, .f32⟩
  | 73 => ⟨S192, .f32⟩
  | 74 => ⟨S_, .i32⟩
  | 75 => ⟨S800000, .i32⟩
  | 76 => ⟨S800000, .i1⟩
  | 77 => ⟨S_, .i32⟩
  | 78 => ⟨S800000, .i32⟩
  | 79 => ⟨S800000, .i32⟩
  | 80 => ⟨S800000, .i32⟩
  | 81 => ⟨S800000x1, .i32⟩
  | 82 => ⟨S800000x64, .f32⟩
  | 83 => ⟨S_, .i32⟩
  | 84 => ⟨S800000, .i32⟩
  | 85 => ⟨S800000, .i1⟩
  | 86 => ⟨S_, .i32⟩
  | 87 => ⟨S800000, .i32⟩
  | 88 => ⟨S800000, .i32⟩
  | 89 => ⟨S800000, .i32⟩
  | 90 => ⟨S800000x1, .i32⟩
  | 91 => ⟨S800000x64, .f32⟩
  | 92 => ⟨S128x128, .f32⟩
  | 93 => ⟨S1x128, .f32⟩
  | 94 => ⟨S800000x128, .f32⟩
  | 95 => ⟨S_, .f32⟩
  | 96 => ⟨S50000x128, .f32⟩
  | 97 => ⟨S800000x1, .i32⟩
  | 98 => ⟨S50000x128, .f32⟩
  | 99 => ⟨S128x192, .f32⟩
  | 100 => ⟨S64x192, .f32⟩
  | 101 => ⟨S1x192, .f32⟩
  | 102 => ⟨S1x192, .f32⟩
  | 103 => ⟨S50000x64, .f32⟩
  | 104 => ⟨S1x128x128, .f32⟩
  | 105 => ⟨S128x128, .f32⟩
  | 106 => ⟨S1x128, .f32⟩
  | 107 => ⟨S128, .f32⟩
  | 108 => ⟨S1x192x128, .f32⟩
  | 109 => ⟨S192x128, .f32⟩
  | 110 => ⟨S1x192x64, .f32⟩
  | 111 => ⟨S192x64, .f32⟩
  | 112 => ⟨S1x192, .f32⟩
  | 113 => ⟨S192, .f32⟩
  | 114 => ⟨S1x192, .f32⟩
  | 115 => ⟨S192, .f32⟩
  | 116 => ⟨S_, .i32⟩
  | 117 => ⟨S800000, .i32⟩
  | 118 => ⟨S800000, .i1⟩
  | 119 => ⟨S_, .i32⟩
  | 120 => ⟨S800000, .i32⟩
  | 121 => ⟨S800000, .i32⟩
  | 122 => ⟨S800000, .i32⟩
  | 123 => ⟨S800000x1, .i32⟩
  | 124 => ⟨S800000x64, .f32⟩
  | 125 => ⟨S_, .i32⟩
  | 126 => ⟨S800000, .i32⟩
  | 127 => ⟨S800000, .i1⟩
  | _ => ⟨S50000x128, .f32⟩

abbrev hbmTy0_1 (i : Nat) : BufTy := match i % 128 with
  | 0 => ⟨S_, .i32⟩
  | 1 => ⟨S800000, .i32⟩
  | 2 => ⟨S800000, .i32⟩
  | 3 => ⟨S800000, .i32⟩
  | 4 => ⟨S800000x1, .i32⟩
  | 5 => ⟨S800000x64, .f32⟩
  | 6 => ⟨S128x128, .f32⟩
  | 7 => ⟨S1x128, .f32⟩
  | 8 => ⟨S800000x128, .f32⟩
  | 9 => ⟨S_, .f32⟩
  | 10 => ⟨S50000x128, .f32⟩
  | 11 => ⟨S800000x1, .i32⟩
  | 12 => ⟨S50000x128, .f32⟩
  | 13 => ⟨S128x192, .f32⟩
  | 14 => ⟨S64x192, .f32⟩
  | 15 => ⟨S1x192, .f32⟩
  | 16 => ⟨S1x192, .f32⟩
  | 17 => ⟨S50000x64, .f32⟩
  | 18 => ⟨S1x128x128, .f32⟩
  | 19 => ⟨S128x128, .f32⟩
  | 20 => ⟨S1x128, .f32⟩
  | 21 => ⟨S128, .f32⟩
  | 22 => ⟨S1x192x128, .f32⟩
  | 23 => ⟨S192x128, .f32⟩
  | 24 => ⟨S1x192x64, .f32⟩
  | 25 => ⟨S192x64, .f32⟩
  | 26 => ⟨S1x192, .f32⟩
  | 27 => ⟨S192, .f32⟩
  | 28 => ⟨S1x192, .f32⟩
  | 29 => ⟨S192, .f32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S800000x64, .f32⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S800000x64, .f32⟩
  | 48 => ⟨S128x128, .f32⟩
  | 49 => ⟨S1x128, .f32⟩
  | 50 => ⟨S800000x128, .f32⟩
  | 51 => ⟨S_, .f32⟩
  | 52 => ⟨S50000x128, .f32⟩
  | 53 => ⟨S800000x1, .i32⟩
  | 54 => ⟨S50000x128, .f32⟩
  | 55 => ⟨S128x192, .f32⟩
  | 56 => ⟨S64x192, .f32⟩
  | 57 => ⟨S1x192, .f32⟩
  | 58 => ⟨S1x192, .f32⟩
  | 59 => ⟨S50000x64, .f32⟩
  | 60 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S4000x64, .f32⟩
  | .local _ .vmem, ⟨1, _⟩ => ⟨S4000x64, .f32⟩
  | .local _ .vmem, ⟨2, _⟩ => ⟨S4000x64, .f32⟩
  | .local _ .vmem, ⟨3, _⟩ => ⟨S4000x64, .f32⟩
  | .local _ .vmem, ⟨4, _⟩ => ⟨S128x128, .f32⟩
  | .local _ .vmem, ⟨5, _⟩ => ⟨S1x128, .f32⟩
  | .local _ .vmem, ⟨6, _⟩ => ⟨S4000x128, .f32⟩
  | .local _ .vmem, ⟨7, _⟩ => ⟨S4000x128, .f32⟩
  | .local _ .vmem, ⟨8, _⟩ => ⟨S1000x128, .f32⟩
  | .local _ .vmem, ⟨9, _⟩ => ⟨S1000x128, .f32⟩
  | .local _ .vmem, ⟨10, _⟩ => ⟨S1000x64, .f32⟩
  | .local _ .vmem, ⟨11, _⟩ => ⟨S1000x64, .f32⟩
  | .local _ .vmem, ⟨12, _⟩ => ⟨S128x192, .f32⟩
  | .local _ .vmem, ⟨13, _⟩ => ⟨S64x192, .f32⟩
  | .local _ .vmem, ⟨14, _⟩ => ⟨S1x192, .f32⟩
  | .local _ .vmem, ⟨15, _⟩ => ⟨S1x192, .f32⟩
  | .local _ .vmem, ⟨16, _⟩ => ⟨S1000x64, .f32⟩
  | .local _ .vmem, ⟨17, _⟩ => ⟨S1000x64, .f32⟩
  | .local _ .vmem, ⟨18, _⟩ => ⟨S4000x64, .f32⟩
  | .local _ .vmem, ⟨19, _⟩ => ⟨S4000x64, .f32⟩
  | .local _ .vmem, ⟨20, _⟩ => ⟨S4000x64, .f32⟩
  | .local _ .vmem, ⟨21, _⟩ => ⟨S4000x64, .f32⟩
  | .local _ .vmem, ⟨22, _⟩ => ⟨S128x128, .f32⟩
  | .local _ .vmem, ⟨23, _⟩ => ⟨S1x128, .f32⟩
  | .local _ .vmem, ⟨24, _⟩ => ⟨S4000x128, .f32⟩
  | .local _ .vmem, ⟨25, _⟩ => ⟨S4000x128, .f32⟩
  | .local _ .vmem, ⟨26, _⟩ => ⟨S1000x128, .f32⟩
  | .local _ .vmem, ⟨27, _⟩ => ⟨S1000x128, .f32⟩
  | .local _ .vmem, ⟨28, _⟩ => ⟨S1000x64, .f32⟩
  | .local _ .vmem, ⟨29, _⟩ => ⟨S1000x64, .f32⟩
  | .local _ .vmem, ⟨30, _⟩ => ⟨S128x192, .f32⟩
  | .local _ .vmem, ⟨31, _⟩ => ⟨S64x192, .f32⟩
  | .local _ .vmem, ⟨32, _⟩ => ⟨S1x192, .f32⟩
  | .local _ .vmem, ⟨33, _⟩ => ⟨S1x192, .f32⟩
  | .local _ .vmem, ⟨34, _⟩ => ⟨S1000x64, .f32⟩
  | .local _ .vmem, ⟨35, _⟩ => ⟨S1000x64, .f32⟩
  | .local _ .vmem, ⟨36, _⟩ => ⟨S4000x64, .f32⟩
  | .local _ .vmem, ⟨37, _⟩ => ⟨S4000x64, .f32⟩
  | .local _ .vmem, ⟨38, _⟩ => ⟨S4000x64, .f32⟩
  | .local _ .vmem, ⟨39, _⟩ => ⟨S4000x64, .f32⟩
  | .local _ .vmem, ⟨40, _⟩ => ⟨S128x128, .f32⟩
  | .local _ .vmem, ⟨41, _⟩ => ⟨S1x128, .f32⟩
  | .local _ .vmem, ⟨42, _⟩ => ⟨S4000x128, .f32⟩
  | .local _ .vmem, ⟨43, _⟩ => ⟨S4000x128, .f32⟩
  | .local _ .vmem, ⟨44, _⟩ => ⟨S1000x128, .f32⟩
  | .local _ .vmem, ⟨45, _⟩ => ⟨S1000x128, .f32⟩
  | .local _ .vmem, ⟨46, _⟩ => ⟨S1000x64, .f32⟩
  | .local _ .vmem, ⟨47, _⟩ => ⟨S1000x64, .f32⟩
  | .local _ .vmem, ⟨48, _⟩ => ⟨S128x192, .f32⟩
  | .local _ .vmem, ⟨49, _⟩ => ⟨S64x192, .f32⟩
  | .local _ .vmem, ⟨50, _⟩ => ⟨S1x192, .f32⟩
  | .local _ .vmem, ⟨51, _⟩ => ⟨S1x192, .f32⟩
  | .local _ .vmem, ⟨52, _⟩ => ⟨S1000x64, .f32⟩
  | .local _ .vmem, ⟨53, _⟩ => ⟨S1000x64, .f32⟩
  | .local _ .vmem, ⟨54, _⟩ => ⟨S4000x64, .f32⟩
  | .local _ .vmem, ⟨55, _⟩ => ⟨S4000x64, .f32⟩
  | .local _ .vmem, ⟨56, _⟩ => ⟨S4000x64, .f32⟩
  | .local _ .vmem, ⟨57, _⟩ => ⟨S4000x64, .f32⟩
  | .local _ .vmem, ⟨58, _⟩ => ⟨S128x128, .f32⟩
  | .local _ .vmem, ⟨59, _⟩ => ⟨S1x128, .f32⟩
  | .local _ .vmem, ⟨60, _⟩ => ⟨S4000x128, .f32⟩
  | .local _ .vmem, ⟨61, _⟩ => ⟨S4000x128, .f32⟩
  | .local _ .vmem, ⟨62, _⟩ => ⟨S1000x128, .f32⟩
  | .local _ .vmem, ⟨63, _⟩ => ⟨S1000x128, .f32⟩
  | .local _ .vmem, ⟨64, _⟩ => ⟨S1000x64, .f32⟩
  | .local _ .vmem, ⟨65, _⟩ => ⟨S1000x64, .f32⟩
  | .local _ .vmem, ⟨66, _⟩ => ⟨S128x192, .f32⟩
  | .local _ .vmem, ⟨67, _⟩ => ⟨S64x192, .f32⟩
  | .local _ .vmem, ⟨68, _⟩ => ⟨S1x192, .f32⟩
  | .local _ .vmem, ⟨69, _⟩ => ⟨S1x192, .f32⟩
  | .local _ .vmem, ⟨70, _⟩ => ⟨S1000x64, .f32⟩
  | .local _ .vmem, ⟨71, _⟩ => ⟨S1000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_0 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_1 : Ref sig .tc := ⟨.hbm, 41, rfl⟩
abbrev main_v25 : Ref sig .tc := ⟨.hbm, 42, rfl⟩
abbrev main_v26 : Ref sig .tc := ⟨.hbm, 43, rfl⟩
abbrev main_c_2 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_c_3 : Ref sig .tc := ⟨.hbm, 74, rfl⟩
abbrev main_v55 : Ref sig .tc := ⟨.hbm, 75, rfl⟩
abbrev main_v56 : Ref sig .tc := ⟨.hbm, 76, rfl⟩
abbrev main_c_4 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_c_5 : Ref sig .tc := ⟨.hbm, 83, rfl⟩
abbrev main_v62 : Ref sig .tc := ⟨.hbm, 84, rfl⟩
abbrev main_v63 : Ref sig .tc := ⟨.hbm, 85, rfl⟩
abbrev main_c_6 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_7 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_c_8 : Ref sig .tc := ⟨.hbm, 116, rfl⟩
abbrev main_v92 : Ref sig .tc := ⟨.hbm, 117, rfl⟩
abbrev main_v93 : Ref sig .tc := ⟨.hbm, 118, rfl⟩
abbrev main_c_9 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_c_10 : Ref sig .tc := ⟨.hbm, 125, rfl⟩
abbrev main_v99 : Ref sig .tc := ⟨.hbm, 126, rfl⟩
abbrev main_v100 : Ref sig .tc := ⟨.hbm, 127, rfl⟩
abbrev main_c_11 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_cst_12 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_c_13 : Ref sig .tc := ⟨.hbm, 158, rfl⟩
abbrev main_v129 : Ref sig .tc := ⟨.hbm, 159, rfl⟩
abbrev main_v130 : Ref sig .tc := ⟨.hbm, 160, rfl⟩
abbrev main_c_14 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_c_15 : Ref sig .tc := ⟨.hbm, 167, rfl⟩
abbrev main_v136 : Ref sig .tc := ⟨.hbm, 168, rfl⟩
abbrev main_v137 : Ref sig .tc := ⟨.hbm, 169, rfl⟩
abbrev main_c_16 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_cst_17 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg6_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg4_1 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg1_1 : Ref sig .tc := ⟨.vmem, 47, rfl⟩
abbrev cc5_stg2_0 : Ref sig .tc := ⟨.vmem, 48, rfl⟩
abbrev cc5_stg3_0 : Ref sig .tc := ⟨.vmem, 49, rfl⟩
abbrev cc5_stg4_0 : Ref sig .tc := ⟨.vmem, 50, rfl⟩
abbrev cc5_stg5_0 : Ref sig .tc := ⟨.vmem, 51, rfl⟩
abbrev cc5_stg6_0 : Ref sig .tc := ⟨.vmem, 52, rfl⟩
abbrev cc5_stg6_1 : Ref sig .tc := ⟨.vmem, 53, rfl⟩
abbrev cc6_stg0_0 : Ref sig .tc := ⟨.vmem, 54, rfl⟩
abbrev cc6_stg0_1 : Ref sig .tc := ⟨.vmem, 55, rfl⟩
abbrev cc6_stg1_0 : Ref sig .tc := ⟨.vmem, 56, rfl⟩
abbrev cc6_stg1_1 : Ref sig .tc := ⟨.vmem, 57, rfl⟩
abbrev cc6_stg2_0 : Ref sig .tc := ⟨.vmem, 58, rfl⟩
abbrev cc6_stg3_0 : Ref sig .tc := ⟨.vmem, 59, rfl⟩
abbrev cc6_stg4_0 : Ref sig .tc := ⟨.vmem, 60, rfl⟩
abbrev cc6_stg4_1 : Ref sig .tc := ⟨.vmem, 61, rfl⟩
abbrev cc7_stg0_0 : Ref sig .tc := ⟨.vmem, 62, rfl⟩
abbrev cc7_stg0_1 : Ref sig .tc := ⟨.vmem, 63, rfl⟩
abbrev cc7_stg1_0 : Ref sig .tc := ⟨.vmem, 64, rfl⟩
abbrev cc7_stg1_1 : Ref sig .tc := ⟨.vmem, 65, rfl⟩
abbrev cc7_stg2_0 : Ref sig .tc := ⟨.vmem, 66, rfl⟩
abbrev cc7_stg3_0 : Ref sig .tc := ⟨.vmem, 67, rfl⟩
abbrev cc7_stg4_0 : Ref sig .tc := ⟨.vmem, 68, rfl⟩
abbrev cc7_stg5_0 : Ref sig .tc := ⟨.vmem, 69, rfl⟩
abbrev cc7_stg6_0 : Ref sig .tc := ⟨.vmem, 70, rfl⟩
abbrev cc7_stg6_1 : Ref sig .tc := ⟨.vmem, 71, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem4_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem6_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem4_1 : DmaSem sig := 43
abbrev cc5_sem0_0 : DmaSem sig := 44
abbrev cc5_sem0_1 : DmaSem sig := 45
abbrev cc5_sem1_0 : DmaSem sig := 46
abbrev cc5_sem1_1 : DmaSem sig := 47
abbrev cc5_sem2_0 : DmaSem sig := 48
abbrev cc5_sem3_0 : DmaSem sig := 49
abbrev cc5_sem4_0 : DmaSem sig := 50
abbrev cc5_sem5_0 : DmaSem sig := 51
abbrev cc5_sem6_0 : DmaSem sig := 52
abbrev cc5_sem6_1 : DmaSem sig := 53
abbrev cc6_sem0_0 : DmaSem sig := 54
abbrev cc6_sem0_1 : DmaSem sig := 55
abbrev cc6_sem1_0 : DmaSem sig := 56
abbrev cc6_sem1_1 : DmaSem sig := 57
abbrev cc6_sem2_0 : DmaSem sig := 58
abbrev cc6_sem3_0 : DmaSem sig := 59
abbrev cc6_sem4_0 : DmaSem sig := 60
abbrev cc6_sem4_1 : DmaSem sig := 61
abbrev cc7_sem0_0 : DmaSem sig := 62
abbrev cc7_sem0_1 : DmaSem sig := 63
abbrev cc7_sem1_0 : DmaSem sig := 64
abbrev cc7_sem1_1 : DmaSem sig := 65
abbrev cc7_sem2_0 : DmaSem sig := 66
abbrev cc7_sem3_0 : DmaSem sig := 67
abbrev cc7_sem4_0 : DmaSem sig := 68
abbrev cc7_sem5_0 : DmaSem sig := 69
abbrev cc7_sem6_0 : DmaSem sig := 70
abbrev cc7_sem6_1 : DmaSem sig := 71

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x192 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x192 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x192 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x192 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S4000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x192 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x192 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x192 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x192 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S1000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![200], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S4000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x192 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S64x192 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x192 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x192 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S1000x64 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![200], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S4000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S4000x128 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![50], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S1000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S1000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S128x192 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S64x192 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x192 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x192 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 2 → Memref sig .tc .vmem S1000x64 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S50000x128_S50000x64_0_0 : S50000x128.Slices ![0, 0] S50000x64
  slices_S50000x128_S50000x64_0_64 : S50000x128.Slices ![0, 64] S50000x64
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  slices_S2x192x128_S1x192x128_0_0_0 : S2x192x128.Slices ![0, 0, 0] S1x192x128
  shapeCasts_S1x192x128_S192x128 : S1x192x128.ShapeCasts S192x128
  slices_S2x192x64_S1x192x64_0_0_0 : S2x192x64.Slices ![0, 0, 0] S1x192x64
  shapeCasts_S1x192x64_S192x64 : S1x192x64.ShapeCasts S192x64
  slices_S2x192_S1x192_0_0 : S2x192.Slices ![0, 0] S1x192
  shapeCasts_S1x192_S192 : S1x192.ShapeCasts S192
  bcast_S_S800000 : S_.BroadcastsInDim S800000 (![] : Fin 0 → Fin S800000.rank)
  bcast_S800000_S800000x1_0 : S800000.BroadcastsInDim S800000x1 (![0] : Fin 1 → Fin S800000x1.rank)
  transposes_S128x128_S128x128_1_0 : S128x128.Transposes [1, 0] S128x128
  shapeCasts_S128_S1x128 : S128.ShapeCasts S1x128
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  bitsLt_bf16_f32 : FTy.bits .bf16 < FTy.bits .f32
  concatenates_S4000x64_S4000x64_S4000x128_d1 : Shape.Concatenates [S4000x64, S4000x64] S4000x128 1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S4000x128_S4000x128_0_0 : ∀ a, (![0, 0] : Fin 2 → Nat) a + S4000x128.size a ≤ S4000x128.size a
  h_S4000x128 : 0 < S4000x128.numel
  bcast_S_S50000x128 : S_.BroadcastsInDim S50000x128 (![] : Fin 0 → Fin S50000x128.rank)
  transposes_S192x128_S128x192_1_0 : S192x128.Transposes [1, 0] S128x192
  transposes_S192x64_S64x192_1_0 : S192x64.Transposes [1, 0] S64x192
  shapeCasts_S192_S1x192 : S192.ShapeCasts S1x192
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  inb_S1000x64_S1000x64_0_0 : ∀ a, (![0, 0] : Fin 2 → Nat) a + S1000x64.size a ≤ S1000x64.size a
  h_S1000x64 : 0 < S1000x64.numel
  shapeCasts_S1000x64_S1000x64 : S1000x64.ShapeCasts S1000x64
  inb_S128x192_S128x192_0_0 : ∀ a, (![0, 0] : Fin 2 → Nat) a + S128x192.size a ≤ S128x192.size a
  h_S128x192 : 0 < S128x192.numel
  shapeCasts_S128x192_S128x192 : S128x192.ShapeCasts S128x192
  inb_S64x192_S64x192_0_0 : ∀ a, (![0, 0] : Fin 2 → Nat) a + S64x192.size a ≤ S64x192.size a
  h_S64x192 : 0 < S64x192.numel
  shapeCasts_S64x192_S64x192 : S64x192.ShapeCasts S64x192
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S1000x192 : S1x192.Broadcasts S1000x192
  slices_S1000x192_o0_0_S1000x64 : S1000x192.Slices ![0, 0] S1000x64
  slices_S1000x192_o0_64_S1000x64 : S1000x192.Slices ![0, 64] S1000x64
  slices_S1000x192_o0_128_S1000x64 : S1000x192.Slices ![0, 128] S1000x64
  slices_S2x128x128_S1x128x128_1_0_0 : S2x128x128.Slices ![1, 0, 0] S1x128x128
  slices_S2x128_S1x128_1_0 : S2x128.Slices ![1, 0] S1x128
  slices_S2x192x128_S1x192x128_1_0_0 : S2x192x128.Slices ![1, 0, 0] S1x192x128
  slices_S2x192x64_S1x192x64_1_0_0 : S2x192x64.Slices ![1, 0, 0] S1x192x64
  slices_S2x192_S1x192_1_0 : S2x192.Slices ![1, 0] S1x192
  concatenates_S50000x64_S50000x64_S50000x128_d1 : Shape.Concatenates [S50000x64, S50000x64] S50000x128 1
  gather_S50000x64_S800000x1_S800000x64_1_0_n_n_0_1_164_wf : GatherDims.WF S50000x64 S800000x1 S800000x64 [1] [0] [] [0] [] 1 ![1, 64]
  dot_S4000x128_S128x128_S4000x128_1_0_0_1_n_n_wf : DotDims.WF S4000x128 S128x128 S4000x128 [1] [0] [0] [1] [] []
  scatter_S50000x128_S800000x1_S800000x128_1_0_0_1_wf : ScatterDims.WF S50000x128 S800000x1 S800000x128 [1] [0] [0] 1
  dot_S1000x128_S128x192_S1000x192_1_0_0_1_n_n_wf : DotDims.WF S1000x128 S128x192 S1000x192 [1] [0] [0] [1] [] []
  dot_S1000x64_S64x192_S1000x192_1_0_0_1_n_n_wf : DotDims.WF S1000x64 S64x192 S1000x192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S800000x64.size a
  hwx0_0 : ∀ i : grid0.Coords, EltTy.bits .f32 = 32 ∨ (Rect.block (s := S800000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S800000x64.size a
  hwx0_1 : ∀ i : grid0.Coords, EltTy.bits .f32 = 32 ∨ (Rect.block (s := S800000x64) S4000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x128.size a ≤ S800000x128.size a
  hwx0_4 : ∀ i : grid0.Coords, EltTy.bits .f32 = 32 ∨ (Rect.block (s := S800000x128) S4000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S50000x128.size a
  hwx1_0 : ∀ i : grid1.Coords, EltTy.bits .f32 = 32 ∨ (Rect.block (s := S50000x128) S1000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x64.size a ≤ S50000x64.size a
  hwx1_1 : ∀ i : grid1.Coords, EltTy.bits .f32 = 32 ∨ (Rect.block (s := S50000x64) S1000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x192.size a ≤ S128x192.size a
  hwx1_2 : ∀ i : grid1.Coords, EltTy.bits .f32 = 32 ∨ (Rect.block (s := S128x192) S128x192.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x192.size a ≤ S64x192.size a
  hwx1_3 : ∀ i : grid1.Coords, EltTy.bits .f32 = 32 ∨ (Rect.block (s := S64x192) S64x192.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x192.size a ≤ S1x192.size a
  hwx1_4 : ∀ i : grid1.Coords, EltTy.bits .f32 = 32 ∨ (Rect.block (s := S1x192) S1x192.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x192.size a ≤ S1x192.size a
  hwx1_5 : ∀ i : grid1.Coords, EltTy.bits .f32 = 32 ∨ (Rect.block (s := S1x192) S1x192.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1000x64.size a ≤ S50000x64.size a
  hwx1_6 : ∀ i : grid1.Coords, EltTy.bits .f32 = 32 ∨ (Rect.block (s := S50000x64) S1000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S800000x64.size a
  hwx2_0 : ∀ i : grid2.Coords, EltTy.bits .f32 = 32 ∨ (Rect.block (s := S800000x64) S4000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x64.size a ≤ S800000x64.size a
  hwx2_1 : ∀ i : grid2.Coords, EltTy.bits .f32 = 32 ∨ (Rect.block (s := S800000x64) S4000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x128.size a ≤ S800000x128.size a
  hwx2_4 : ∀ i : grid2.Coords, EltTy.bits .f32 = 32 ∨ (Rect.block (s := S800000x128) S4000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x128.size a ≤ S50000x128.size a
  hwx3_0 : ∀ i : grid3.Coords, EltTy.bits .f32 = 32 ∨ (Rect.block (s := S50000x128) S1000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1000x64.size a ≤ S50000x64.size a
  hwx3_1 : ∀ i : grid3.Coords, EltTy.bits .f32 = 32 ∨ (Rect.block (s := S50000x64) S1000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x192.size a ≤ S128x192.size a
  hwx3_2 : ∀ i : grid3.Coords, EltTy.bits .f32 = 32 ∨ (Rect.block (s := S128x192) S128x192.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x192.size a ≤ S64x192.size a
  hwx3_3 : ∀ i : grid3.Coords, EltTy.bits .f32 = 32 ∨ (Rect.block (s := S64x192) S64x192.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x192.size a ≤ S1x192.size a
  hwx3_4 : ∀ i : grid3.Coords, EltTy.bits .f32 = 32 ∨ (Rect.block (s := S1x192) S1x192.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x192.size a ≤ S1x192.size a
  hwx3_5 : ∀ i : grid3.Coords, EltTy.bits .f32 = 32 ∨ (Rect.block (s := S1x192) S1x192.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S1000x64.size a ≤ S50000x64.size a
  hwx3_6 : ∀ i : grid3.Coords, EltTy.bits .f32 = 32 ∨ (Rect.block (s := S50000x64) S1000x64.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x64.size a ≤ S800000x64.size a
  hwx4_0 : ∀ i : grid4.Coords, EltTy.bits .f32 = 32 ∨ (Rect.block (s := S800000x64) S4000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x64.size a ≤ S800000x64.size a
  hwx4_1 : ∀ i : grid4.Coords, EltTy.bits .f32 = 32 ∨ (Rect.block (s := S800000x64) S4000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S4000x128.size a ≤ S800000x128.size a
  hwx4_4 : ∀ i : grid4.Coords, EltTy.bits .f32 = 32 ∨ (Rect.block (s := S800000x128) S4000x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1000x128.size a ≤ S50000x128.size a
  hwx5_0 : ∀ i : grid5.Coords, EltTy.bits .f32 = 32 ∨ (Rect.block (s := S50000x128) S1000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1000x64.size a ≤ S50000x64.size a
  hwx5_1 : ∀ i : grid5.Coords, EltTy.bits .f32 = 32 ∨ (Rect.block (s := S50000x64) S1000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x192.size a ≤ S128x192.size a
  hwx5_2 : ∀ i : grid5.Coords, EltTy.bits .f32 = 32 ∨ (Rect.block (s := S128x192) S128x192.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x192.size a ≤ S64x192.size a
  hwx5_3 : ∀ i : grid5.Coords, EltTy.bits .f32 = 32 ∨ (Rect.block (s := S64x192) S64x192.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x192.size a ≤ S1x192.size a
  hwx5_4 : ∀ i : grid5.Coords, EltTy.bits .f32 = 32 ∨ (Rect.block (s := S1x192) S1x192.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x192.size a ≤ S1x192.size a
  hwx5_5 : ∀ i : grid5.Coords, EltTy.bits .f32 = 32 ∨ (Rect.block (s := S1x192) S1x192.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S1000x64.size a ≤ S50000x64.size a
  hwx5_6 : ∀ i : grid5.Coords, EltTy.bits .f32 = 32 ∨ (Rect.block (s := S50000x64) S1000x64.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4000x64.size a ≤ S800000x64.size a
  hwx6_0 : ∀ i : grid6.Coords, EltTy.bits .f32 = 32 ∨ (Rect.block (s := S800000x64) S4000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S4000x64.size a ≤ S800000x64.size a
  hwx6_1 : ∀ i : grid6.Coords, EltTy.bits .f32 = 32 ∨ (Rect.block (s := S800000x64) S4000x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x128.size a ≤ S128x128.size a
  hwx6_2 : ∀ i : grid6.Coords, EltTy.bits .f32 = 32 ∨ (Rect.block (s := S128x128) S128x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S4000x128.size a ≤ S800000x128.size a
  hwx6_4 : ∀ i : grid6.Coords, EltTy.bits .f32 = 32 ∨ (Rect.block (s := S800000x128) S4000x128.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1000x128.size a ≤ S50000x128.size a
  hwx7_0 : ∀ i : grid7.Coords, EltTy.bits .f32 = 32 ∨ (Rect.block (s := S50000x128) S1000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S1000x64.size a ≤ S50000x64.size a
  hwx7_1 : ∀ i : grid7.Coords, EltTy.bits .f32 = 32 ∨ (Rect.block (s := S50000x64) S1000x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128x192.size a ≤ S128x192.size a
  hwx7_2 : ∀ i : grid7.Coords, EltTy.bits .f32 = 32 ∨ (Rect.block (s := S128x192) S128x192.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S64x192.size a ≤ S64x192.size a
  hwx7_3 : ∀ i : grid7.Coords, EltTy.bits .f32 = 32 ∨ (Rect.block (s := S64x192) S64x192.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x192.size a ≤ S1x192.size a
  hwx7_4 : ∀ i : grid7.Coords, EltTy.bits .f32 = 32 ∨ (Rect.block (s := S1x192) S1x192.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x192.size a ≤ S1x192.size a
  hwx7_5 : ∀ i : grid7.Coords, EltTy.bits .f32 = 32 ∨ (Rect.block (s := S1x192) S1x192.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S1000x64.size a ≤ S50000x64.size a
  hwx7_6 : ∀ i : grid7.Coords, EltTy.bits .f32 = 32 ∨ (Rect.block (s := S50000x64) S1000x64.size (cc7_transform_6 i) (hinb7_6 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S1000x128_S128x192_S1000x192_1_0_0_1_n_n : DotDims S1000x128 S128x192 S1000x192 where
  lhsContracting := [1]
  rhsContracting := [0]
  lhsNonContracting := [0]
  rhsNonContracting := [1]
  lhsBatch := []
  rhsBatch := []
  wf := dot_S1000x128_S128x192_S1000x192_1_0_0_1_n_n_wf
def dot_S1000x64_S64x192_S1000x192_1_0_0_1_n_n : DotDims S1000x64 S64x192 S1000x192 where
  lhsContracting := [1]
  rhsContracting := [0]
  lhsNonContracting := [0]
  rhsNonContracting := [1]
  lhsBatch := []
  rhsBatch := []
  wf := dot_S1000x64_S64x192_S1000x192_1_0_0_1_n_n_wf

abbrev win0_0 : Pipeline.Window sig grid0 :=
  Pipeline.Window.ofSpec (Memref.whole main_v24) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v32) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v33) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v34) S4000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v37) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v38) S128x192.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S64x192.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x192.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S1x192.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v42) S1000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v61) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v68) S4000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v69) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v70) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v71) S4000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v74) S1000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v42) S1000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v75) S128x192.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v76) S64x192.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v77) S1x192.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v78) S1x192.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v79) S1000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v98) S4000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v105) S4000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v106) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v107) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v108) S4000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v111) S1000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v5) S1000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v112) S128x192.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v113) S64x192.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v114) S1x192.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v115) S1x192.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v116) S1000x64.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v135) S4000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v142) S4000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v143) S128x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v144) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v145) S4000x128.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v148) S1000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v116) S1000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v149) S128x192.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v150) S64x192.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v151) S1x192.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v152) S1x192.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v153) S1000x64.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S2x128x128 : Shape := ⟨3, ![2, 128, 128]⟩
abbrev S2x128 : Shape := ⟨2, ![2, 128]⟩
abbrev S2x192x128 : Shape := ⟨3, ![2, 192, 128]⟩
abbrev S2x192x64 : Shape := ⟨3, ![2, 192, 64]⟩
abbrev S2x192 : Shape := ⟨2, ![2, 192]⟩
abbrev S1x800000 : Shape := ⟨2, ![1, 800000]⟩
abbrev S800000 : Shape := ⟨1, ![800000]⟩
abbrev S50000x64 : Shape := ⟨2, ![50000, 64]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1x192x128 : Shape := ⟨3, ![1, 192, 128]⟩
abbrev S192x128 : Shape := ⟨2, ![192, 128]⟩
abbrev S1x192x64 : Shape := ⟨3, ![1, 192, 64]⟩
abbrev S192x64 : Shape := ⟨2, ![192, 64]⟩
abbrev S1x192 : Shape := ⟨2, ![1, 192]⟩
abbrev S192 : Shape := ⟨1, ![192]⟩
abbrev S_ : Shape := ⟨0, ![]⟩
abbrev S800000x1 : Shape := ⟨2, ![800000, 1]⟩
abbrev S800000x64 : Shape := ⟨2, ![800000, 64]⟩
abbrev S800000x128 : Shape := ⟨2, ![800000, 128]⟩
abbrev S128x192 : Shape := ⟨2, ![128, 192]⟩
abbrev S50000x192 : Shape := ⟨2, ![50000, 192]⟩
abbrev S64x192 : Shape := ⟨2, ![64, 192]⟩

abbrev nBuf : Space → Nat
  | .hbm => 353
  | .vmem => 0
  | .smem => 0
  | _ => 0

abbrev hbmTy0_0 (i : Nat) : BufTy := match i % 128 with
  | 0 => ⟨S50000x128, .f32⟩
  | 1 => ⟨S2x800000, .i32⟩
  | 2 => ⟨S2x128x128, .f32⟩
  | 3 => ⟨S2x128, .f32⟩
  | 4 => ⟨S2x192x128, .f32⟩
  | 5 => ⟨S2x192x64, .f32⟩
  | 6 => ⟨S2x192, .f32⟩
  | 7 => ⟨S2x192, .f32⟩
  | 8 => ⟨S2x128x128, .f32⟩
  | 9 => ⟨S2x128, .f32⟩
  | 10 => ⟨S2x192x128, .f32⟩
  | 11 => ⟨S2x192x64, .f32⟩
  | 12 => ⟨S2x192, .f32⟩
  | 13 => ⟨S2x192, .f32⟩
  | 14 => ⟨S1x800000, .i32⟩
  | 15 => ⟨S800000, .i32⟩
  | 16 => ⟨S1x800000, .i32⟩
  | 17 => ⟨S800000, .i32⟩
  | 18 => ⟨S50000x64, .f32⟩
  | 19 => ⟨S50000x64, .f32⟩
  | 20 => ⟨S1x128x128, .f32⟩
  | 21 => ⟨S128x128, .f32⟩
  | 22 => ⟨S1x128, .f32⟩
  | 23 => ⟨S128, .f32⟩
  | 24 => ⟨S1x192x128, .f32⟩
  | 25 => ⟨S192x128, .f32⟩
  | 26 => ⟨S1x192x64, .f32⟩
  | 27 => ⟨S192x64, .f32⟩
  | 28 => ⟨S1x192, .f32⟩
  | 29 => ⟨S192, .f32⟩
  | 30 => ⟨S1x192, .f32⟩
  | 31 => ⟨S192, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000x64, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000x64, .f32⟩
  | 50 => ⟨S800000x128, .f32⟩
  | 51 => ⟨S128x128, .f32⟩
  | 52 => ⟨S800000x128, .f32⟩
  | 53 => ⟨S1x128, .f32⟩
  | 54 => ⟨S800000x128, .f32⟩
  | 55 => ⟨S800000x128, .f32⟩
  | 56 => ⟨S_, .f32⟩
  | 57 => ⟨S50000x128, .f32⟩
  | 58 => ⟨S800000x1, .i32⟩
  | 59 => ⟨S50000x128, .f32⟩
  | 60 => ⟨S128x192, .f32⟩
  | 61 => ⟨S50000x192, .f32⟩
  | 62 => ⟨S1x192, .f32⟩
  | 63 => ⟨S50000x192, .f32⟩
  | 64 => ⟨S50000x192, .f32⟩
  | 65 => ⟨S64x192, .f32⟩
  | 66 => ⟨S50000x192, .f32⟩
  | 67 => ⟨S1x192, .f32⟩
  | 68 => ⟨S50000x192, .f32⟩
  | 69 => ⟨S50000x192, .f32⟩
  | 70 => ⟨S50000x64, .f32⟩
  | 71 => ⟨S50000x64, .f32⟩
  | 72 => ⟨S50000x64, .f32⟩
  | 73 => ⟨S50000x64, .f32⟩
  | 74 => ⟨S50000x64, .f32⟩
  | 75 => ⟨S50000x64, .f32⟩
  | 76 => ⟨S50000x64, .f32⟩
  | 77 => ⟨S50000x64, .f32⟩
  | 78 => ⟨S50000x64, .f32⟩
  | 79 => ⟨S_, .f32⟩
  | 80 => ⟨S50000x64, .f32⟩
  | 81 => ⟨S50000x64, .f32⟩
  | 82 => ⟨S_, .f32⟩
  | 83 => ⟨S50000x64, .f32⟩
  | 84 => ⟨S50000x64, .f32⟩
  | 85 => ⟨S50000x64, .f32⟩
  | 86 => ⟨S50000x64, .f32⟩
  | 87 => ⟨S50000x64, .f32⟩
  | 88 => ⟨S_, .f32⟩
  | 89 => ⟨S50000x64, .f32⟩
  | 90 => ⟨S50000x64, .f32⟩
  | 91 => ⟨S_, .f32⟩
  | 92 => ⟨S50000x64, .f32⟩
  | 93 => ⟨S50000x64, .f32⟩
  | 94 => ⟨S50000x64, .f32⟩
  | 95 => ⟨S50000x64, .f32⟩
  | 96 => ⟨S50000x64, .f32⟩
  | 97 => ⟨S_, .f32⟩
  | 98 => ⟨S50000x64, .f32⟩
  | 99 => ⟨S50000x64, .f32⟩
  | 100 => ⟨S50000x64, .f32⟩
  | 101 => ⟨S50000x64, .f32⟩
  | 102 => ⟨S50000x64, .f32⟩
  | 103 => ⟨S1x128x128, .f32⟩
  | 104 => ⟨S128x128, .f32⟩
  | 105 => ⟨S1x128, .f32⟩
  | 106 => ⟨S128, .f32⟩
  | 107 => ⟨S1x192x128, .f32⟩
  | 108 => ⟨S192x128, .f32⟩
  | 109 => ⟨S1x192x64, .f32⟩
  | 110 => ⟨S192x64, .f32⟩
  | 111 => ⟨S1x192, .f32⟩
  | 112 => ⟨S192, .f32⟩
  | 113 => ⟨S1x192, .f32⟩
  | 114 => ⟨S192, .f32⟩
  | 115 => ⟨S_, .i32⟩
  | 116 => ⟨S800000, .i32⟩
  | 117 => ⟨S800000, .i1⟩
  | 118 => ⟨S_, .i32⟩
  | 119 => ⟨S800000, .i32⟩
  | 120 => ⟨S800000, .i32⟩
  | 121 => ⟨S800000, .i32⟩
  | 122 => ⟨S800000x1, .i32⟩
  | 123 => ⟨S800000x64, .f32⟩
  | 124 => ⟨S_, .i32⟩
  | 125 => ⟨S800000, .i32⟩
  | 126 => ⟨S800000, .i1⟩
  | 127 => ⟨S_, .i32⟩
  | _ => ⟨S50000x128, .f32⟩

abbrev hbmTy0_1 (i : Nat) : BufTy := match i % 128 with
  | 0 => ⟨S800000, .i32⟩
  | 1 => ⟨S800000, .i32⟩
  | 2 => ⟨S800000, .i32⟩
  | 3 => ⟨S800000x1, .i32⟩
  | 4 => ⟨S800000x64, .f32⟩
  | 5 => ⟨S800000x128, .f32⟩
  | 6 => ⟨S128x128, .f32⟩
  | 7 => ⟨S800000x128, .f32⟩
  | 8 => ⟨S1x128, .f32⟩
  | 9 => ⟨S800000x128, .f32⟩
  | 10 => ⟨S800000x128, .f32⟩
  | 11 => ⟨S_, .f32⟩
  | 12 => ⟨S50000x128, .f32⟩
  | 13 => ⟨S800000x1, .i32⟩
  | 14 => ⟨S50000x128, .f32⟩
  | 15 => ⟨S128x192, .f32⟩
  | 16 => ⟨S50000x192, .f32⟩
  | 17 => ⟨S1x192, .f32⟩
  | 18 => ⟨S50000x192, .f32⟩
  | 19 => ⟨S50000x192, .f32⟩
  | 20 => ⟨S64x192, .f32⟩
  | 21 => ⟨S50000x192, .f32⟩
  | 22 => ⟨S1x192, .f32⟩
  | 23 => ⟨S50000x192, .f32⟩
  | 24 => ⟨S50000x192, .f32⟩
  | 25 => ⟨S50000x64, .f32⟩
  | 26 => ⟨S50000x64, .f32⟩
  | 27 => ⟨S50000x64, .f32⟩
  | 28 => ⟨S50000x64, .f32⟩
  | 29 => ⟨S50000x64, .f32⟩
  | 30 => ⟨S50000x64, .f32⟩
  | 31 => ⟨S50000x64, .f32⟩
  | 32 => ⟨S50000x64, .f32⟩
  | 33 => ⟨S50000x64, .f32⟩
  | 34 => ⟨S_, .f32⟩
  | 35 => ⟨S50000x64, .f32⟩
  | 36 => ⟨S50000x64, .f32⟩
  | 37 => ⟨S_, .f32⟩
  | 38 => ⟨S50000x64, .f32⟩
  | 39 => ⟨S50000x64, .f32⟩
  | 40 => ⟨S50000x64, .f32⟩
  | 41 => ⟨S50000x64, .f32⟩
  | 42 => ⟨S50000x64, .f32⟩
  | 43 => ⟨S_, .f32⟩
  | 44 => ⟨S50000x64, .f32⟩
  | 45 => ⟨S50000x64, .f32⟩
  | 46 => ⟨S_, .f32⟩
  | 47 => ⟨S50000x64, .f32⟩
  | 48 => ⟨S50000x64, .f32⟩
  | 49 => ⟨S50000x64, .f32⟩
  | 50 => ⟨S50000x64, .f32⟩
  | 51 => ⟨S50000x64, .f32⟩
  | 52 => ⟨S_, .f32⟩
  | 53 => ⟨S50000x64, .f32⟩
  | 54 => ⟨S50000x64, .f32⟩
  | 55 => ⟨S50000x64, .f32⟩
  | 56 => ⟨S50000x64, .f32⟩
  | 57 => ⟨S50000x64, .f32⟩
  | 58 => ⟨S1x128x128, .f32⟩
  | 59 => ⟨S128x128, .f32⟩
  | 60 => ⟨S1x128, .f32⟩
  | 61 => ⟨S128, .f32⟩
  | 62 => ⟨S1x192x128, .f32⟩
  | 63 => ⟨S192x128, .f32⟩
  | 64 => ⟨S1x192x64, .f32⟩
  | 65 => ⟨S192x64, .f32⟩
  | 66 => ⟨S1x192, .f32⟩
  | 67 => ⟨S192, .f32⟩
  | 68 => ⟨S1x192, .f32⟩
  | 69 => ⟨S192, .f32⟩
  | 70 => ⟨S_, .i32⟩
  | 71 => ⟨S800000, .i32⟩
  | 72 => ⟨S800000, .i1⟩
  | 73 => ⟨S_, .i32⟩
  | 74 => ⟨S800000, .i32⟩
  | 75 => ⟨S800000, .i32⟩
  | 76 => ⟨S800000, .i32⟩
  | 77 => ⟨S800000x1, .i32⟩
  | 78 => ⟨S800000x64, .f32⟩
  | 79 => ⟨S_, .i32⟩
  | 80 => ⟨S800000, .i32⟩
  | 81 => ⟨S800000, .i1⟩
  | 82 => ⟨S_, .i32⟩
  | 83 => ⟨S800000, .i32⟩
  | 84 => ⟨S800000, .i32⟩
  | 85 => ⟨S800000, .i32⟩
  | 86 => ⟨S800000x1, .i32⟩
  | 87 => ⟨S800000x64, .f32⟩
  | 88 => ⟨S800000x128, .f32⟩
  | 89 => ⟨S128x128, .f32⟩
  | 90 => ⟨S800000x128, .f32⟩
  | 91 => ⟨S1x128, .f32⟩
  | 92 => ⟨S800000x128, .f32⟩
  | 93 => ⟨S800000x128, .f32⟩
  | 94 => ⟨S_, .f32⟩
  | 95 => ⟨S50000x128, .f32⟩
  | 96 => ⟨S800000x1, .i32⟩
  | 97 => ⟨S50000x128, .f32⟩
  | 98 => ⟨S128x192, .f32⟩
  | 99 => ⟨S50000x192, .f32⟩
  | 100 => ⟨S1x192, .f32⟩
  | 101 => ⟨S50000x192, .f32⟩
  | 102 => ⟨S50000x192, .f32⟩
  | 103 => ⟨S64x192, .f32⟩
  | 104 => ⟨S50000x192, .f32⟩
  | 105 => ⟨S1x192, .f32⟩
  | 106 => ⟨S50000x192, .f32⟩
  | 107 => ⟨S50000x192, .f32⟩
  | 108 => ⟨S50000x64, .f32⟩
  | 109 => ⟨S50000x64, .f32⟩
  | 110 => ⟨S50000x64, .f32⟩
  | 111 => ⟨S50000x64, .f32⟩
  | 112 => ⟨S50000x64, .f32⟩
  | 113 => ⟨S50000x64, .f32⟩
  | 114 => ⟨S50000x64, .f32⟩
  | 115 => ⟨S50000x64, .f32⟩
  | 116 => ⟨S50000x64, .f32⟩
  | 117 => ⟨S_, .f32⟩
  | 118 => ⟨S50000x64, .f32⟩
  | 119 => ⟨S50000x64, .f32⟩
  | 120 => ⟨S_, .f32⟩
  | 121 => ⟨S50000x64, .f32⟩
  | 122 => ⟨S50000x64, .f32⟩
  | 123 => ⟨S50000x64, .f32⟩
  | 124 => ⟨S50000x64, .f32⟩
  | 125 => ⟨S50000x64, .f32⟩
  | 126 => ⟨S_, .f32⟩
  | 127 => ⟨S50000x64, .f32⟩
  | _ => ⟨S50000x128, .f32⟩

abbrev hbmTy0_2 (i : Nat) : BufTy := match i % 128 with
  | 0 => ⟨S50000x64, .f32⟩
  | 1 => ⟨S_, .f32⟩
  | 2 => ⟨S50000x64, .f32⟩
  | 3 => ⟨S50000x64, .f32⟩
  | 4 => ⟨S50000x64, .f32⟩
  | 5 => ⟨S50000x64, .f32⟩
  | 6 => ⟨S50000x64, .f32⟩
  | 7 => ⟨S_, .f32⟩
  | 8 => ⟨S50000x64, .f32⟩
  | 9 => ⟨S50000x64, .f32⟩
  | 10 => ⟨S50000x64, .f32⟩
  | 11 => ⟨S50000x64, .f32⟩
  | 12 => ⟨S50000x64, .f32⟩
  | 13 => ⟨S1x128x128, .f32⟩
  | 14 => ⟨S128x128, .f32⟩
  | 15 => ⟨S1x128, .f32⟩
  | 16 => ⟨S128, .f32⟩
  | 17 => ⟨S1x192x128, .f32⟩
  | 18 => ⟨S192x128, .f32⟩
  | 19 => ⟨S1x192x64, .f32⟩
  | 20 => ⟨S192x64, .f32⟩
  | 21 => ⟨S1x192, .f32⟩
  | 22 => ⟨S192, .f32⟩
  | 23 => ⟨S1x192, .f32⟩
  | 24 => ⟨S192, .f32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000x64, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000x64, .f32⟩
  | 43 => ⟨S800000x128, .f32⟩
  | 44 => ⟨S128x128, .f32⟩
  | 45 => ⟨S800000x128, .f32⟩
  | 46 => ⟨S1x128, .f32⟩
  | 47 => ⟨S800000x128, .f32⟩
  | 48 => ⟨S800000x128, .f32⟩
  | 49 => ⟨S_, .f32⟩
  | 50 => ⟨S50000x128, .f32⟩
  | 51 => ⟨S800000x1, .i32⟩
  | 52 => ⟨S50000x128, .f32⟩
  | 53 => ⟨S128x192, .f32⟩
  | 54 => ⟨S50000x192, .f32⟩
  | 55 => ⟨S1x192, .f32⟩
  | 56 => ⟨S50000x192, .f32⟩
  | 57 => ⟨S50000x192, .f32⟩
  | 58 => ⟨S64x192, .f32⟩
  | 59 => ⟨S50000x192, .f32⟩
  | 60 => ⟨S1x192, .f32⟩
  | 61 => ⟨S50000x192, .f32⟩
  | 62 => ⟨S50000x192, .f32⟩
  | 63 => ⟨S50000x64, .f32⟩
  | 64 => ⟨S50000x64, .f32⟩
  | 65 => ⟨S50000x64, .f32⟩
  | 66 => ⟨S50000x64, .f32⟩
  | 67 => ⟨S50000x64, .f32⟩
  | 68 => ⟨S50000x64, .f32⟩
  | 69 => ⟨S50000x64, .f32⟩
  | 70 => ⟨S50000x64, .f32⟩
  | 71 => ⟨S50000x64, .f32⟩
  | 72 => ⟨S_, .f32⟩
  | 73 => ⟨S50000x64, .f32⟩
  | 74 => ⟨S50000x64, .f32⟩
  | 75 => ⟨S_, .f32⟩
  | 76 => ⟨S50000x64, .f32⟩
  | 77 => ⟨S50000x64, .f32⟩
  | 78 => ⟨S50000x64, .f32⟩
  | 79 => ⟨S50000x64, .f32⟩
  | 80 => ⟨S50000x64, .f32⟩
  | 81 => ⟨S_, .f32⟩
  | 82 => ⟨S50000x64, .f32⟩
  | 83 => ⟨S50000x64, .f32⟩
  | 84 => ⟨S_, .f32⟩
  | 85 => ⟨S50000x64, .f32⟩
  | 86 => ⟨S50000x64, .f32⟩
  | 87 => ⟨S50000x64, .f32⟩
  | 88 => ⟨S50000x64, .f32⟩
  | 89 => ⟨S50000x64, .f32⟩
  | 90 => ⟨S_, .f32⟩
  | 91 => ⟨S50000x64, .f32⟩
  | 92 => ⟨S50000x64, .f32⟩
  | 93 => ⟨S50000x64, .f32⟩
  | 94 => ⟨S50000x64, .f32⟩
  | 95 => ⟨S50000x64, .f32⟩
  | 96 => ⟨S50000x128, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_0 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_1 : Ref sig .tc := ⟨.hbm, 41, rfl⟩
abbrev main_v25 : Ref sig .tc := ⟨.hbm, 42, rfl⟩
abbrev main_v26 : Ref sig .tc := ⟨.hbm, 43, rfl⟩
abbrev main_c_2 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_3 : Ref sig .tc := ⟨.hbm, 79, rfl⟩
abbrev main_v60 : Ref sig .tc := ⟨.hbm, 80, rfl⟩
abbrev main_v61 : Ref sig .tc := ⟨.hbm, 81, rfl⟩
abbrev main_cst_4 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_5 : Ref sig .tc := ⟨.hbm, 88, rfl⟩
abbrev main_v67 : Ref sig .tc := ⟨.hbm, 89, rfl⟩
abbrev main_v68 : Ref sig .tc := ⟨.hbm, 90, rfl⟩
abbrev main_cst_6 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_7 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_c_8 : Ref sig .tc := ⟨.hbm, 115, rfl⟩
abbrev main_v91 : Ref sig .tc := ⟨.hbm, 116, rfl⟩
abbrev main_v92 : Ref sig .tc := ⟨.hbm, 117, rfl⟩
abbrev main_c_9 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_c_10 : Ref sig .tc := ⟨.hbm, 124, rfl⟩
abbrev main_v98 : Ref sig .tc := ⟨.hbm, 125, rfl⟩
abbrev main_v99 : Ref sig .tc := ⟨.hbm, 126, rfl⟩
abbrev main_c_11 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_cst_12 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_cst_13 : Ref sig .tc := ⟨.hbm, 162, rfl⟩
abbrev main_v133 : Ref sig .tc := ⟨.hbm, 163, rfl⟩
abbrev main_v134 : Ref sig .tc := ⟨.hbm, 164, rfl⟩
abbrev main_cst_14 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_cst_15 : Ref sig .tc := ⟨.hbm, 171, rfl⟩
abbrev main_v140 : Ref sig .tc := ⟨.hbm, 172, rfl⟩
abbrev main_v141 : Ref sig .tc := ⟨.hbm, 173, rfl⟩
abbrev main_cst_16 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_cst_17 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_v163 : Ref sig .tc := ⟨.hbm, 197, rfl⟩
abbrev main_c_18 : Ref sig .tc := ⟨.hbm, 198, rfl⟩
abbrev main_v164 : Ref sig .tc := ⟨.hbm, 199, rfl⟩
abbrev main_v165 : Ref sig .tc := ⟨.hbm, 200, rfl⟩
abbrev main_c_19 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_c_20 : Ref sig .tc := ⟨.hbm, 207, rfl⟩
abbrev main_v171 : Ref sig .tc := ⟨.hbm, 208, rfl⟩
abbrev main_v172 : Ref sig .tc := ⟨.hbm, 209, rfl⟩
abbrev main_c_21 : Ref sig .tc := ⟨.hbm, 210, rfl⟩
abbrev main_v173 : Ref sig .tc := ⟨.hbm, 211, rfl⟩
abbrev main_v174 : Ref sig .tc := ⟨.hbm, 212, rfl⟩
abbrev main_v175 : Ref sig .tc := ⟨.hbm, 213, rfl⟩
abbrev main_v176 : Ref sig .tc := ⟨.hbm, 214, rfl⟩
abbrev main_v177 : Ref sig .tc := ⟨.hbm, 215, rfl⟩
abbrev main_v178 : Ref sig .tc := ⟨.hbm, 216, rfl⟩
abbrev main_v179 : Ref sig .tc := ⟨.hbm, 217, rfl⟩
abbrev main_v180 : Ref sig .tc := ⟨.hbm, 218, rfl⟩
abbrev main_v181 : Ref sig .tc := ⟨.hbm, 219, rfl⟩
abbrev main_v182 : Ref sig .tc := ⟨.hbm, 220, rfl⟩
abbrev main_v183 : Ref sig .tc := ⟨.hbm, 221, rfl⟩
abbrev main_cst_22 : Ref sig .tc := ⟨.hbm, 222, rfl⟩
abbrev main_v184 : Ref sig .tc := ⟨.hbm, 223, rfl⟩
abbrev main_v185 : Ref sig .tc := ⟨.hbm, 224, rfl⟩
abbrev main_v186 : Ref sig .tc := ⟨.hbm, 225, rfl⟩
abbrev main_v187 : Ref sig .tc := ⟨.hbm, 226, rfl⟩
abbrev main_v188 : Ref sig .tc := ⟨.hbm, 227, rfl⟩
abbrev main_v189 : Ref sig .tc := ⟨.hbm, 228, rfl⟩
abbrev main_v190 : Ref sig .tc := ⟨.hbm, 229, rfl⟩
abbrev main_v191 : Ref sig .tc := ⟨.hbm, 230, rfl⟩
abbrev main_v192 : Ref sig .tc := ⟨.hbm, 231, rfl⟩
abbrev main_v193 : Ref sig .tc := ⟨.hbm, 232, rfl⟩
abbrev main_v194 : Ref sig .tc := ⟨.hbm, 233, rfl⟩
abbrev main_v195 : Ref sig .tc := ⟨.hbm, 234, rfl⟩
abbrev main_v196 : Ref sig .tc := ⟨.hbm, 235, rfl⟩
abbrev main_v197 : Ref sig .tc := ⟨.hbm, 236, rfl⟩
abbrev main_v198 : Ref sig .tc := ⟨.hbm, 237, rfl⟩
abbrev main_v199 : Ref sig .tc := ⟨.hbm, 238, rfl⟩
abbrev main_v200 : Ref sig .tc := ⟨.hbm, 239, rfl⟩
abbrev main_v201 : Ref sig .tc := ⟨.hbm, 240, rfl⟩
abbrev main_v202 : Ref sig .tc := ⟨.hbm, 241, rfl⟩
abbrev main_v203 : Ref sig .tc := ⟨.hbm, 242, rfl⟩
abbrev main_v204 : Ref sig .tc := ⟨.hbm, 243, rfl⟩
abbrev main_v205 : Ref sig .tc := ⟨.hbm, 244, rfl⟩
abbrev main_cst_23 : Ref sig .tc := ⟨.hbm, 245, rfl⟩
abbrev main_v206 : Ref sig .tc := ⟨.hbm, 246, rfl⟩
abbrev main_v207 : Ref sig .tc := ⟨.hbm, 247, rfl⟩
abbrev main_cst_24 : Ref sig .tc := ⟨.hbm, 248, rfl⟩
abbrev main_v208 : Ref sig .tc := ⟨.hbm, 249, rfl⟩
abbrev main_v209 : Ref sig .tc := ⟨.hbm, 250, rfl⟩
abbrev main_v210 : Ref sig .tc := ⟨.hbm, 251, rfl⟩
abbrev main_v211 : Ref sig .tc := ⟨.hbm, 252, rfl⟩
abbrev main_v212 : Ref sig .tc := ⟨.hbm, 253, rfl⟩
abbrev main_cst_25 : Ref sig .tc := ⟨.hbm, 254, rfl⟩
abbrev main_v213 : Ref sig .tc := ⟨.hbm, 255, rfl⟩
abbrev main_v214 : Ref sig .tc := ⟨.hbm, 256, rfl⟩
abbrev main_cst_26 : Ref sig .tc := ⟨.hbm, 257, rfl⟩
abbrev main_v215 : Ref sig .tc := ⟨.hbm, 258, rfl⟩
abbrev main_v216 : Ref sig .tc := ⟨.hbm, 259, rfl⟩
abbrev main_v217 : Ref sig .tc := ⟨.hbm, 260, rfl⟩
abbrev main_v218 : Ref sig .tc := ⟨.hbm, 261, rfl⟩
abbrev main_v219 : Ref sig .tc := ⟨.hbm, 262, rfl⟩
abbrev main_cst_27 : Ref sig .tc := ⟨.hbm, 263, rfl⟩
abbrev main_v220 : Ref sig .tc := ⟨.hbm, 264, rfl⟩
abbrev main_v221 : Ref sig .tc := ⟨.hbm, 265, rfl⟩
abbrev main_v222 : Ref sig .tc := ⟨.hbm, 266, rfl⟩
abbrev main_v223 : Ref sig .tc := ⟨.hbm, 267, rfl⟩
abbrev main_v224 : Ref sig .tc := ⟨.hbm, 268, rfl⟩
abbrev main_v225 : Ref sig .tc := ⟨.hbm, 269, rfl⟩
abbrev main_v226 : Ref sig .tc := ⟨.hbm, 270, rfl⟩
abbrev main_v227 : Ref sig .tc := ⟨.hbm, 271, rfl⟩
abbrev main_v228 : Ref sig .tc := ⟨.hbm, 272, rfl⟩
abbrev main_v229 : Ref sig .tc := ⟨.hbm, 273, rfl⟩
abbrev main_v230 : Ref sig .tc := ⟨.hbm, 274, rfl⟩
abbrev main_v231 : Ref sig .tc := ⟨.hbm, 275, rfl⟩
abbrev main_v232 : Ref sig .tc := ⟨.hbm, 276, rfl⟩
abbrev main_v233 : Ref sig .tc := ⟨.hbm, 277, rfl⟩
abbrev main_v234 : Ref sig .tc := ⟨.hbm, 278, rfl⟩
abbrev main_v235 : Ref sig .tc := ⟨.hbm, 279, rfl⟩
abbrev main_v236 : Ref sig .tc := ⟨.hbm, 280, rfl⟩
abbrev main_c_28 : Ref sig .tc := ⟨.hbm, 281, rfl⟩
abbrev main_v237 : Ref sig .tc := ⟨.hbm, 282, rfl⟩
abbrev main_v238 : Ref sig .tc := ⟨.hbm, 283, rfl⟩
abbrev main_c_29 : Ref sig .tc := ⟨.hbm, 284, rfl⟩
abbrev main_v239 : Ref sig .tc := ⟨.hbm, 285, rfl⟩
abbrev main_v240 : Ref sig .tc := ⟨.hbm, 286, rfl⟩
abbrev main_v241 : Ref sig .tc := ⟨.hbm, 287, rfl⟩
abbrev main_v242 : Ref sig .tc := ⟨.hbm, 288, rfl⟩
abbrev main_v243 : Ref sig .tc := ⟨.hbm, 289, rfl⟩
abbrev main_c_30 : Ref sig .tc := ⟨.hbm, 290, rfl⟩
abbrev main_v244 : Ref sig .tc := ⟨.hbm, 291, rfl⟩
abbrev main_v245 : Ref sig .tc := ⟨.hbm, 292, rfl⟩
abbrev main_c_31 : Ref sig .tc := ⟨.hbm, 293, rfl⟩
abbrev main_v246 : Ref sig .tc := ⟨.hbm, 294, rfl⟩
abbrev main_v247 : Ref sig .tc := ⟨.hbm, 295, rfl⟩
abbrev main_v248 : Ref sig .tc := ⟨.hbm, 296, rfl⟩
abbrev main_v249 : Ref sig .tc := ⟨.hbm, 297, rfl⟩
abbrev main_v250 : Ref sig .tc := ⟨.hbm, 298, rfl⟩
abbrev main_v251 : Ref sig .tc := ⟨.hbm, 299, rfl⟩
abbrev main_v252 : Ref sig .tc := ⟨.hbm, 300, rfl⟩
abbrev main_v253 : Ref sig .tc := ⟨.hbm, 301, rfl⟩
abbrev main_v254 : Ref sig .tc := ⟨.hbm, 302, rfl⟩
abbrev main_v255 : Ref sig .tc := ⟨.hbm, 303, rfl⟩
abbrev main_v256 : Ref sig .tc := ⟨.hbm, 304, rfl⟩
abbrev main_cst_32 : Ref sig .tc := ⟨.hbm, 305, rfl⟩
abbrev main_v257 : Ref sig .tc := ⟨.hbm, 306, rfl⟩
abbrev main_v258 : Ref sig .tc := ⟨.hbm, 307, rfl⟩
abbrev main_v259 : Ref sig .tc := ⟨.hbm, 308, rfl⟩
abbrev main_v260 : Ref sig .tc := ⟨.hbm, 309, rfl⟩
abbrev main_v261 : Ref sig .tc := ⟨.hbm, 310, rfl⟩
abbrev main_v262 : Ref sig .tc := ⟨.hbm, 311, rfl⟩
abbrev main_v263 : Ref sig .tc := ⟨.hbm, 312, rfl⟩
abbrev main_v264 : Ref sig .tc := ⟨.hbm, 313, rfl⟩
abbrev main_v265 : Ref sig .tc := ⟨.hbm, 314, rfl⟩
abbrev main_v266 : Ref sig .tc := ⟨.hbm, 315, rfl⟩
abbrev main_v267 : Ref sig .tc := ⟨.hbm, 316, rfl⟩
abbrev main_v268 : Ref sig .tc := ⟨.hbm, 317, rfl⟩
abbrev main_v269 : Ref sig .tc := ⟨.hbm, 318, rfl⟩
abbrev main_v270 : Ref sig .tc := ⟨.hbm, 319, rfl⟩
abbrev main_v271 : Ref sig .tc := ⟨.hbm, 320, rfl⟩
abbrev main_v272 : Ref sig .tc := ⟨.hbm, 321, rfl⟩
abbrev main_v273 : Ref sig .tc := ⟨.hbm, 322, rfl⟩
abbrev main_v274 : Ref sig .tc := ⟨.hbm, 323, rfl⟩
abbrev main_v275 : Ref sig .tc := ⟨.hbm, 324, rfl⟩
abbrev main_v276 : Ref sig .tc := ⟨.hbm, 325, rfl⟩
abbrev main_v277 : Ref sig .tc := ⟨.hbm, 326, rfl⟩
abbrev main_v278 : Ref sig .tc := ⟨.hbm, 327, rfl⟩
abbrev main_cst_33 : Ref sig .tc := ⟨.hbm, 328, rfl⟩
abbrev main_v279 : Ref sig .tc := ⟨.hbm, 329, rfl⟩
abbrev main_v280 : Ref sig .tc := ⟨.hbm, 330, rfl⟩
abbrev main_cst_34 : Ref sig .tc := ⟨.hbm, 331, rfl⟩
abbrev main_v281 : Ref sig .tc := ⟨.hbm, 332, rfl⟩
abbrev main_v282 : Ref sig .tc := ⟨.hbm, 333, rfl⟩
abbrev main_v283 : Ref sig .tc := ⟨.hbm, 334, rfl⟩
abbrev main_v284 : Ref sig .tc := ⟨.hbm, 335, rfl⟩
abbrev main_v285 : Ref sig .tc := ⟨.hbm, 336, rfl⟩
abbrev main_cst_35 : Ref sig .tc := ⟨.hbm, 337, rfl⟩
abbrev main_v286 : Ref sig .tc := ⟨.hbm, 338, rfl⟩
abbrev main_v287 : Ref sig .tc := ⟨.hbm, 339, rfl⟩
abbrev main_cst_36 : Ref sig .tc := ⟨.hbm, 340, rfl⟩
abbrev main_v288 : Ref sig .tc := ⟨.hbm, 341, rfl⟩
abbrev main_v289 : Ref sig .tc := ⟨.hbm, 342, rfl⟩
abbrev main_v290 : Ref sig .tc := ⟨.hbm, 343, rfl⟩
abbrev main_v291 : Ref sig .tc := ⟨.hbm, 344, rfl⟩
abbrev main_v292 : Ref sig .tc := ⟨.hbm, 345, rfl⟩
abbrev main_cst_37 : Ref sig .tc := ⟨.hbm, 346, rfl⟩
abbrev main_v293 : Ref sig .tc := ⟨.hbm, 347, rfl⟩
abbrev main_v294 : Ref sig .tc := ⟨.hbm, 348, rfl⟩
abbrev main_v295 : Ref sig .tc := ⟨.hbm, 349, rfl⟩
abbrev main_v296 : Ref sig .tc := ⟨.hbm, 350, rfl⟩
abbrev main_v297 : Ref sig .tc := ⟨.hbm, 351, rfl⟩
abbrev main_v298 : Ref sig .tc := ⟨.hbm, 352, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S50000x128_S50000x64_0_0 : S50000x128.Slices ![0, 0] S50000x64
  slices_S50000x128_S50000x64_0_64 : S50000x128.Slices ![0, 64] S50000x64
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  slices_S2x192x128_S1x192x128_0_0_0 : S2x192x128.Slices ![0, 0, 0] S1x192x128
  shapeCasts_S1x192x128_S192x128 : S1x192x128.ShapeCasts S192x128
  slices_S2x192x64_S1x192x64_0_0_0 : S2x192x64.Slices ![0, 0, 0] S1x192x64
  shapeCasts_S1x192x64_S192x64 : S1x192x64.ShapeCasts S192x64
  slices_S2x192_S1x192_0_0 : S2x192.Slices ![0, 0] S1x192
  shapeCasts_S1x192_S192 : S1x192.ShapeCasts S192
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x128_d1 : Shape.Concatenates [S800000x64, S800000x64] S800000x128 1
  transposes_S128x128_S128x128_1_0 : S128x128.Transposes [1, 0] S128x128
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S50000x128 : S_.BroadcastsInDim S50000x128 (![] : Fin 0 → Fin S50000x128.rank)
  transposes_S192x128_S128x192_1_0 : S192x128.Transposes [1, 0] S128x192
  bcast_S192_S1x192_1 : S192.BroadcastsInDim S1x192 (![1] : Fin 1 → Fin S1x192.rank)
  bcast_S1x192_S50000x192_0_1 : S1x192.BroadcastsInDim S50000x192 (![0, 1] : Fin 2 → Fin S50000x192.rank)
  transposes_S192x64_S64x192_1_0 : S192x64.Transposes [1, 0] S64x192
  slices_S50000x192_S50000x64_0_0 : S50000x192.Slices ![0, 0] S50000x64
  slices_S50000x192_S50000x64_0_64 : S50000x192.Slices ![0, 64] S50000x64
  slices_S50000x192_S50000x64_0_128 : S50000x192.Slices ![0, 128] S50000x64
  bcast_S_S50000x64 : S_.BroadcastsInDim S50000x64 (![] : Fin 0 → Fin S50000x64.rank)
  slices_S2x128x128_S1x128x128_1_0_0 : S2x128x128.Slices ![1, 0, 0] S1x128x128
  slices_S2x128_S1x128_1_0 : S2x128.Slices ![1, 0] S1x128
  slices_S2x192x128_S1x192x128_1_0_0 : S2x192x128.Slices ![1, 0, 0] S1x192x128
  slices_S2x192x64_S1x192x64_1_0_0 : S2x192x64.Slices ![1, 0, 0] S1x192x64
  slices_S2x192_S1x192_1_0 : S2x192.Slices ![1, 0] S1x192
  concatenates_S50000x64_S50000x64_S50000x128_d1 : Shape.Concatenates [S50000x64, S50000x64] S50000x128 1
  gather_S50000x64_S800000x1_S800000x64_1_0_n_n_0_1_164_wf : GatherDims.WF S50000x64 S800000x1 S800000x64 [1] [0] [] [0] [] 1 ![1, 64]
  dot_S800000x128_S128x128_S800000x128_1_0_0_1_n_n_wf : DotDims.WF S800000x128 S128x128 S800000x128 [1] [0] [0] [1] [] []
  scatter_S50000x128_S800000x1_S800000x128_1_0_0_1_wf : ScatterDims.WF S50000x128 S800000x1 S800000x128 [1] [0] [0] 1
  dot_S50000x128_S128x192_S50000x192_1_0_0_1_n_n_wf : DotDims.WF S50000x128 S128x192 S50000x192 [1] [0] [0] [1] [] []
  dot_S50000x64_S64x192_S50000x192_1_0_0_1_n_n_wf : DotDims.WF S50000x64 S64x192 S50000x192 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x192_S50000x192_1_0_0_1_n_n : DotDims S50000x128 S128x192 S50000x192 where
  lhsContracting := [1]
  rhsContracting := [0]
  lhsNonContracting := [0]
  rhsNonContracting := [1]
  lhsBatch := []
  rhsBatch := []
  wf := dot_S50000x128_S128x192_S50000x192_1_0_0_1_n_n_wf
def dot_S50000x64_S64x192_S50000x192_1_0_0_1_n_n : DotDims S50000x64 S64x192 S50000x192 where
  lhsContracting := [1]
  rhsContracting := [0]
  lhsNonContracting := [0]
  rhsNonContracting := [1]
  lhsBatch := []
  rhsBatch := []
  wf := dot_S50000x64_S64x192_S50000x192_1_0_0_1_n_n_wf

class Facts : Prop extends Facts₀ where

variable [Facts]
-- ==== Proof.KernelRun.lean ====
/-
  The kernel program's run with its result named.

  From any memory with zero counters every weakly fair execution of the program's @main — eight kernel
  regions among nine stretches of host operations — terminates without a fault; at the end the result
  buffer holds what the last stretch of host operations leaves there, read through the chain of buffer
  contents at the seventeen segment boundaries (`Gen.W17`), and the fourteen argument arrays are as launched.
  This is the frame's statement with one more conjunct, over the same segments.
-/
import proofs.«129615_j25563645346107_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's
    contents and the arguments unchanged. -/
theorem run_result : θ_run defs (onTc (τ := τ) (main (F := F))) ⟨m, fun _ => 0, ρ⟩ (fun r => ∀ c : Dev nD,
      r.2.mem ((c.tc : Thread nD τ).loc main_v154) = W17 m ρ c (Proc.devRef .tc main_v154)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h c =>
      ⟨h c _ (mem_uc main_v154 (by decide)),
       (h c _ (mem_uc main_arg0 (by decide))).trans (W17_main_arg0 m ρ c),
       (h c _ (mem_uc main_arg1 (by decide))).trans (W17_main_arg1 m ρ c),
       (h c _ (mem_uc main_arg2 (by decide))).trans (W17_main_arg2 m ρ c),
       (h c _ (mem_uc main_arg3 (by decide))).trans (W17_main_arg3 m ρ c),
       (h c _ (mem_uc main_arg4 (by decide))).trans (W17_main_arg4 m ρ c),
       (h c _ (mem_uc main_arg5 (by decide))).trans (W17_main_arg5 m ρ c),
       (h c _ (mem_uc main_arg6 (by decide))).trans (W17_main_arg6 m ρ c),
       (h c _ (mem_uc main_arg7 (by decide))).trans (W17_main_arg7 m ρ c),
       (h c _ (mem_uc main_arg8 (by decide))).trans (W17_main_arg8 m ρ c),
       (h c _ (mem_uc main_arg9 (by decide))).trans (W17_main_arg9 m ρ c),
       (h c _ (mem_uc main_arg10 (by decide))).trans (W17_main_arg10 m ρ c),
       (h c _ (mem_uc main_arg11 (by decide))).trans (W17_main_arg11 m ρ c),
       (h c _ (mem_uc main_arg12 (by decide))).trans (W17_main_arg12 m ρ c),
       (h c _ (mem_uc main_arg13 (by decide))).trans (W17_main_arg13 m ρ c)⟩)

end Cert.KernelIdeal.Run

end
-- ==== Proof.Keep.lean ====
/-
  A buffer that a segment of the kernel program does not write comes through it unchanged.

  The program's @main is nine stretches of host operations with a kernel region between consecutive
  stretches.  A stretch writes exactly the result buffers of its operations (listed below, `wr0` … `wr8`);
  a region writes only its windows' arrays.  So the contents of any other buffer at a segment boundary
  are its contents at the boundary before, and a buffer can be followed back from boundary to boundary
  to the segment that produced it (the tactic `peel` takes one such step).
-/
import proofs.«129615_j25563645346107_1_alg».proof.Proof.Gen.KernelIdeal.Frame

set_option maxRecDepth 16384

noncomputable section

namespace Cert.KernelIdeal.Chain

open Cert.KernelIdeal Cert.KernelIdeal.Gen
open Idealize.ShloMosaic Idealize.ShloMosaic.TcCoe Idealize.ShloMosaic.StableHlo Idealize.SL.Sem

variable {F : FTy → Type} [FloatOps F]

/-- The buffers stretch 0 writes. -/
abbrev wr0 : List (Ref sig .tc) := [main_v0, main_v1, main_v2, main_v3, main_v4, main_v5, main_v6, main_v7, main_v8, main_v9, main_v10, main_v11, main_v12, main_v13, main_v14, main_v15, main_v16, main_v17, main_c, main_v18, main_v19, main_c_0, main_v20, main_v21, main_v22, main_v23, main_v24, main_c_1, main_v25, main_v26, main_c_2, main_v27, main_v28, main_v29, main_v30, main_v31, main_v32, main_v33]
theorem wr0_writes : (hostOps0 : List (HloOp τ sig (Elt F))).Forall fun op => op.writes ⊆ (wr0.map (Proc.devRef (τ := τ) .tc)).toFinset := by
  simp only [hostOps0, List.Forall, nullary_writes, unary_writes, binary_writes, ternary_writes, quaternary_writes, reshape_writes,
    Finset.singleton_subset_iff, List.mem_toFinset]
  repeat' apply And.intro
  all_goals first | exact List.mem_map_of_mem (by decide) | trivial
/-- Stretch 0 leaves every buffer it does not write as it was. -/
theorem keep0 (V : Valuation τ sig (Elt F)) (r : Ref sig .tc) (h : r ∉ wr0) :
    after hostOps0 V (Proc.devRef .tc r) = V (Proc.devRef .tc r) := after_of_writes_sub hostOps0 V wr0_writes h

/-- The buffers stretch 1 writes. -/
abbrev wr1 : List (Ref sig .tc) := [main_cst, main_v35, main_v36, main_v37, main_v38, main_v39, main_v40, main_v41]
theorem wr1_writes : (hostOps1 : List (HloOp τ sig (Elt F))).Forall fun op => op.writes ⊆ (wr1.map (Proc.devRef (τ := τ) .tc)).toFinset := by
  simp only [hostOps1, List.Forall, nullary_writes, unary_writes, binary_writes, ternary_writes, quaternary_writes, reshape_writes,
    Finset.singleton_subset_iff, List.mem_toFinset]
  repeat' apply And.intro
  all_goals first | exact List.mem_map_of_mem (by decide) | trivial
/-- Stretch 1 leaves every buffer it does not write as it was. -/
theorem keep1 (V : Valuation τ sig (Elt F)) (r : Ref sig .tc) (h : r ∉ wr1) :
    after hostOps1 V (Proc.devRef .tc r) = V (Proc.devRef .tc r) := after_of_writes_sub hostOps1 V wr1_writes h

/-- The buffers stretch 2 writes. -/
abbrev wr2 : List (Ref sig .tc) := [main_v43, main_v44, main_v45, main_v46, main_v47, main_v48, main_v49, main_v50, main_v51, main_v52, main_v53, main_v54, main_c_3, main_v55, main_v56, main_c_4, main_v57, main_v58, main_v59, main_v60, main_v61, main_c_5, main_v62, main_v63, main_c_6, main_v64, main_v65, main_v66, main_v67, main_v68, main_v69, main_v70]
theorem wr2_writes : (hostOps2 : List (HloOp τ sig (Elt F))).Forall fun op => op.writes ⊆ (wr2.map (Proc.devRef (τ := τ) .tc)).toFinset := by
  simp only [hostOps2, List.Forall, nullary_writes, unary_writes, binary_writes, ternary_writes, quaternary_writes, reshape_writes,
    Finset.singleton_subset_iff, List.mem_toFinset]
  repeat' apply And.intro
  all_goals first | exact List.mem_map_of_mem (by decide) | trivial
/-- Stretch 2 leaves every buffer it does not write as it was. -/
theorem keep2 (V : Valuation τ sig (Elt F)) (r : Ref sig .tc) (h : r ∉ wr2) :
    after hostOps2 V (Proc.devRef .tc r) = V (Proc.devRef .tc r) := after_of_writes_sub hostOps2 V wr2_writes h

/-- The buffers stretch 3 writes. -/
abbrev wr3 : List (Ref sig .tc) := [main_cst_7, main_v72, main_v73, main_v74, main_v75, main_v76, main_v77, main_v78]
theorem wr3_writes : (hostOps3 : List (HloOp τ sig (Elt F))).Forall fun op => op.writes ⊆ (wr3.map (Proc.devRef (τ := τ) .tc)).toFinset := by
  simp only [hostOps3, List.Forall, nullary_writes, unary_writes, binary_writes, ternary_writes, quaternary_writes, reshape_writes,
    Finset.singleton_subset_iff, List.mem_toFinset]
  repeat' apply And.intro
  all_goals first | exact List.mem_map_of_mem (by decide) | trivial
/-- Stretch 3 leaves every buffer it does not write as it was. -/
theorem keep3 (V : Valuation τ sig (Elt F)) (r : Ref sig .tc) (h : r ∉ wr3) :
    after hostOps3 V (Proc.devRef .tc r) = V (Proc.devRef .tc r) := after_of_writes_sub hostOps3 V wr3_writes h

/-- The buffers stretch 4 writes. -/
abbrev wr4 : List (Ref sig .tc) := [main_v80, main_v81, main_v82, main_v83, main_v84, main_v85, main_v86, main_v87, main_v88, main_v89, main_v90, main_v91, main_c_8, main_v92, main_v93, main_c_9, main_v94, main_v95, main_v96, main_v97, main_v98, main_c_10, main_v99, main_v100, main_c_11, main_v101, main_v102, main_v103, main_v104, main_v105, main_v106, main_v107]
theorem wr4_writes : (hostOps4 : List (HloOp τ sig (Elt F))).Forall fun op => op.writes ⊆ (wr4.map (Proc.devRef (τ := τ) .tc)).toFinset := by
  simp only [hostOps4, List.Forall, nullary_writes, unary_writes, binary_writes, ternary_writes, quaternary_writes, reshape_writes,
    Finset.singleton_subset_iff, List.mem_toFinset]
  repeat' apply And.intro
  all_goals first | exact List.mem_map_of_mem (by decide) | trivial
/-- Stretch 4 leaves every buffer it does not write as it was. -/
theorem keep4 (V : Valuation τ sig (Elt F)) (r : Ref sig .tc) (h : r ∉ wr4) :
    after hostOps4 V (Proc.devRef .tc r) = V (Proc.devRef .tc r) := after_of_writes_sub hostOps4 V wr4_writes h

/-- The buffers stretch 5 writes. -/
abbrev wr5 : List (Ref sig .tc) := [main_cst_12, main_v109, main_v110, main_v111, main_v112, main_v113, main_v114, main_v115]
theorem wr5_writes : (hostOps5 : List (HloOp τ sig (Elt F))).Forall fun op => op.writes ⊆ (wr5.map (Proc.devRef (τ := τ) .tc)).toFinset := by
  simp only [hostOps5, List.Forall, nullary_writes, unary_writes, binary_writes, ternary_writes, quaternary_writes, reshape_writes,
    Finset.singleton_subset_iff, List.mem_toFinset]
  repeat' apply And.intro
  all_goals first | exact List.mem_map_of_mem (by decide) | trivial
/-- Stretch 5 leaves every buffer it does not write as it was. -/
theorem keep5 (V : Valuation τ sig (Elt F)) (r : Ref sig .tc) (h : r ∉ wr5) :
    after hostOps5 V (Proc.devRef .tc r) = V (Proc.devRef .tc r) := after_of_writes_sub hostOps5 V wr5_writes h

/-- The buffers stretch 6 writes. -/
abbrev wr6 : List (Ref sig .tc) := [main_v117, main_v118, main_v119, main_v120, main_v121, main_v122, main_v123, main_v124, main_v125, main_v126, main_v127, main_v128, main_c_13, main_v129, main_v130, main_c_14, main_v131, main_v132, main_v133, main_v134, main_v135, main_c_15, main_v136, main_v137, main_c_16, main_v138, main_v139, main_v140, main_v141, main_v142, main_v143, main_v144]
theorem wr6_writes : (hostOps6 : List (HloOp τ sig (Elt F))).Forall fun op => op.writes ⊆ (wr6.map (Proc.devRef (τ := τ) .tc)).toFinset := by
  simp only [hostOps6, List.Forall, nullary_writes, unary_writes, binary_writes, ternary_writes, quaternary_writes, reshape_writes,
    Finset.singleton_subset_iff, List.mem_toFinset]
  repeat' apply And.intro
  all_goals first | exact List.mem_map_of_mem (by decide) | trivial
/-- Stretch 6 leaves every buffer it does not write as it was. -/
theorem keep6 (V : Valuation τ sig (Elt F)) (r : Ref sig .tc) (h : r ∉ wr6) :
    after hostOps6 V (Proc.devRef .tc r) = V (Proc.devRef .tc r) := after_of_writes_sub hostOps6 V wr6_writes h

/-- The buffers stretch 7 writes. -/
abbrev wr7 : List (Ref sig .tc) := [main_cst_17, main_v146, main_v147, main_v148, main_v149, main_v150, main_v151, main_v152]
theorem wr7_writes : (hostOps7 : List (HloOp τ sig (Elt F))).Forall fun op => op.writes ⊆ (wr7.map (Proc.devRef (τ := τ) .tc)).toFinset := by
  simp only [hostOps7, List.Forall, nullary_writes, unary_writes, binary_writes, ternary_writes, quaternary_writes, reshape_writes,
    Finset.singleton_subset_iff, List.mem_toFinset]
  repeat' apply And.intro
  all_goals first | exact List.mem_map_of_mem (by decide) | trivial
/-- Stretch 7 leaves every buffer it does not write as it was. -/
theorem keep7 (V : Valuation τ sig (Elt F)) (r : Ref sig .tc) (h : r ∉ wr7) :
    after hostOps7 V (Proc.devRef .tc r) = V (Proc.devRef .tc r) := after_of_writes_sub hostOps7 V wr7_writes h

/-- The buffers stretch 8 writes. -/
abbrev wr8 : List (Ref sig .tc) := [main_v154]
theorem wr8_writes : (hostOps8 : List (HloOp τ sig (Elt F))).Forall fun op => op.writes ⊆ (wr8.map (Proc.devRef (τ := τ) .tc)).toFinset := by
  simp only [hostOps8, List.Forall, nullary_writes, unary_writes, binary_writes, ternary_writes, quaternary_writes, reshape_writes,
    Finset.singleton_subset_iff, List.mem_toFinset]
  repeat' apply And.intro
  all_goals first | exact List.mem_map_of_mem (by decide) | trivial
/-- Stretch 8 leaves every buffer it does not write as it was. -/
theorem keep8 (V : Valuation τ sig (Elt F)) (r : Ref sig .tc) (h : r ∉ wr8) :
    after hostOps8 V (Proc.devRef .tc r) = V (Proc.devRef .tc r) := after_of_writes_sub hostOps8 V wr8_writes h

variable (m : (ℓ : Loc nD τ sig) → Buf (Elt F) ℓ) (ρ : Dev nD → PrngReg) (c : Dev nD)

theorem W1_keep (r : Ref sig .tc) (h : r ∉ wr0) : W1 m ρ c (Proc.devRef .tc r) = W0 m ρ c (Proc.devRef .tc r) := keep0 _ r h
theorem W3_keep (r : Ref sig .tc) (h : r ∉ wr1) : W3 m ρ c (Proc.devRef .tc r) = W2 m ρ c (Proc.devRef .tc r) := keep1 _ r h
theorem W5_keep (r : Ref sig .tc) (h : r ∉ wr2) : W5 m ρ c (Proc.devRef .tc r) = W4 m ρ c (Proc.devRef .tc r) := keep2 _ r h
theorem W7_keep (r : Ref sig .tc) (h : r ∉ wr3) : W7 m ρ c (Proc.devRef .tc r) = W6 m ρ c (Proc.devRef .tc r) := keep3 _ r h
theorem W9_keep (r : Ref sig .tc) (h : r ∉ wr4) : W9 m ρ c (Proc.devRef .tc r) = W8 m ρ c (Proc.devRef .tc r) := keep4 _ r h
theorem W11_keep (r : Ref sig .tc) (h : r ∉ wr5) : W11 m ρ c (Proc.devRef .tc r) = W10 m ρ c (Proc.devRef .tc r) := keep5 _ r h
theorem W13_keep (r : Ref sig .tc) (h : r ∉ wr6) : W13 m ρ c (Proc.devRef .tc r) = W12 m ρ c (Proc.devRef .tc r) := keep6 _ r h
theorem W15_keep (r : Ref sig .tc) (h : r ∉ wr7) : W15 m ρ c (Proc.devRef .tc r) = W14 m ρ c (Proc.devRef .tc r) := keep7 _ r h
theorem W17_keep (r : Ref sig .tc) (h : r ∉ wr8) : W17 m ρ c (Proc.devRef .tc r) = W16 m ρ c (Proc.devRef .tc r) := keep8 _ r h

/-- One step back along the boundaries for a buffer the last segment did not write. -/
macro "peel" : tactic => `(tactic| first
  | refine (W17_keep _ _ _ _ (by decide)).trans ?_
  | refine (Gen.W16_of_ne _ _ _ _ (by decide)).trans ?_
  | refine (W15_keep _ _ _ _ (by decide)).trans ?_
  | refine (Gen.W14_of_ne _ _ _ _ (by decide)).trans ?_
  | refine (W13_keep _ _ _ _ (by decide)).trans ?_
  | refine (Gen.W12_of_ne _ _ _ _ (by decide)).trans ?_
  | refine (W11_keep _ _ _ _ (by decide)).trans ?_
  | refine (Gen.W10_of_ne _ _ _ _ (by decide)).trans ?_
  | refine (W9_keep _ _ _ _ (by decide)).trans ?_
  | refine (Gen.W8_of_ne _ _ _ _ (by decide)).trans ?_
  | refine (W7_keep _ _ _ _ (by decide)).trans ?_
  | refine (Gen.W6_of_ne _ _ _ _ (by decide)).trans ?_
  | refine (W5_keep _ _ _ _ (by decide)).trans ?_
  | refine (Gen.W4_of_ne _ _ _ _ (by decide)).trans ?_
  | refine (W3_keep _ _ _ _ (by decide)).trans ?_
  | refine (Gen.W2_of_ne _ _ _ _ (by decide)).trans ?_
  | refine (W1_keep _ _ _ _ (by decide)).trans ?_)

end Cert.KernelIdeal.Chain

end
-- ==== Proof.Spec.lean ====
/-
  The two stages of one message-passing layer, as whole-array functions.

  A layer takes the node states hs : [50000, 64], three index vectors over the 800000 edges, and the
  layer's weights.  Its MESSAGE stage lays the gathered states of an edge's two end nodes side by side,
  x e = (hs (ia e) | hs (ib e)) in [800000, 128], and maps each row affinely: msg e = x e · Wᵗ + b.  The
  messages are summed into their target nodes (a segment sum over the third index vector), and the GRU
  stage updates every node's state from its summed messages `aggr` and its old state:
      gi = aggr · Wihᵗ + bih,   gh = hs · Whhᵗ + bhh                       (both [50000, 192])
      r = σ (gi₀ + gh₀),  z = σ (gi₁ + gh₁),  n = tanh (gi₂ + r · gh₂)      (the three column thirds)
      hs' = (1 − z) · n + z · hs,
  with σ x = 1 / (1 + e^(−x)).  The stages are written here with the host's whole-array operations, the
  weight matrices already transposed and the biases already rows [1, ·]; they are generic in the float
  instance, and nothing here depends on a program.
-/
import proofs.«129615_j25563645346107_1_alg».proof.ReferenceIdeal

noncomputable section

namespace Cert.Spec

open Idealize.ShloMosaic Cert.ReferenceIdeal Cert.ReferenceIdeal.Facts₀ Cert.ReferenceIdeal.Facts

variable {F : FTy → Type} [FloatOps F] [Cert.ReferenceIdeal.Facts]

/-- An index vector as jnp reads it: a negative entry counts from the end (50000 is added), and the
    vector becomes a column of one-entry index rows. -/
def normIdx (ix : IVec S800000 32) : IVec S800000x1 32 :=
  broadcastInDim S800000x1 ![0] bcast_S800000_S800000x1_0 (select (cmpi .slt ix (broadcastInDim S800000 ![] bcast_S_S800000 (constantI S_ 32 0#32))) (addi ix (broadcastInDim S800000 ![] bcast_S_S800000 (constantI S_ 32 50000#32))) ix)

/-- Row `ix e` of `hs` for every edge `e`. -/
def gatherRows (hs : FVec F S50000x64 .f32) (ix : IVec S800000 32) : FVec F S800000x64 .f32 :=
  Host.gather gather_S50000x64_S800000x1_S800000x64_1_0_n_n_0_1_164 hs (normIdx ix)

/-- The segment sum: row `n` is the sum of the rows `e` of `upd` with `ix e = n`, from zero. -/
def segSum (ix : IVec S800000 32) (upd : FVec F S800000x128 .f32) : FVec F S50000x128 .f32 :=
  Host.scatterAdd scatter_S50000x128_S800000x1_S800000x128_1_0_0_1 (broadcastInDim S50000x128 ![] bcast_S_S50000x128 (constant S_ .f32 0x00000000#32)) (broadcastInDim S800000x1 ![0] bcast_S800000_S800000x1_0 ix) upd

/-- The message stage: `(a | b) · wt + b2`, the bias row `b2 : [1, 128]` added to every row. -/
def msgK (a b : FVec F S800000x64 .f32) (wt : FVec F S128x128 .f32) (b2 : FVec F S1x128 .f32) : FVec F S800000x128 .f32 :=
  addf (Host.dotGeneral dot_S800000x128_S128x128_S800000x128_1_0_0_1_n_n none (concatenate S800000x128 1 [⟨S800000x64, a⟩, ⟨S800000x64, b⟩] concatenates_S800000x64_S800000x64_S800000x128_d1) wt) (broadcastInDim S800000x128 ![0, 1] bcast_S1x128_S800000x128_0_1 b2)

/-- The constant-one array the gates are written with. -/
def ones : FVec F S50000x64 .f32 := broadcastInDim S50000x64 ![] bcast_S_S50000x64 (constant S_ .f32 0x3F800000#32)

/-- The update gate `z = 1 / (1 + e^(−(gi₁ + gh₁)))` from the middle thirds of the two pre-activations. -/
def gateZ (gi gh : FVec F S50000x192 .f32) : FVec F S50000x64 .f32 :=
  Host.divf ones (addf ones (Host.exp (Host.negf (addf (extractStridedSlice S50000x64 ![0, 64] gi slices_S50000x192_S50000x64_0_64) (extractStridedSlice S50000x64 ![0, 64] gh slices_S50000x192_S50000x64_0_64)))))

/-- The new state from the two pre-activations and the old state: `(1 − z) · tanh (gi₂ + r · gh₂) + z · hs`. -/
def gates (gi gh : FVec F S50000x192 .f32) (hs : FVec F S50000x64 .f32) : FVec F S50000x64 .f32 :=
  addf (mulf (subf ones (gateZ gi gh)) (Host.tanh (addf (extractStridedSlice S50000x64 ![0, 128] gi slices_S50000x192_S50000x64_0_128) (mulf (Host.divf ones (addf ones (Host.exp (Host.negf (addf (extractStridedSlice S50000x64 ![0, 0] gi slices_S50000x192_S50000x64_0_0) (extractStridedSlice S50000x64 ![0, 0] gh slices_S50000x192_S50000x64_0_0)))))) (extractStridedSlice S50000x64 ![0, 128] gh slices_S50000x192_S50000x64_0_128))))) (mulf (gateZ gi gh) hs)

/-- The input pre-activation `gi = aggr · wiht + bi2`. -/
def preI (aggr : FVec F S50000x128 .f32) (wiht : FVec F S128x192 .f32) (bi2 : FVec F S1x192 .f32) : FVec F S50000x192 .f32 :=
  addf (Host.dotGeneral dot_S50000x128_S128x192_S50000x192_1_0_0_1_n_n none aggr wiht) (broadcastInDim S50000x192 ![0, 1] bcast_S1x192_S50000x192_0_1 bi2)

/-- The hidden pre-activation `gh = hs · whht + bh2`. -/
def preH (hs : FVec F S50000x64 .f32) (whht : FVec F S64x192 .f32) (bh2 : FVec F S1x192 .f32) : FVec F S50000x192 .f32 :=
  addf (Host.dotGeneral dot_S50000x64_S64x192_S50000x192_1_0_0_1_n_n none hs whht) (broadcastInDim S50000x192 ![0, 1] bcast_S1x192_S50000x192_0_1 bh2)

/-- The GRU stage. -/
def gruK (aggr : FVec F S50000x128 .f32) (hs : FVec F S50000x64 .f32) (wiht : FVec F S128x192 .f32) (whht : FVec F S64x192 .f32)
    (bi2 bh2 : FVec F S1x192 .f32) : FVec F S50000x64 .f32 :=
  gates (preI aggr wiht bi2) (preH hs whht bh2) hs

/-- One layer: gather the end nodes' states over `ia` and `ib`, the message stage, the segment sum over
    `isc`, the GRU stage. -/
def layerK (hs : FVec F S50000x64 .f32) (ia ib isc : IVec S800000 32) (wt : FVec F S128x128 .f32) (b2 : FVec F S1x128 .f32)
    (wiht : FVec F S128x192 .f32) (whht : FVec F S64x192 .f32) (bi2 bh2 : FVec F S1x192 .f32) : FVec F S50000x64 .f32 :=
  gruK (segSum isc (msgK (gatherRows hs ia) (gatherRows hs ib) wt b2)) hs wiht whht bi2 bh2

end Cert.Spec

end
-- ==== Proof.SpecNet.lean ====
/-
  The whole network as one function of the fourteen argument arrays.

  The node states h : [50000, 128] are split into a forward half (columns 0–63) and a backward half
  (columns 64–127).  The forward half goes through two layers (Spec.layerK) that gather over
  (src, dst) and sum into dst; the backward half through two layers that gather over (dst, src) and sum
  into src, where src and dst are the two rows of the edge list.  Layer l of a direction uses slice l of
  that direction's stacked weights: the matrices transposed, the bias vectors made rows [1, ·].  The two
  results are laid side by side again.
  How a bias VECTOR becomes a ROW is a parameter here (row128, row192): one program reshapes it, the
  other broadcasts it along a new leading axis; both give the row whose entry (0, j) is the vector's
  entry j, so the two instances of the network are one function.
-/
import proofs.«129615_j25563645346107_1_alg».proof.Proof.Spec
import Idealize.ShloMosaic.Lib.Pipeline.Value
import Idealize.ShloMosaic.Lib.ValueIdx
import Idealize.ShloMosaic.Lib.ValueLayout

noncomputable section

namespace Cert.Spec

open Idealize.ShloMosaic Cert.ReferenceIdeal Cert.ReferenceIdeal.Facts₀ Cert.ReferenceIdeal.Facts

variable {F : FTy → Type} [FloatOps F] [Cert.ReferenceIdeal.Facts]

/-- The edge list's first row: the source node of every edge. -/
def src (ei : IVec S2x800000 32) : IVec S800000 32 :=
  shapeCast S800000 (extractStridedSlice S1x800000 ![0, 0] ei slices_S2x800000_S1x800000_0_0) shapeCasts_S1x800000_S800000
/-- The edge list's second row: the target node of every edge. -/
def dst (ei : IVec S2x800000 32) : IVec S800000 32 :=
  shapeCast S800000 (extractStridedSlice S1x800000 ![1, 0] ei slices_S2x800000_S1x800000_1_0) shapeCasts_S1x800000_S800000
/-- The forward half of the node states. -/
def hfwd (h : FVec F S50000x128 .f32) : FVec F S50000x64 .f32 := extractStridedSlice S50000x64 ![0, 0] h slices_S50000x128_S50000x64_0_0
/-- The backward half of the node states. -/
def hbwd (h : FVec F S50000x128 .f32) : FVec F S50000x64 .f32 := extractStridedSlice S50000x64 ![0, 64] h slices_S50000x128_S50000x64_0_64

/-- Layer 0's message matrix, transposed. -/
def wm0 (A : FVec F S2x128x128 .f32) : FVec F S128x128 .f32 :=
  transpose S128x128 [1, 0] (shapeCast S128x128 (extractStridedSlice S1x128x128 ![0, 0, 0] A slices_S2x128x128_S1x128x128_0_0_0) shapeCasts_S1x128x128_S128x128) transposes_S128x128_S128x128_1_0
/-- Layer 1's message matrix, transposed. -/
def wm1 (A : FVec F S2x128x128 .f32) : FVec F S128x128 .f32 :=
  transpose S128x128 [1, 0] (shapeCast S128x128 (extractStridedSlice S1x128x128 ![1, 0, 0] A slices_S2x128x128_S1x128x128_1_0_0) shapeCasts_S1x128x128_S128x128) transposes_S128x128_S128x128_1_0
/-- Layer 0's message bias vector. -/
def bm0 (A : FVec F S2x128 .f32) : FVec F S128 .f32 := shapeCast S128 (extractStridedSlice S1x128 ![0, 0] A slices_S2x128_S1x128_0_0) shapeCasts_S1x128_S128
/-- Layer 1's message bias vector. -/
def bm1 (A : FVec F S2x128 .f32) : FVec F S128 .f32 := shapeCast S128 (extractStridedSlice S1x128 ![1, 0] A slices_S2x128_S1x128_1_0) shapeCasts_S1x128_S128
/-- Layer 0's input-to-gates matrix, transposed. -/
def wih0 (A : FVec F S2x192x128 .f32) : FVec F S128x192 .f32 :=
  transpose S128x192 [1, 0] (shapeCast S192x128 (extractStridedSlice S1x192x128 ![0, 0, 0] A slices_S2x192x128_S1x192x128_0_0_0) shapeCasts_S1x192x128_S192x128) transposes_S192x128_S128x192_1_0
/-- Layer 1's input-to-gates matrix, transposed. -/
def wih1 (A : FVec F S2x192x128 .f32) : FVec F S128x192 .f32 :=
  transpose S128x192 [1, 0] (shapeCast S192x128 (extractStridedSlice S1x192x128 ![1, 0, 0] A slices_S2x192x128_S1x192x128_1_0_0) shapeCasts_S1x192x128_S192x128) transposes_S192x128_S128x192_1_0
/-- Layer 0's state-to-gates matrix, transposed. -/
def whh0 (A : FVec F S2x192x64 .f32) : FVec F S64x192 .f32 :=
  transpose S64x192 [1, 0] (shapeCast S192x64 (extractStridedSlice S1x192x64 ![0, 0, 0] A slices_S2x192x64_S1x192x64_0_0_0) shapeCasts_S1x192x64_S192x64) transposes_S192x64_S64x192_1_0
/-- Layer 1's state-to-gates matrix, transposed. -/
def whh1 (A : FVec F S2x192x64 .f32) : FVec F S64x192 .f32 :=
  transpose S64x192 [1, 0] (shapeCast S192x64 (extractStridedSlice S1x192x64 ![1, 0, 0] A slices_S2x192x64_S1x192x64_1_0_0) shapeCasts_S1x192x64_S192x64) transposes_S192x64_S64x192_1_0
/-- Layer 0's gate bias vector. -/
def bg0 (A : FVec F S2x192 .f32) : FVec F S192 .f32 := shapeCast S192 (extractStridedSlice S1x192 ![0, 0] A slices_S2x192_S1x192_0_0) shapeCasts_S1x192_S192
/-- Layer 1's gate bias vector. -/
def bg1 (A : FVec F S2x192 .f32) : FVec F S192 .f32 := shapeCast S192 (extractStridedSlice S1x192 ![1, 0] A slices_S2x192_S1x192_1_0) shapeCasts_S1x192_S192

/-- Two layers of one direction: the states `hs`, the gather indices `ia`, `ib`, the sum's index `isc`,
    the direction's six stacked weight arrays. -/
def twoLayers (row128 : FVec F S128 .f32 → FVec F S1x128 .f32) (row192 : FVec F S192 .f32 → FVec F S1x192 .f32)
    (hs : FVec F S50000x64 .f32) (ia ib isc : IVec S800000 32)
    (aW : FVec F S2x128x128 .f32) (ab : FVec F S2x128 .f32) (aWih : FVec F S2x192x128 .f32) (aWhh : FVec F S2x192x64 .f32)
    (abih abhh : FVec F S2x192 .f32) : FVec F S50000x64 .f32 :=
  layerK (layerK hs ia ib isc (wm0 aW) (row128 (bm0 ab)) (wih0 aWih) (whh0 aWhh) (row192 (bg0 abih)) (row192 (bg0 abhh)))
    ia ib isc (wm1 aW) (row128 (bm1 ab)) (wih1 aWih) (whh1 aWhh) (row192 (bg1 abih)) (row192 (bg1 abhh))

/-- The network. -/
def net (row128 : FVec F S128 .f32 → FVec F S1x128 .f32) (row192 : FVec F S192 .f32 → FVec F S1x192 .f32)
    (h : FVec F S50000x128 .f32) (ei : IVec S2x800000 32)
    (a2 : FVec F S2x128x128 .f32) (a3 : FVec F S2x128 .f32) (a4 : FVec F S2x192x128 .f32) (a5 : FVec F S2x192x64 .f32) (a6 a7 : FVec F S2x192 .f32)
    (a8 : FVec F S2x128x128 .f32) (a9 : FVec F S2x128 .f32) (a10 : FVec F S2x192x128 .f32) (a11 : FVec F S2x192x64 .f32) (a12 a13 : FVec F S2x192 .f32) :
    FVec F S50000x128 .f32 :=
  concatenate S50000x128 1
    [⟨S50000x64, twoLayers row128 row192 (hfwd h) (src ei) (dst ei) (dst ei) a2 a3 a4 a5 a6 a7⟩,
     ⟨S50000x64, twoLayers row128 row192 (hbwd h) (dst ei) (src ei) (src ei) a8 a9 a10 a11 a12 a13⟩]
    concatenates_S50000x64_S50000x64_S50000x128_d1

/-- The reference's way to make a bias vector a row: a broadcast along a new leading axis. -/
def rowB128 (v : FVec F S128 .f32) : FVec F S1x128 .f32 := broadcastInDim S1x128 ![1] bcast_S128_S1x128_1 v
/-- The same for the gate biases. -/
def rowB192 (v : FVec F S192 .f32) : FVec F S1x192 .f32 := broadcastInDim S1x192 ![1] bcast_S192_S1x192_1 v

end Cert.Spec

end
-- ==== Proof.Host0.lean ====
/-
  What stretch 0 of the kernel program's host operations leaves in the buffers later segments read,
  as functions of the contents before it: the edge list's two rows, the two halves of the node states, the forward direction's layer-0 weights, and the two gathered operands of the first message stage.
-/
import proofs.«129615_j25563645346107_1_alg».proof.Proof.Gen.KernelIdeal.Launch
import proofs.«129615_j25563645346107_1_alg».proof.Proof.SpecNet

set_option maxRecDepth 16384

noncomputable section

namespace Cert.KernelIdeal.Chain

open Cert.KernelIdeal Cert.KernelIdeal.Gen
open Idealize.ShloMosaic Idealize.ShloMosaic.TcCoe Idealize.ShloMosaic.StableHlo Idealize.SL.Sem

variable {F : FTy → Type} [FloatOps F] [Cert.ReferenceIdeal.Facts]
variable (V : Valuation τ sig (Elt F))

/-- The source nodes. -/
theorem h0_v1 : after hostOps0 V (Proc.devRef .tc main_v1) = Cert.Spec.src (V (Proc.devRef .tc main_arg1)) := by
  simp only [hostOps0]
  after_results_simp <;> rfl
/-- The target nodes. -/
theorem h0_v3 : after hostOps0 V (Proc.devRef .tc main_v3) = Cert.Spec.dst (V (Proc.devRef .tc main_arg1)) := by
  simp only [hostOps0]
  after_results_simp <;> rfl
/-- The forward half of the states. -/
theorem h0_v4 : after hostOps0 V (Proc.devRef .tc main_v4) = Cert.Spec.hfwd (V (Proc.devRef .tc main_arg0)) := by
  simp only [hostOps0]
  after_results_simp <;> rfl
/-- The backward half of the states. -/
theorem h0_v5 : after hostOps0 V (Proc.devRef .tc main_v5) = Cert.Spec.hbwd (V (Proc.devRef .tc main_arg0)) := by
  simp only [hostOps0]
  after_results_simp <;> rfl
/-- The first gathered operand: the states' rows at the first index vector. -/
theorem h0_v24 : after hostOps0 V (Proc.devRef .tc main_v24) = Cert.Spec.gatherRows (Cert.Spec.hfwd (V (Proc.devRef .tc main_arg0))) (Cert.Spec.src (V (Proc.devRef .tc main_arg1))) := by
  simp only [hostOps0]
  after_results_simp <;> rfl
/-- The second gathered operand: the states' rows at the second index vector. -/
theorem h0_v31 : after hostOps0 V (Proc.devRef .tc main_v31) = Cert.Spec.gatherRows (Cert.Spec.hfwd (V (Proc.devRef .tc main_arg0))) (Cert.Spec.dst (V (Proc.devRef .tc main_arg1))) := by
  simp only [hostOps0]
  after_results_simp <;> rfl
/-- The layer's message matrix, transposed. -/
theorem h0_v32 : after hostOps0 V (Proc.devRef .tc main_v32) = Cert.Spec.wm0 (V (Proc.devRef .tc main_arg2)) := by
  simp only [hostOps0]
  after_results_simp <;> rfl
/-- The layer's message bias as a row. -/
theorem h0_v33 : after hostOps0 V (Proc.devRef .tc main_v33) = shapeCast S1x128 (Cert.Spec.bm0 (V (Proc.devRef .tc main_arg3))) shapeCasts_S128_S1x128 := by
  simp only [hostOps0]
  after_results_simp <;> rfl
/-- The layer's input-to-gates matrix (not yet transposed). -/
theorem h0_v11 : after hostOps0 V (Proc.devRef .tc main_v11) = shapeCast S192x128 (extractStridedSlice S1x192x128 ![0, 0, 0] (V (Proc.devRef .tc main_arg4)) slices_S2x192x128_S1x192x128_0_0_0) shapeCasts_S1x192x128_S192x128 := by
  simp only [hostOps0]
  after_results_simp <;> rfl
/-- The layer's state-to-gates matrix (not yet transposed). -/
theorem h0_v13 : after hostOps0 V (Proc.devRef .tc main_v13) = shapeCast S192x64 (extractStridedSlice S1x192x64 ![0, 0, 0] (V (Proc.devRef .tc main_arg5)) slices_S2x192x64_S1x192x64_0_0_0) shapeCasts_S1x192x64_S192x64 := by
  simp only [hostOps0]
  after_results_simp <;> rfl
/-- The layer's input gate bias vector. -/
theorem h0_v15 : after hostOps0 V (Proc.devRef .tc main_v15) = Cert.Spec.bg0 (V (Proc.devRef .tc main_arg6)) := by
  simp only [hostOps0]
  after_results_simp <;> rfl
/-- The layer's state gate bias vector. -/
theorem h0_v17 : after hostOps0 V (Proc.devRef .tc main_v17) = Cert.Spec.bg0 (V (Proc.devRef .tc main_arg7)) := by
  simp only [hostOps0]
  after_results_simp <;> rfl

end Cert.KernelIdeal.Chain

end
-- ==== Proof.Host2.lean ====
/-
  What stretch 2 of the kernel program's host operations leaves in the buffers later segments read,
  as functions of the contents before it: the forward direction's layer-1 weights and the two gathered operands of the second message stage.
-/
import proofs.«129615_j25563645346107_1_alg».proof.Proof.Gen.KernelIdeal.Launch
import proofs.«129615_j25563645346107_1_alg».proof.Proof.SpecNet

set_option maxRecDepth 16384

noncomputable section

namespace Cert.KernelIdeal.Chain

open Cert.KernelIdeal Cert.KernelIdeal.Gen
open Idealize.ShloMosaic Idealize.ShloMosaic.TcCoe Idealize.ShloMosaic.StableHlo Idealize.SL.Sem

variable {F : FTy → Type} [FloatOps F] [Cert.ReferenceIdeal.Facts]
variable (V : Valuation τ sig (Elt F))

/-- The first gathered operand: the states' rows at the first index vector. -/
theorem h2_v61 : after hostOps2 V (Proc.devRef .tc main_v61) = Cert.Spec.gatherRows (V (Proc.devRef .tc main_v42)) (V (Proc.devRef .tc main_v1)) := by
  simp only [hostOps2]
  after_results_simp <;> rfl
/-- The second gathered operand: the states' rows at the second index vector. -/
theorem h2_v68 : after hostOps2 V (Proc.devRef .tc main_v68) = Cert.Spec.gatherRows (V (Proc.devRef .tc main_v42)) (V (Proc.devRef .tc main_v3)) := by
  simp only [hostOps2]
  after_results_simp <;> rfl
/-- The layer's message matrix, transposed. -/
theorem h2_v69 : after hostOps2 V (Proc.devRef .tc main_v69) = Cert.Spec.wm1 (V (Proc.devRef .tc main_arg2)) := by
  simp only [hostOps2]
  after_results_simp <;> rfl
/-- The layer's message bias as a row. -/
theorem h2_v70 : after hostOps2 V (Proc.devRef .tc main_v70) = shapeCast S1x128 (Cert.Spec.bm1 (V (Proc.devRef .tc main_arg3))) shapeCasts_S128_S1x128 := by
  simp only [hostOps2]
  after_results_simp <;> rfl
/-- The layer's input-to-gates matrix (not yet transposed). -/
theorem h2_v48 : after hostOps2 V (Proc.devRef .tc main_v48) = shapeCast S192x128 (extractStridedSlice S1x192x128 ![1, 0, 0] (V (Proc.devRef .tc main_arg4)) slices_S2x192x128_S1x192x128_1_0_0) shapeCasts_S1x192x128_S192x128 := by
  simp only [hostOps2]
  after_results_simp <;> rfl
/-- The layer's state-to-gates matrix (not yet transposed). -/
theorem h2_v50 : after hostOps2 V (Proc.devRef .tc main_v50) = shapeCast S192x64 (extractStridedSlice S1x192x64 ![1, 0, 0] (V (Proc.devRef .tc main_arg5)) slices_S2x192x64_S1x192x64_1_0_0) shapeCasts_S1x192x64_S192x64 := by
  simp only [hostOps2]
  after_results_simp <;> rfl
/-- The layer's input gate bias vector. -/
theorem h2_v52 : after hostOps2 V (Proc.devRef .tc main_v52) = Cert.Spec.bg1 (V (Proc.devRef .tc main_arg6)) := by
  simp only [hostOps2]
  after_results_simp <;> rfl
/-- The layer's state gate bias vector. -/
theorem h2_v54 : after hostOps2 V (Proc.devRef .tc main_v54) = Cert.Spec.bg1 (V (Proc.devRef .tc main_arg7)) := by
  simp only [hostOps2]
  after_results_simp <;> rfl

end Cert.KernelIdeal.Chain

end
-- ==== Proof.Host4.lean ====
/-
  What stretch 4 of the kernel program's host operations leaves in the buffers later segments read,
  as functions of the contents before it: the backward direction's layer-0 weights and the two gathered operands of its first message stage.
-/
import proofs.«129615_j25563645346107_1_alg».proof.Proof.Gen.KernelIdeal.Launch
import proofs.«129615_j25563645346107_1_alg».proof.Proof.SpecNet

set_option maxRecDepth 16384

noncomputable section

namespace Cert.KernelIdeal.Chain

open Cert.KernelIdeal Cert.KernelIdeal.Gen
open Idealize.ShloMosaic Idealize.ShloMosaic.TcCoe Idealize.ShloMosaic.StableHlo Idealize.SL.Sem

variable {F : FTy → Type} [FloatOps F] [Cert.ReferenceIdeal.Facts]
variable (V : Valuation τ sig (Elt F))

/-- The first gathered operand: the states' rows at the first index vector. -/
theorem h4_v98 : after hostOps4 V (Proc.devRef .tc main_v98) = Cert.Spec.gatherRows (V (Proc.devRef .tc main_v5)) (V (Proc.devRef .tc main_v3)) := by
  simp only [hostOps4]
  after_results_simp <;> rfl
/-- The second gathered operand: the states' rows at the second index vector. -/
theorem h4_v105 : after hostOps4 V (Proc.devRef .tc main_v105) = Cert.Spec.gatherRows (V (Proc.devRef .tc main_v5)) (V (Proc.devRef .tc main_v1)) := by
  simp only [hostOps4]
  after_results_simp <;> rfl
/-- The layer's message matrix, transposed. -/
theorem h4_v106 : after hostOps4 V (Proc.devRef .tc main_v106) = Cert.Spec.wm0 (V (Proc.devRef .tc main_arg8)) := by
  simp only [hostOps4]
  after_results_simp <;> rfl
/-- The layer's message bias as a row. -/
theorem h4_v107 : after hostOps4 V (Proc.devRef .tc main_v107) = shapeCast S1x128 (Cert.Spec.bm0 (V (Proc.devRef .tc main_arg9))) shapeCasts_S128_S1x128 := by
  simp only [hostOps4]
  after_results_simp <;> rfl
/-- The layer's input-to-gates matrix (not yet transposed). -/
theorem h4_v85 : after hostOps4 V (Proc.devRef .tc main_v85) = shapeCast S192x128 (extractStridedSlice S1x192x128 ![0, 0, 0] (V (Proc.devRef .tc main_arg10)) slices_S2x192x128_S1x192x128_0_0_0) shapeCasts_S1x192x128_S192x128 := by
  simp only [hostOps4]
  after_results_simp <;> rfl
/-- The layer's state-to-gates matrix (not yet transposed). -/
theorem h4_v87 : after hostOps4 V (Proc.devRef .tc main_v87) = shapeCast S192x64 (extractStridedSlice S1x192x64 ![0, 0, 0] (V (Proc.devRef .tc main_arg11)) slices_S2x192x64_S1x192x64_0_0_0) shapeCasts_S1x192x64_S192x64 := by
  simp only [hostOps4]
  after_results_simp <;> rfl
/-- The layer's input gate bias vector. -/
theorem h4_v89 : after hostOps4 V (Proc.devRef .tc main_v89) = Cert.Spec.bg0 (V (Proc.devRef .tc main_arg12)) := by
  simp only [hostOps4]
  after_results_simp <;> rfl
/-- The layer's state gate bias vector. -/
theorem h4_v91 : after hostOps4 V (Proc.devRef .tc main_v91) = Cert.Spec.bg0 (V (Proc.devRef .tc main_arg13)) := by
  simp only [hostOps4]
  after_results_simp <;> rfl

end Cert.KernelIdeal.Chain

end
-- ==== Proof.Host6.lean ====
/-
  What stretch 6 of the kernel program's host operations leaves in the buffers later segments read,
  as functions of the contents before it: the backward direction's layer-1 weights and the two gathered operands of its second message stage.
-/
import proofs.«129615_j25563645346107_1_alg».proof.Proof.Gen.KernelIdeal.Launch
import proofs.«129615_j25563645346107_1_alg».proof.Proof.SpecNet

set_option maxRecDepth 16384

noncomputable section

namespace Cert.KernelIdeal.Chain

open Cert.KernelIdeal Cert.KernelIdeal.Gen
open Idealize.ShloMosaic Idealize.ShloMosaic.TcCoe Idealize.ShloMosaic.StableHlo Idealize.SL.Sem

variable {F : FTy → Type} [FloatOps F] [Cert.ReferenceIdeal.Facts]
variable (V : Valuation τ sig (Elt F))

/-- The first gathered operand: the states' rows at the first index vector. -/
theorem h6_v135 : after hostOps6 V (Proc.devRef .tc main_v135) = Cert.Spec.gatherRows (V (Proc.devRef .tc main_v116)) (V (Proc.devRef .tc main_v3)) := by
  simp only [hostOps6]
  after_results_simp <;> rfl
/-- The second gathered operand: the states' rows at the second index vector. -/
theorem h6_v142 : after hostOps6 V (Proc.devRef .tc main_v142) = Cert.Spec.gatherRows (V (Proc.devRef .tc main_v116)) (V (Proc.devRef .tc main_v1)) := by
  simp only [hostOps6]
  after_results_simp <;> rfl
/-- The layer's message matrix, transposed. -/
theorem h6_v143 : after hostOps6 V (Proc.devRef .tc main_v143) = Cert.Spec.wm1 (V (Proc.devRef .tc main_arg8)) := by
  simp only [hostOps6]
  after_results_simp <;> rfl
/-- The layer's message bias as a row. -/
theorem h6_v144 : after hostOps6 V (Proc.devRef .tc main_v144) = shapeCast S1x128 (Cert.Spec.bm1 (V (Proc.devRef .tc main_arg9))) shapeCasts_S128_S1x128 := by
  simp only [hostOps6]
  after_results_simp <;> rfl
/-- The layer's input-to-gates matrix (not yet transposed). -/
theorem h6_v122 : after hostOps6 V (Proc.devRef .tc main_v122) = shapeCast S192x128 (extractStridedSlice S1x192x128 ![1, 0, 0] (V (Proc.devRef .tc main_arg10)) slices_S2x192x128_S1x192x128_1_0_0) shapeCasts_S1x192x128_S192x128 := by
  simp only [hostOps6]
  after_results_simp <;> rfl
/-- The layer's state-to-gates matrix (not yet transposed). -/
theorem h6_v124 : after hostOps6 V (Proc.devRef .tc main_v124) = shapeCast S192x64 (extractStridedSlice S1x192x64 ![1, 0, 0] (V (Proc.devRef .tc main_arg11)) slices_S2x192x64_S1x192x64_1_0_0) shapeCasts_S1x192x64_S192x64 := by
  simp only [hostOps6]
  after_results_simp <;> rfl
/-- The layer's input gate bias vector. -/
theorem h6_v126 : after hostOps6 V (Proc.devRef .tc main_v126) = Cert.Spec.bg1 (V (Proc.devRef .tc main_arg12)) := by
  simp only [hostOps6]
  after_results_simp <;> rfl
/-- The layer's state gate bias vector. -/
theorem h6_v128 : after hostOps6 V (Proc.devRef .tc main_v128) = Cert.Spec.bg1 (V (Proc.devRef .tc main_arg13)) := by
  simp only [hostOps6]
  after_results_simp <;> rfl

end Cert.KernelIdeal.Chain

end
-- ==== Proof.HostSmall.lean ====
/-
  What the short stretches of the kernel program's host operations leave in the buffers the GRU regions
  read — the segment sum of the messages, the two gate matrices transposed, the two gate biases as rows —
  and the last stretch's result: the two directions' final states side by side.
-/
import proofs.«129615_j25563645346107_1_alg».proof.Proof.Gen.KernelIdeal.Launch
import proofs.«129615_j25563645346107_1_alg».proof.Proof.SpecNet

set_option maxRecDepth 16384

noncomputable section

namespace Cert.KernelIdeal.Chain

open Cert.KernelIdeal Cert.KernelIdeal.Gen
open Idealize.ShloMosaic Idealize.ShloMosaic.TcCoe Idealize.ShloMosaic.StableHlo Idealize.SL.Sem

variable {F : FTy → Type} [FloatOps F] [Cert.ReferenceIdeal.Facts]
variable (V : Valuation τ sig (Elt F))

/-- The messages summed into their nodes. -/
theorem h1_v37 : after hostOps1 V (Proc.devRef .tc main_v37) = Cert.Spec.segSum (V (Proc.devRef .tc main_v3)) (V (Proc.devRef .tc main_v34)) := by
  simp only [hostOps1]
  after_results_simp <;> rfl
/-- The input-to-gates matrix, transposed. -/
theorem h1_v38 : after hostOps1 V (Proc.devRef .tc main_v38) = transpose S128x192 [1, 0] (V (Proc.devRef .tc main_v11)) transposes_S192x128_S128x192_1_0 := by
  simp only [hostOps1]
  after_results_simp <;> rfl
/-- The state-to-gates matrix, transposed. -/
theorem h1_v39 : after hostOps1 V (Proc.devRef .tc main_v39) = transpose S64x192 [1, 0] (V (Proc.devRef .tc main_v13)) transposes_S192x64_S64x192_1_0 := by
  simp only [hostOps1]
  after_results_simp <;> rfl
/-- The input gate bias as a row. -/
theorem h1_v40 : after hostOps1 V (Proc.devRef .tc main_v40) = shapeCast S1x192 (V (Proc.devRef .tc main_v15)) shapeCasts_S192_S1x192 := by
  simp only [hostOps1]
  after_results_simp <;> rfl
/-- The state gate bias as a row. -/
theorem h1_v41 : after hostOps1 V (Proc.devRef .tc main_v41) = shapeCast S1x192 (V (Proc.devRef .tc main_v17)) shapeCasts_S192_S1x192 := by
  simp only [hostOps1]
  after_results_simp <;> rfl
/-- The messages summed into their nodes. -/
theorem h3_v74 : after hostOps3 V (Proc.devRef .tc main_v74) = Cert.Spec.segSum (V (Proc.devRef .tc main_v3)) (V (Proc.devRef .tc main_v71)) := by
  simp only [hostOps3]
  after_results_simp <;> rfl
/-- The input-to-gates matrix, transposed. -/
theorem h3_v75 : after hostOps3 V (Proc.devRef .tc main_v75) = transpose S128x192 [1, 0] (V (Proc.devRef .tc main_v48)) transposes_S192x128_S128x192_1_0 := by
  simp only [hostOps3]
  after_results_simp <;> rfl
/-- The state-to-gates matrix, transposed. -/
theorem h3_v76 : after hostOps3 V (Proc.devRef .tc main_v76) = transpose S64x192 [1, 0] (V (Proc.devRef .tc main_v50)) transposes_S192x64_S64x192_1_0 := by
  simp only [hostOps3]
  after_results_simp <;> rfl
/-- The input gate bias as a row. -/
theorem h3_v77 : after hostOps3 V (Proc.devRef .tc main_v77) = shapeCast S1x192 (V (Proc.devRef .tc main_v52)) shapeCasts_S192_S1x192 := by
  simp only [hostOps3]
  after_results_simp <;> rfl
/-- The state gate bias as a row. -/
theorem h3_v78 : after hostOps3 V (Proc.devRef .tc main_v78) = shapeCast S1x192 (V (Proc.devRef .tc main_v54)) shapeCasts_S192_S1x192 := by
  simp only [hostOps3]
  after_results_simp <;> rfl
/-- The messages summed into their nodes. -/
theorem h5_v111 : after hostOps5 V (Proc.devRef .tc main_v111) = Cert.Spec.segSum (V (Proc.devRef .tc main_v1)) (V (Proc.devRef .tc main_v108)) := by
  simp only [hostOps5]
  after_results_simp <;> rfl
/-- The input-to-gates matrix, transposed. -/
theorem h5_v112 : after hostOps5 V (Proc.devRef .tc main_v112) = transpose S128x192 [1, 0] (V (Proc.devRef .tc main_v85)) transposes_S192x128_S128x192_1_0 := by
  simp only [hostOps5]
  after_results_simp <;> rfl
/-- The state-to-gates matrix, transposed. -/
theorem h5_v113 : after hostOps5 V (Proc.devRef .tc main_v113) = transpose S64x192 [1, 0] (V (Proc.devRef .tc main_v87)) transposes_S192x64_S64x192_1_0 := by
  simp only [hostOps5]
  after_results_simp <;> rfl
/-- The input gate bias as a row. -/
theorem h5_v114 : after hostOps5 V (Proc.devRef .tc main_v114) = shapeCast S1x192 (V (Proc.devRef .tc main_v89)) shapeCasts_S192_S1x192 := by
  simp only [hostOps5]
  after_results_simp <;> rfl
/-- The state gate bias as a row. -/
theorem h5_v115 : after hostOps5 V (Proc.devRef .tc main_v115) = shapeCast S1x192 (V (Proc.devRef .tc main_v91)) shapeCasts_S192_S1x192 := by
  simp only [hostOps5]
  after_results_simp <;> rfl
/-- The messages summed into their nodes. -/
theorem h7_v148 : after hostOps7 V (Proc.devRef .tc main_v148) = Cert.Spec.segSum (V (Proc.devRef .tc main_v1)) (V (Proc.devRef .tc main_v145)) := by
  simp only [hostOps7]
  after_results_simp <;> rfl
/-- The input-to-gates matrix, transposed. -/
theorem h7_v149 : after hostOps7 V (Proc.devRef .tc main_v149) = transpose S128x192 [1, 0] (V (Proc.devRef .tc main_v122)) transposes_S192x128_S128x192_1_0 := by
  simp only [hostOps7]
  after_results_simp <;> rfl
/-- The state-to-gates matrix, transposed. -/
theorem h7_v150 : after hostOps7 V (Proc.devRef .tc main_v150) = transpose S64x192 [1, 0] (V (Proc.devRef .tc main_v124)) transposes_S192x64_S64x192_1_0 := by
  simp only [hostOps7]
  after_results_simp <;> rfl
/-- The input gate bias as a row. -/
theorem h7_v151 : after hostOps7 V (Proc.devRef .tc main_v151) = shapeCast S1x192 (V (Proc.devRef .tc main_v126)) shapeCasts_S192_S1x192 := by
  simp only [hostOps7]
  after_results_simp <;> rfl
/-- The state gate bias as a row. -/
theorem h7_v152 : after hostOps7 V (Proc.devRef .tc main_v152) = shapeCast S1x192 (V (Proc.devRef .tc main_v128)) shapeCasts_S192_S1x192 := by
  simp only [hostOps7]
  after_results_simp <;> rfl
/-- The result: the forward and the backward states side by side. -/
theorem h8_v154 : after hostOps8 V (Proc.devRef .tc main_v154) = concatenate S50000x128 1 [⟨S50000x64, (V (Proc.devRef .tc main_v79))⟩, ⟨S50000x64, (V (Proc.devRef .tc main_v153))⟩] concatenates_S50000x64_S50000x64_S50000x128_d1 := by
  simp only [hostOps8]
  after_results_simp <;> rfl

end Cert.KernelIdeal.Chain

end
-- ==== Proof.Chain.lean ====
/-
  The kernel program's result as the network function of its arguments.

  The program's @main alternates nine stretches of host operations with eight kernel regions; `Gen.W0` …
  `Gen.W17` are the buffer contents at the segment boundaries.  Given what each region computes from its
  entry arrays (the hypothesis `RegionValues`: a message region the message stage `Spec.msgK`, a GRU
  region the GRU stage `Spec.gruK`), the contents of the buffers are followed from boundary to boundary:
  a stretch's results are its operations' functions of the contents before it, a region's output is its
  stage of its windows' arrays, and a buffer a segment does not write is carried over.  Four layers —
  two of the forward direction, two of the backward one — give the four states X1, X2, Y1, Y2, and the
  last stretch lays X2 and Y2 side by side: the network `Spec.net`, with each bias vector made a row by a
  reshape.
-/
import proofs.«129615_j25563645346107_1_alg».proof.Proof.Keep
import proofs.«129615_j25563645346107_1_alg».proof.Proof.Host0
import proofs.«129615_j25563645346107_1_alg».proof.Proof.Host2
import proofs.«129615_j25563645346107_1_alg».proof.Proof.Host4
import proofs.«129615_j25563645346107_1_alg».proof.Proof.Host6
import proofs.«129615_j25563645346107_1_alg».proof.Proof.HostSmall
import proofs.«129615_j25563645346107_1_alg».proof.Proof.Gen.ReferenceIdeal

set_option maxRecDepth 16384
set_option maxHeartbeats 2000000

noncomputable section

namespace Cert.KernelIdeal.Chain

open Cert.KernelIdeal Cert.KernelIdeal.Gen
open Idealize.ShloMosaic Idealize.ShloMosaic.TcCoe Idealize.ShloMosaic.StableHlo Idealize.SL.Sem

set_option maxHeartbeats 4000000 in
/-- What the eight regions compute, each as a function of the arrays it finds at its entry. -/
structure RegionValues : Prop where
  /-- Region 0: the message stage of its entry arrays. -/
  msg0 : ∀ (V : (c : Dev nD) → (b : Ref sig .tc) → Buf (Elt Ideal) ((c : Thread nD τ).loc b)) (c : Dev nD),
    (Gen.dat0 (F := Ideal) V c).arrAt 4 cfg0.N
      = Cert.Spec.msgK (F := Ideal) (V c (Pipeline.arrRef spec0 0)) (V c (Pipeline.arrRef spec0 1)) (V c (Pipeline.arrRef spec0 2)) (V c (Pipeline.arrRef spec0 3))
  /-- Region 2: the message stage of its entry arrays. -/
  msg2 : ∀ (V : (c : Dev nD) → (b : Ref sig .tc) → Buf (Elt Ideal) ((c : Thread nD τ).loc b)) (c : Dev nD),
    (Gen.dat2 (F := Ideal) V c).arrAt 4 cfg2.N
      = Cert.Spec.msgK (F := Ideal) (V c (Pipeline.arrRef spec2 0)) (V c (Pipeline.arrRef spec2 1)) (V c (Pipeline.arrRef spec2 2)) (V c (Pipeline.arrRef spec2 3))
  /-- Region 4: the message stage of its entry arrays. -/
  msg4 : ∀ (V : (c : Dev nD) → (b : Ref sig .tc) → Buf (Elt Ideal) ((c : Thread nD τ).loc b)) (c : Dev nD),
    (Gen.dat4 (F := Ideal) V c).arrAt 4 cfg4.N
      = Cert.Spec.msgK (F := Ideal) (V c (Pipeline.arrRef spec4 0)) (V c (Pipeline.arrRef spec4 1)) (V c (Pipeline.arrRef spec4 2)) (V c (Pipeline.arrRef spec4 3))
  /-- Region 6: the message stage of its entry arrays. -/
  msg6 : ∀ (V : (c : Dev nD) → (b : Ref sig .tc) → Buf (Elt Ideal) ((c : Thread nD τ).loc b)) (c : Dev nD),
    (Gen.dat6 (F := Ideal) V c).arrAt 4 cfg6.N
      = Cert.Spec.msgK (F := Ideal) (V c (Pipeline.arrRef spec6 0)) (V c (Pipeline.arrRef spec6 1)) (V c (Pipeline.arrRef spec6 2)) (V c (Pipeline.arrRef spec6 3))
  /-- Region 1: the GRU stage of its entry arrays. -/
  gru1 : ∀ (V : (c : Dev nD) → (b : Ref sig .tc) → Buf (Elt Ideal) ((c : Thread nD τ).loc b)) (c : Dev nD),
    (Gen.dat1 (F := Ideal) V c).arrAt 6 cfg1.N
      = Cert.Spec.gruK (F := Ideal) (V c (Pipeline.arrRef spec1 0)) (V c (Pipeline.arrRef spec1 1)) (V c (Pipeline.arrRef spec1 2)) (V c (Pipeline.arrRef spec1 3)) (V c (Pipeline.arrRef spec1 4)) (V c (Pipeline.arrRef spec1 5))
  /-- Region 3: the GRU stage of its entry arrays. -/
  gru3 : ∀ (V : (c : Dev nD) → (b : Ref sig .tc) → Buf (Elt Ideal) ((c : Thread nD τ).loc b)) (c : Dev nD),
    (Gen.dat3 (F := Ideal) V c).arrAt 6 cfg3.N
      = Cert.Spec.gruK (F := Ideal) (V c (Pipeline.arrRef spec3 0)) (V c (Pipeline.arrRef spec3 1)) (V c (Pipeline.arrRef spec3 2)) (V c (Pipeline.arrRef spec3 3)) (V c (Pipeline.arrRef spec3 4)) (V c (Pipeline.arrRef spec3 5))
  /-- Region 5: the GRU stage of its entry arrays. -/
  gru5 : ∀ (V : (c : Dev nD) → (b : Ref sig .tc) → Buf (Elt Ideal) ((c : Thread nD τ).loc b)) (c : Dev nD),
    (Gen.dat5 (F := Ideal) V c).arrAt 6 cfg5.N
      = Cert.Spec.gruK (F := Ideal) (V c (Pipeline.arrRef spec5 0)) (V c (Pipeline.arrRef spec5 1)) (V c (Pipeline.arrRef spec5 2)) (V c (Pipeline.arrRef spec5 3)) (V c (Pipeline.arrRef spec5 4)) (V c (Pipeline.arrRef spec5 5))
  /-- Region 7: the GRU stage of its entry arrays. -/
  gru7 : ∀ (V : (c : Dev nD) → (b : Ref sig .tc) → Buf (Elt Ideal) ((c : Thread nD τ).loc b)) (c : Dev nD),
    (Gen.dat7 (F := Ideal) V c).arrAt 6 cfg7.N
      = Cert.Spec.gruK (F := Ideal) (V c (Pipeline.arrRef spec7 0)) (V c (Pipeline.arrRef spec7 1)) (V c (Pipeline.arrRef spec7 2)) (V c (Pipeline.arrRef spec7 3)) (V c (Pipeline.arrRef spec7 4)) (V c (Pipeline.arrRef spec7 5))

/-! ## The stages respect equality of their operands -/

section Congr
variable {F : FTy → Type} [FloatOps F]
theorem gatherRows_congr {hs hs' : FVec F S50000x64 .f32} {ix ix' : IVec S800000 32} (h1 : hs = hs') (h2 : ix = ix') :
    Cert.Spec.gatherRows hs ix = Cert.Spec.gatherRows hs' ix' := by subst h1 h2; rfl
theorem segSum_congr {ix ix' : IVec S800000 32} {u u' : FVec F S800000x128 .f32} (h1 : ix = ix') (h2 : u = u') :
    Cert.Spec.segSum ix u = Cert.Spec.segSum ix' u' := by subst h1 h2; rfl
theorem msgK_congr {a a' b b' : FVec F S800000x64 .f32} {wt wt' : FVec F S128x128 .f32} {b2 b2' : FVec F S1x128 .f32}
    (h1 : a = a') (h2 : b = b') (h3 : wt = wt') (h4 : b2 = b2') : Cert.Spec.msgK a b wt b2 = Cert.Spec.msgK a' b' wt' b2' := by
  subst h1 h2 h3 h4; rfl
theorem gruK_congr {g g' : FVec F S50000x128 .f32} {hs hs' : FVec F S50000x64 .f32} {wi wi' : FVec F S128x192 .f32} {wh wh' : FVec F S64x192 .f32}
    {bi bi' bh bh' : FVec F S1x192 .f32} (h1 : g = g') (h2 : hs = hs') (h3 : wi = wi') (h4 : wh = wh') (h5 : bi = bi') (h6 : bh = bh') :
    Cert.Spec.gruK g hs wi wh bi bh = Cert.Spec.gruK g' hs' wi' wh' bi' bh' := by
  subst h1 h2 h3 h4 h5 h6; rfl
theorem sideBySide_congr {x x' y y' : FVec F S50000x64 .f32} (h1 : x = x') (h2 : y = y') :
    concatenate S50000x128 1 [⟨S50000x64, x⟩, ⟨S50000x64, y⟩] concatenates_S50000x64_S50000x64_S50000x128_d1
      = concatenate S50000x128 1 [⟨S50000x64, x'⟩, ⟨S50000x64, y'⟩] concatenates_S50000x64_S50000x64_S50000x128_d1 := by
  subst h1 h2; rfl
end Congr

/-- A bias vector made a row by a reshape. -/
def rk128 (v : FVec Ideal S128 .f32) : FVec Ideal S1x128 .f32 := shapeCast S1x128 v shapeCasts_S128_S1x128
/-- The same for the gate biases. -/
def rk192 (v : FVec Ideal S192 .f32) : FVec Ideal S1x192 .f32 := shapeCast S1x192 v shapeCasts_S192_S1x192

/-- Slice `0` of the stacked input-to-gates matrices, not transposed. -/
def wihR0 (A : FVec Ideal S2x192x128 .f32) : FVec Ideal S192x128 .f32 :=
  shapeCast S192x128 (extractStridedSlice S1x192x128 ![0, 0, 0] A slices_S2x192x128_S1x192x128_0_0_0) shapeCasts_S1x192x128_S192x128
/-- Slice `1` of the stacked input-to-gates matrices, not transposed. -/
def wihR1 (A : FVec Ideal S2x192x128 .f32) : FVec Ideal S192x128 .f32 :=
  shapeCast S192x128 (extractStridedSlice S1x192x128 ![1, 0, 0] A slices_S2x192x128_S1x192x128_1_0_0) shapeCasts_S1x192x128_S192x128
/-- Slice `0` of the stacked state-to-gates matrices, not transposed. -/
def whhR0 (A : FVec Ideal S2x192x64 .f32) : FVec Ideal S192x64 .f32 :=
  shapeCast S192x64 (extractStridedSlice S1x192x64 ![0, 0, 0] A slices_S2x192x64_S1x192x64_0_0_0) shapeCasts_S1x192x64_S192x64
/-- Slice `1` of the stacked state-to-gates matrices, not transposed. -/
def whhR1 (A : FVec Ideal S2x192x64 .f32) : FVec Ideal S192x64 .f32 :=
  shapeCast S192x64 (extractStridedSlice S1x192x64 ![1, 0, 0] A slices_S2x192x64_S1x192x64_1_0_0) shapeCasts_S1x192x64_S192x64
/-- The input-to-gates matrix transposed. -/
def trI (x : FVec Ideal S192x128 .f32) : FVec Ideal S128x192 .f32 := transpose S128x192 [1, 0] x transposes_S192x128_S128x192_1_0
/-- The state-to-gates matrix transposed. -/
def trH (x : FVec Ideal S192x64 .f32) : FVec Ideal S64x192 .f32 := transpose S64x192 [1, 0] x transposes_S192x64_S64x192_1_0

variable (m : (ℓ : Loc nD τ sig) → Buf (Elt Ideal) ℓ) (ρ : Dev nD → PrngReg) (c : Dev nD)

set_option quotPrecheck false

local notation "a0" => W0 m ρ c (Proc.devRef .tc main_arg0)
local notation "a1" => W0 m ρ c (Proc.devRef .tc main_arg1)
local notation "a2" => W0 m ρ c (Proc.devRef .tc main_arg2)
local notation "a3" => W0 m ρ c (Proc.devRef .tc main_arg3)
local notation "a4" => W0 m ρ c (Proc.devRef .tc main_arg4)
local notation "a5" => W0 m ρ c (Proc.devRef .tc main_arg5)
local notation "a6" => W0 m ρ c (Proc.devRef .tc main_arg6)
local notation "a7" => W0 m ρ c (Proc.devRef .tc main_arg7)
local notation "a8" => W0 m ρ c (Proc.devRef .tc main_arg8)
local notation "a9" => W0 m ρ c (Proc.devRef .tc main_arg9)
local notation "a10" => W0 m ρ c (Proc.devRef .tc main_arg10)
local notation "a11" => W0 m ρ c (Proc.devRef .tc main_arg11)
local notation "a12" => W0 m ρ c (Proc.devRef .tc main_arg12)
local notation "a13" => W0 m ρ c (Proc.devRef .tc main_arg13)
local notation "SRC" => Cert.Spec.src a1
local notation "DST" => Cert.Spec.dst a1
local notation "HF" => Cert.Spec.hfwd (F := Ideal) a0
local notation "HB" => Cert.Spec.hbwd (F := Ideal) a0

/-- The forward states after the first layer. -/
def X1 : FVec Ideal S50000x64 .f32 := Cert.Spec.layerK (F := Ideal) HF SRC DST DST (Cert.Spec.wm0 (F := Ideal) a2) (rk128 (Cert.Spec.bm0 (F := Ideal) a3)) (Cert.Spec.wih0 (F := Ideal) a4) (Cert.Spec.whh0 (F := Ideal) a5) (rk192 (Cert.Spec.bg0 (F := Ideal) a6)) (rk192 (Cert.Spec.bg0 (F := Ideal) a7))
/-- The forward states after the second layer. -/
def X2 : FVec Ideal S50000x64 .f32 := Cert.Spec.layerK (F := Ideal) (X1 m ρ c) SRC DST DST (Cert.Spec.wm1 (F := Ideal) a2) (rk128 (Cert.Spec.bm1 (F := Ideal) a3)) (Cert.Spec.wih1 (F := Ideal) a4) (Cert.Spec.whh1 (F := Ideal) a5) (rk192 (Cert.Spec.bg1 (F := Ideal) a6)) (rk192 (Cert.Spec.bg1 (F := Ideal) a7))
/-- The backward states after the first layer. -/
def Y1 : FVec Ideal S50000x64 .f32 := Cert.Spec.layerK (F := Ideal) HB DST SRC SRC (Cert.Spec.wm0 (F := Ideal) a8) (rk128 (Cert.Spec.bm0 (F := Ideal) a9)) (Cert.Spec.wih0 (F := Ideal) a10) (Cert.Spec.whh0 (F := Ideal) a11) (rk192 (Cert.Spec.bg0 (F := Ideal) a12)) (rk192 (Cert.Spec.bg0 (F := Ideal) a13))
/-- The backward states after the second layer. -/
def Y2 : FVec Ideal S50000x64 .f32 := Cert.Spec.layerK (F := Ideal) (Y1 m ρ c) DST SRC SRC (Cert.Spec.wm1 (F := Ideal) a8) (rk128 (Cert.Spec.bm1 (F := Ideal) a9)) (Cert.Spec.wih1 (F := Ideal) a10) (Cert.Spec.whh1 (F := Ideal) a11) (rk192 (Cert.Spec.bg1 (F := Ideal) a12)) (rk192 (Cert.Spec.bg1 (F := Ideal) a13))

/-! ## Layer F0: stretch 0, region 0 (the messages), stretch 1, region 1 (the GRU) -/

theorem W1_v24 : W1 m ρ c (Proc.devRef .tc main_v24) = Cert.Spec.gatherRows (F := Ideal) HF SRC := h0_v24 _
theorem W1_v31 : W1 m ρ c (Proc.devRef .tc main_v31) = Cert.Spec.gatherRows (F := Ideal) HF DST := h0_v31 _
theorem W1_v32 : W1 m ρ c (Proc.devRef .tc main_v32) = Cert.Spec.wm0 (F := Ideal) a2 := h0_v32 _
theorem W1_v33 : W1 m ρ c (Proc.devRef .tc main_v33) = rk128 (Cert.Spec.bm0 (F := Ideal) a3) := h0_v33 _
theorem W1_v11 : W1 m ρ c (Proc.devRef .tc main_v11) = (wihR0 a4) := h0_v11 _
theorem W1_v13 : W1 m ρ c (Proc.devRef .tc main_v13) = (whhR0 a5) := h0_v13 _
theorem W1_v15 : W1 m ρ c (Proc.devRef .tc main_v15) = Cert.Spec.bg0 (F := Ideal) a6 := h0_v15 _
theorem W1_v17 : W1 m ρ c (Proc.devRef .tc main_v17) = Cert.Spec.bg0 (F := Ideal) a7 := h0_v17 _
/-- The messages of layer F0: what region 0 leaves. -/
theorem W2_v34 (h : RegionValues) : W2 m ρ c (Proc.devRef .tc main_v34) = Cert.Spec.msgK (F := Ideal) (Cert.Spec.gatherRows (F := Ideal) HF SRC) (Cert.Spec.gatherRows (F := Ideal) HF DST) (Cert.Spec.wm0 (F := Ideal) a2) (rk128 (Cert.Spec.bm0 (F := Ideal) a3)) :=
  (Gen.W2_arr m ρ c 4).trans ((h.msg0 (V1 m ρ) c).trans
    (msgK_congr (W1_v24 m ρ c) (W1_v31 m ρ c) (W1_v32 m ρ c) (W1_v33 m ρ c)))
theorem W2_v3 : W2 m ρ c (Proc.devRef .tc main_v3) = DST := by
  refine (Gen.W2_of_ne m ρ c _ (by decide)).trans ?_
  exact h0_v3 _
theorem W2_v11 : W2 m ρ c (Proc.devRef .tc main_v11) = (wihR0 a4) :=
  (Gen.W2_of_ne m ρ c main_v11 (by decide)).trans (W1_v11 m ρ c)
theorem W2_v13 : W2 m ρ c (Proc.devRef .tc main_v13) = (whhR0 a5) :=
  (Gen.W2_of_ne m ρ c main_v13 (by decide)).trans (W1_v13 m ρ c)
theorem W2_v15 : W2 m ρ c (Proc.devRef .tc main_v15) = Cert.Spec.bg0 (F := Ideal) a6 :=
  (Gen.W2_of_ne m ρ c main_v15 (by decide)).trans (W1_v15 m ρ c)
theorem W2_v17 : W2 m ρ c (Proc.devRef .tc main_v17) = Cert.Spec.bg0 (F := Ideal) a7 :=
  (Gen.W2_of_ne m ρ c main_v17 (by decide)).trans (W1_v17 m ρ c)
theorem W3_v37 (h : RegionValues) : W3 m ρ c (Proc.devRef .tc main_v37) = Cert.Spec.segSum (F := Ideal) DST (Cert.Spec.msgK (F := Ideal) (Cert.Spec.gatherRows (F := Ideal) HF SRC) (Cert.Spec.gatherRows (F := Ideal) HF DST) (Cert.Spec.wm0 (F := Ideal) a2) (rk128 (Cert.Spec.bm0 (F := Ideal) a3))) :=
  (h1_v37 _).trans (segSum_congr (W2_v3 m ρ c) (W2_v34 m ρ c h))
theorem W3_v4 : W3 m ρ c (Proc.devRef .tc main_v4) = HF := by
  refine (W3_keep m ρ c _ (by decide)).trans ?_
  refine (Gen.W2_of_ne m ρ c _ (by decide)).trans ?_
  exact h0_v4 _
theorem W3_v38 : W3 m ρ c (Proc.devRef .tc main_v38) = Cert.Spec.wih0 (F := Ideal) a4 :=
  (h1_v38 _).trans (congrArg trI (W2_v11 m ρ c))
theorem W3_v39 : W3 m ρ c (Proc.devRef .tc main_v39) = Cert.Spec.whh0 (F := Ideal) a5 :=
  (h1_v39 _).trans (congrArg trH (W2_v13 m ρ c))
theorem W3_v40 : W3 m ρ c (Proc.devRef .tc main_v40) = rk192 (Cert.Spec.bg0 (F := Ideal) a6) :=
  (h1_v40 _).trans (congrArg rk192 (W2_v15 m ρ c))
theorem W3_v41 : W3 m ρ c (Proc.devRef .tc main_v41) = rk192 (Cert.Spec.bg0 (F := Ideal) a7) :=
  (h1_v41 _).trans (congrArg rk192 (W2_v17 m ρ c))
/-- The states after layer F0: what region 1 leaves. -/
theorem W4_v42 (h : RegionValues) : W4 m ρ c (Proc.devRef .tc main_v42) = X1 m ρ c :=
  (Gen.W4_arr m ρ c 6).trans ((h.gru1 (V3 m ρ) c).trans
    (gruK_congr (W3_v37 m ρ c h) (W3_v4 m ρ c) (W3_v38 m ρ c) (W3_v39 m ρ c) (W3_v40 m ρ c) (W3_v41 m ρ c)))

/-! ## Layer F1: stretch 2, region 2 (the messages), stretch 3, region 3 (the GRU) -/

theorem W4_a2 : W4 m ρ c (Proc.devRef .tc main_arg2) = a2 := by
  refine (Gen.W4_of_ne m ρ c _ (by decide)).trans ?_
  refine (W3_keep m ρ c _ (by decide)).trans ?_
  refine (Gen.W2_of_ne m ρ c _ (by decide)).trans ?_
  refine (W1_keep m ρ c _ (by decide)).trans ?_
  rfl
theorem W4_a3 : W4 m ρ c (Proc.devRef .tc main_arg3) = a3 := by
  refine (Gen.W4_of_ne m ρ c _ (by decide)).trans ?_
  refine (W3_keep m ρ c _ (by decide)).trans ?_
  refine (Gen.W2_of_ne m ρ c _ (by decide)).trans ?_
  refine (W1_keep m ρ c _ (by decide)).trans ?_
  rfl
theorem W4_a4 : W4 m ρ c (Proc.devRef .tc main_arg4) = a4 := by
  refine (Gen.W4_of_ne m ρ c _ (by decide)).trans ?_
  refine (W3_keep m ρ c _ (by decide)).trans ?_
  refine (Gen.W2_of_ne m ρ c _ (by decide)).trans ?_
  refine (W1_keep m ρ c _ (by decide)).trans ?_
  rfl
theorem W4_a5 : W4 m ρ c (Proc.devRef .tc main_arg5) = a5 := by
  refine (Gen.W4_of_ne m ρ c _ (by decide)).trans ?_
  refine (W3_keep m ρ c _ (by decide)).trans ?_
  refine (Gen.W2_of_ne m ρ c _ (by decide)).trans ?_
  refine (W1_keep m ρ c _ (by decide)).trans ?_
  rfl
theorem W4_a6 : W4 m ρ c (Proc.devRef .tc main_arg6) = a6 := by
  refine (Gen.W4_of_ne m ρ c _ (by decide)).trans ?_
  refine (W3_keep m ρ c _ (by decide)).trans ?_
  refine (Gen.W2_of_ne m ρ c _ (by decide)).trans ?_
  refine (W1_keep m ρ c _ (by decide)).trans ?_
  rfl
theorem W4_a7 : W4 m ρ c (Proc.devRef .tc main_arg7) = a7 := by
  refine (Gen.W4_of_ne m ρ c _ (by decide)).trans ?_
  refine (W3_keep m ρ c _ (by decide)).trans ?_
  refine (Gen.W2_of_ne m ρ c _ (by decide)).trans ?_
  refine (W1_keep m ρ c _ (by decide)).trans ?_
  rfl
theorem W4_v1 : W4 m ρ c (Proc.devRef .tc main_v1) = SRC := by
  refine (Gen.W4_of_ne m ρ c _ (by decide)).trans ?_
  refine (W3_keep m ρ c _ (by decide)).trans ?_
  refine (Gen.W2_of_ne m ρ c _ (by decide)).trans ?_
  exact h0_v1 _
theorem W4_v3 : W4 m ρ c (Proc.devRef .tc main_v3) = DST := by
  refine (Gen.W4_of_ne m ρ c _ (by decide)).trans ?_
  refine (W3_keep m ρ c _ (by decide)).trans ?_
  refine (Gen.W2_of_ne m ρ c _ (by decide)).trans ?_
  exact h0_v3 _
theorem W5_v61 (h : RegionValues) : W5 m ρ c (Proc.devRef .tc main_v61) = Cert.Spec.gatherRows (F := Ideal) (X1 m ρ c) SRC :=
  (h2_v61 _).trans (gatherRows_congr (W4_v42 m ρ c h) (W4_v1 m ρ c))
theorem W5_v68 (h : RegionValues) : W5 m ρ c (Proc.devRef .tc main_v68) = Cert.Spec.gatherRows (F := Ideal) (X1 m ρ c) DST :=
  (h2_v68 _).trans (gatherRows_congr (W4_v42 m ρ c h) (W4_v3 m ρ c))
theorem W5_v69 : W5 m ρ c (Proc.devRef .tc main_v69) = Cert.Spec.wm1 (F := Ideal) a2 :=
  (h2_v69 _).trans (congrArg (Cert.Spec.wm1 (F := Ideal)) (W4_a2 m ρ c))
theorem W5_v70 : W5 m ρ c (Proc.devRef .tc main_v70) = rk128 (Cert.Spec.bm1 (F := Ideal) a3) :=
  (h2_v70 _).trans (congrArg (fun x => rk128 (Cert.Spec.bm1 (F := Ideal) x)) (W4_a3 m ρ c))
theorem W5_v48 : W5 m ρ c (Proc.devRef .tc main_v48) = (wihR1 a4) :=
  (h2_v48 _).trans (congrArg wihR1 (W4_a4 m ρ c))
theorem W5_v50 : W5 m ρ c (Proc.devRef .tc main_v50) = (whhR1 a5) :=
  (h2_v50 _).trans (congrArg whhR1 (W4_a5 m ρ c))
theorem W5_v52 : W5 m ρ c (Proc.devRef .tc main_v52) = Cert.Spec.bg1 (F := Ideal) a6 :=
  (h2_v52 _).trans (congrArg (Cert.Spec.bg1 (F := Ideal)) (W4_a6 m ρ c))
theorem W5_v54 : W5 m ρ c (Proc.devRef .tc main_v54) = Cert.Spec.bg1 (F := Ideal) a7 :=
  (h2_v54 _).trans (congrArg (Cert.Spec.bg1 (F := Ideal)) (W4_a7 m ρ c))
/-- The messages of layer F1: what region 2 leaves. -/
theorem W6_v71 (h : RegionValues) : W6 m ρ c (Proc.devRef .tc main_v71) = Cert.Spec.msgK (F := Ideal) (Cert.Spec.gatherRows (F := Ideal) (X1 m ρ c) SRC) (Cert.Spec.gatherRows (F := Ideal) (X1 m ρ c) DST) (Cert.Spec.wm1 (F := Ideal) a2) (rk128 (Cert.Spec.bm1 (F := Ideal) a3)) :=
  (Gen.W6_arr m ρ c 4).trans ((h.msg2 (V5 m ρ) c).trans
    (msgK_congr (W5_v61 m ρ c h) (W5_v68 m ρ c h) (W5_v69 m ρ c) (W5_v70 m ρ c)))
theorem W6_v3' : W6 m ρ c (Proc.devRef .tc main_v3) = DST := by
  refine (Gen.W6_of_ne m ρ c _ (by decide)).trans ?_
  refine (W5_keep m ρ c _ (by decide)).trans ?_
  refine (Gen.W4_of_ne m ρ c _ (by decide)).trans ?_
  refine (W3_keep m ρ c _ (by decide)).trans ?_
  refine (Gen.W2_of_ne m ρ c _ (by decide)).trans ?_
  exact h0_v3 _
theorem W6_v48 : W6 m ρ c (Proc.devRef .tc main_v48) = (wihR1 a4) :=
  (Gen.W6_of_ne m ρ c main_v48 (by decide)).trans (W5_v48 m ρ c)
theorem W6_v50 : W6 m ρ c (Proc.devRef .tc main_v50) = (whhR1 a5) :=
  (Gen.W6_of_ne m ρ c main_v50 (by decide)).trans (W5_v50 m ρ c)
theorem W6_v52 : W6 m ρ c (Proc.devRef .tc main_v52) = Cert.Spec.bg1 (F := Ideal) a6 :=
  (Gen.W6_of_ne m ρ c main_v52 (by decide)).trans (W5_v52 m ρ c)
theorem W6_v54 : W6 m ρ c (Proc.devRef .tc main_v54) = Cert.Spec.bg1 (F := Ideal) a7 :=
  (Gen.W6_of_ne m ρ c main_v54 (by decide)).trans (W5_v54 m ρ c)
theorem W7_v74 (h : RegionValues) : W7 m ρ c (Proc.devRef .tc main_v74) = Cert.Spec.segSum (F := Ideal) DST (Cert.Spec.msgK (F := Ideal) (Cert.Spec.gatherRows (F := Ideal) (X1 m ρ c) SRC) (Cert.Spec.gatherRows (F := Ideal) (X1 m ρ c) DST) (Cert.Spec.wm1 (F := Ideal) a2) (rk128 (Cert.Spec.bm1 (F := Ideal) a3))) :=
  (h3_v74 _).trans (segSum_congr (W6_v3' m ρ c) (W6_v71 m ρ c h))
theorem W7_v42 (h : RegionValues) : W7 m ρ c (Proc.devRef .tc main_v42) = (X1 m ρ c) := by
  refine (W7_keep m ρ c _ (by decide)).trans ?_
  refine (Gen.W6_of_ne m ρ c _ (by decide)).trans ?_
  refine (W5_keep m ρ c _ (by decide)).trans ?_
  exact W4_v42 m ρ c h
theorem W7_v75 : W7 m ρ c (Proc.devRef .tc main_v75) = Cert.Spec.wih1 (F := Ideal) a4 :=
  (h3_v75 _).trans (congrArg trI (W6_v48 m ρ c))
theorem W7_v76 : W7 m ρ c (Proc.devRef .tc main_v76) = Cert.Spec.whh1 (F := Ideal) a5 :=
  (h3_v76 _).trans (congrArg trH (W6_v50 m ρ c))
theorem W7_v77 : W7 m ρ c (Proc.devRef .tc main_v77) = rk192 (Cert.Spec.bg1 (F := Ideal) a6) :=
  (h3_v77 _).trans (congrArg rk192 (W6_v52 m ρ c))
theorem W7_v78 : W7 m ρ c (Proc.devRef .tc main_v78) = rk192 (Cert.Spec.bg1 (F := Ideal) a7) :=
  (h3_v78 _).trans (congrArg rk192 (W6_v54 m ρ c))
/-- The states after layer F1: what region 3 leaves. -/
theorem W8_v79 (h : RegionValues) : W8 m ρ c (Proc.devRef .tc main_v79) = X2 m ρ c :=
  (Gen.W8_arr m ρ c 6).trans ((h.gru3 (V7 m ρ) c).trans
    (gruK_congr (W7_v74 m ρ c h) (W7_v42 m ρ c h) (W7_v75 m ρ c) (W7_v76 m ρ c) (W7_v77 m ρ c) (W7_v78 m ρ c)))

/-! ## Layer B0: stretch 4, region 4 (the messages), stretch 5, region 5 (the GRU) -/

theorem W8_a8 : W8 m ρ c (Proc.devRef .tc main_arg8) = a8 := by
  refine (Gen.W8_of_ne m ρ c _ (by decide)).trans ?_
  refine (W7_keep m ρ c _ (by decide)).trans ?_
  refine (Gen.W6_of_ne m ρ c _ (by decide)).trans ?_
  refine (W5_keep m ρ c _ (by decide)).trans ?_
  refine (Gen.W4_of_ne m ρ c _ (by decide)).trans ?_
  refine (W3_keep m ρ c _ (by decide)).trans ?_
  refine (Gen.W2_of_ne m ρ c _ (by decide)).trans ?_
  refine (W1_keep m ρ c _ (by decide)).trans ?_
  rfl
theorem W8_a9 : W8 m ρ c (Proc.devRef .tc main_arg9) = a9 := by
  refine (Gen.W8_of_ne m ρ c _ (by decide)).trans ?_
  refine (W7_keep m ρ c _ (by decide)).trans ?_
  refine (Gen.W6_of_ne m ρ c _ (by decide)).trans ?_
  refine (W5_keep m ρ c _ (by decide)).trans ?_
  refine (Gen.W4_of_ne m ρ c _ (by decide)).trans ?_
  refine (W3_keep m ρ c _ (by decide)).trans ?_
  refine (Gen.W2_of_ne m ρ c _ (by decide)).trans ?_
  refine (W1_keep m ρ c _ (by decide)).trans ?_
  rfl
theorem W8_a10 : W8 m ρ c (Proc.devRef .tc main_arg10) = a10 := by
  refine (Gen.W8_of_ne m ρ c _ (by decide)).trans ?_
  refine (W7_keep m ρ c _ (by decide)).trans ?_
  refine (Gen.W6_of_ne m ρ c _ (by decide)).trans ?_
  refine (W5_keep m ρ c _ (by decide)).trans ?_
  refine (Gen.W4_of_ne m ρ c _ (by decide)).trans ?_
  refine (W3_keep m ρ c _ (by decide)).trans ?_
  refine (Gen.W2_of_ne m ρ c _ (by decide)).trans ?_
  refine (W1_keep m ρ c _ (by decide)).trans ?_
  rfl
theorem W8_a11 : W8 m ρ c (Proc.devRef .tc main_arg11) = a11 := by
  refine (Gen.W8_of_ne m ρ c _ (by decide)).trans ?_
  refine (W7_keep m ρ c _ (by decide)).trans ?_
  refine (Gen.W6_of_ne m ρ c _ (by decide)).trans ?_
  refine (W5_keep m ρ c _ (by decide)).trans ?_
  refine (Gen.W4_of_ne m ρ c _ (by decide)).trans ?_
  refine (W3_keep m ρ c _ (by decide)).trans ?_
  refine (Gen.W2_of_ne m ρ c _ (by decide)).trans ?_
  refine (W1_keep m ρ c _ (by decide)).trans ?_
  rfl
theorem W8_a12 : W8 m ρ c (Proc.devRef .tc main_arg12) = a12 := by
  refine (Gen.W8_of_ne m ρ c _ (by decide)).trans ?_
  refine (W7_keep m ρ c _ (by decide)).trans ?_
  refine (Gen.W6_of_ne m ρ c _ (by decide)).trans ?_
  refine (W5_keep m ρ c _ (by decide)).trans ?_
  refine (Gen.W4_of_ne m ρ c _ (by decide)).trans ?_
  refine (W3_keep m ρ c _ (by decide)).trans ?_
  refine (Gen.W2_of_ne m ρ c _ (by decide)).trans ?_
  refine (W1_keep m ρ c _ (by decide)).trans ?_
  rfl
theorem W8_a13 : W8 m ρ c (Proc.devRef .tc main_arg13) = a13 := by
  refine (Gen.W8_of_ne m ρ c _ (by decide)).trans ?_
  refine (W7_keep m ρ c _ (by decide)).trans ?_
  refine (Gen.W6_of_ne m ρ c _ (by decide)).trans ?_
  refine (W5_keep m ρ c _ (by decide)).trans ?_
  refine (Gen.W4_of_ne m ρ c _ (by decide)).trans ?_
  refine (W3_keep m ρ c _ (by decide)).trans ?_
  refine (Gen.W2_of_ne m ρ c _ (by decide)).trans ?_
  refine (W1_keep m ρ c _ (by decide)).trans ?_
  rfl
theorem W8_v1 : W8 m ρ c (Proc.devRef .tc main_v1) = SRC := by
  refine (Gen.W8_of_ne m ρ c _ (by decide)).trans ?_
  refine (W7_keep m ρ c _ (by decide)).trans ?_
  refine (Gen.W6_of_ne m ρ c _ (by decide)).trans ?_
  refine (W5_keep m ρ c _ (by decide)).trans ?_
  refine (Gen.W4_of_ne m ρ c _ (by decide)).trans ?_
  refine (W3_keep m ρ c _ (by decide)).trans ?_
  refine (Gen.W2_of_ne m ρ c _ (by decide)).trans ?_
  exact h0_v1 _
theorem W8_v3 : W8 m ρ c (Proc.devRef .tc main_v3) = DST := by
  refine (Gen.W8_of_ne m ρ c _ (by decide)).trans ?_
  refine (W7_keep m ρ c _ (by decide)).trans ?_
  refine (Gen.W6_of_ne m ρ c _ (by decide)).trans ?_
  refine (W5_keep m ρ c _ (by decide)).trans ?_
  refine (Gen.W4_of_ne m ρ c _ (by decide)).trans ?_
  refine (W3_keep m ρ c _ (by decide)).trans ?_
  refine (Gen.W2_of_ne m ρ c _ (by decide)).trans ?_
  exact h0_v3 _
theorem W8_v5 : W8 m ρ c (Proc.devRef .tc main_v5) = HB := by
  refine (Gen.W8_of_ne m ρ c _ (by decide)).trans ?_
  refine (W7_keep m ρ c _ (by decide)).trans ?_
  refine (Gen.W6_of_ne m ρ c _ (by decide)).trans ?_
  refine (W5_keep m ρ c _ (by decide)).trans ?_
  refine (Gen.W4_of_ne m ρ c _ (by decide)).trans ?_
  refine (W3_keep m ρ c _ (by decide)).trans ?_
  refine (Gen.W2_of_ne m ρ c _ (by decide)).trans ?_
  exact h0_v5 _
theorem W9_v98 : W9 m ρ c (Proc.devRef .tc main_v98) = Cert.Spec.gatherRows (F := Ideal) HB DST :=
  (h4_v98 _).trans (gatherRows_congr (W8_v5 m ρ c) (W8_v3 m ρ c))
theorem W9_v105 : W9 m ρ c (Proc.devRef .tc main_v105) = Cert.Spec.gatherRows (F := Ideal) HB SRC :=
  (h4_v105 _).trans (gatherRows_congr (W8_v5 m ρ c) (W8_v1 m ρ c))
theorem W9_v106 : W9 m ρ c (Proc.devRef .tc main_v106) = Cert.Spec.wm0 (F := Ideal) a8 :=
  (h4_v106 _).trans (congrArg (Cert.Spec.wm0 (F := Ideal)) (W8_a8 m ρ c))
theorem W9_v107 : W9 m ρ c (Proc.devRef .tc main_v107) = rk128 (Cert.Spec.bm0 (F := Ideal) a9) :=
  (h4_v107 _).trans (congrArg (fun x => rk128 (Cert.Spec.bm0 (F := Ideal) x)) (W8_a9 m ρ c))
theorem W9_v85 : W9 m ρ c (Proc.devRef .tc main_v85) = (wihR0 a10) :=
  (h4_v85 _).trans (congrArg wihR0 (W8_a10 m ρ c))
theorem W9_v87 : W9 m ρ c (Proc.devRef .tc main_v87) = (whhR0 a11) :=
  (h4_v87 _).trans (congrArg whhR0 (W8_a11 m ρ c))
theorem W9_v89 : W9 m ρ c (Proc.devRef .tc main_v89) = Cert.Spec.bg0 (F := Ideal) a12 :=
  (h4_v89 _).trans (congrArg (Cert.Spec.bg0 (F := Ideal)) (W8_a12 m ρ c))
theorem W9_v91 : W9 m ρ c (Proc.devRef .tc main_v91) = Cert.Spec.bg0 (F := Ideal) a13 :=
  (h4_v91 _).trans (congrArg (Cert.Spec.bg0 (F := Ideal)) (W8_a13 m ρ c))
/-- The messages of layer B0: what region 4 leaves. -/
theorem W10_v108 (h : RegionValues) : W10 m ρ c (Proc.devRef .tc main_v108) = Cert.Spec.msgK (F := Ideal) (Cert.Spec.gatherRows (F := Ideal) HB DST) (Cert.Spec.gatherRows (F := Ideal) HB SRC) (Cert.Spec.wm0 (F := Ideal) a8) (rk128 (Cert.Spec.bm0 (F := Ideal) a9)) :=
  (Gen.W10_arr m ρ c 4).trans ((h.msg4 (V9 m ρ) c).trans
    (msgK_congr (W9_v98 m ρ c) (W9_v105 m ρ c) (W9_v106 m ρ c) (W9_v107 m ρ c)))
theorem W10_v1' : W10 m ρ c (Proc.devRef .tc main_v1) = SRC := by
  refine (Gen.W10_of_ne m ρ c _ (by decide)).trans ?_
  refine (W9_keep m ρ c _ (by decide)).trans ?_
  refine (Gen.W8_of_ne m ρ c _ (by decide)).trans ?_
  refine (W7_keep m ρ c _ (by decide)).trans ?_
  refine (Gen.W6_of_ne m ρ c _ (by decide)).trans ?_
  refine (W5_keep m ρ c _ (by decide)).trans ?_
  refine (Gen.W4_of_ne m ρ c _ (by decide)).trans ?_
  refine (W3_keep m ρ c _ (by decide)).trans ?_
  refine (Gen.W2_of_ne m ρ c _ (by decide)).trans ?_
  exact h0_v1 _
theorem W10_v85 : W10 m ρ c (Proc.devRef .tc main_v85) = (wihR0 a10) :=
  (Gen.W10_of_ne m ρ c main_v85 (by decide)).trans (W9_v85 m ρ c)
theorem W10_v87 : W10 m ρ c (Proc.devRef .tc main_v87) = (whhR0 a11) :=
  (Gen.W10_of_ne m ρ c main_v87 (by decide)).trans (W9_v87 m ρ c)
theorem W10_v89 : W10 m ρ c (Proc.devRef .tc main_v89) = Cert.Spec.bg0 (F := Ideal) a12 :=
  (Gen.W10_of_ne m ρ c main_v89 (by decide)).trans (W9_v89 m ρ c)
theorem W10_v91 : W10 m ρ c (Proc.devRef .tc main_v91) = Cert.Spec.bg0 (F := Ideal) a13 :=
  (Gen.W10_of_ne m ρ c main_v91 (by decide)).trans (W9_v91 m ρ c)
theorem W11_v111 (h : RegionValues) : W11 m ρ c (Proc.devRef .tc main_v111) = Cert.Spec.segSum (F := Ideal) SRC (Cert.Spec.msgK (F := Ideal) (Cert.Spec.gatherRows (F := Ideal) HB DST) (Cert.Spec.gatherRows (F := Ideal) HB SRC) (Cert.Spec.wm0 (F := Ideal) a8) (rk128 (Cert.Spec.bm0 (F := Ideal) a9))) :=
  (h5_v111 _).trans (segSum_congr (W10_v1' m ρ c) (W10_v108 m ρ c h))
theorem W11_v5 : W11 m ρ c (Proc.devRef .tc main_v5) = HB := by
  refine (W11_keep m ρ c _ (by decide)).trans ?_
  refine (Gen.W10_of_ne m ρ c _ (by decide)).trans ?_
  refine (W9_keep m ρ c _ (by decide)).trans ?_
  refine (Gen.W8_of_ne m ρ c _ (by decide)).trans ?_
  refine (W7_keep m ρ c _ (by decide)).trans ?_
  refine (Gen.W6_of_ne m ρ c _ (by decide)).trans ?_
  refine (W5_keep m ρ c _ (by decide)).trans ?_
  refine (Gen.W4_of_ne m ρ c _ (by decide)).trans ?_
  refine (W3_keep m ρ c _ (by decide)).trans ?_
  refine (Gen.W2_of_ne m ρ c _ (by decide)).trans ?_
  exact h0_v5 _
theorem W11_v112 : W11 m ρ c (Proc.devRef .tc main_v112) = Cert.Spec.wih0 (F := Ideal) a10 :=
  (h5_v112 _).trans (congrArg trI (W10_v85 m ρ c))
theorem W11_v113 : W11 m ρ c (Proc.devRef .tc main_v113) = Cert.Spec.whh0 (F := Ideal) a11 :=
  (h5_v113 _).trans (congrArg trH (W10_v87 m ρ c))
theorem W11_v114 : W11 m ρ c (Proc.devRef .tc main_v114) = rk192 (Cert.Spec.bg0 (F := Ideal) a12) :=
  (h5_v114 _).trans (congrArg rk192 (W10_v89 m ρ c))
theorem W11_v115 : W11 m ρ c (Proc.devRef .tc main_v115) = rk192 (Cert.Spec.bg0 (F := Ideal) a13) :=
  (h5_v115 _).trans (congrArg rk192 (W10_v91 m ρ c))
/-- The states after layer B0: what region 5 leaves. -/
theorem W12_v116 (h : RegionValues) : W12 m ρ c (Proc.devRef .tc main_v116) = Y1 m ρ c :=
  (Gen.W12_arr m ρ c 6).trans ((h.gru5 (V11 m ρ) c).trans
    (gruK_congr (W11_v111 m ρ c h) (W11_v5 m ρ c) (W11_v112 m ρ c) (W11_v113 m ρ c) (W11_v114 m ρ c) (W11_v115 m ρ c)))

/-! ## Layer B1: stretch 6, region 6 (the messages), stretch 7, region 7 (the GRU) -/

theorem W12_a8 : W12 m ρ c (Proc.devRef .tc main_arg8) = a8 := by
  refine (Gen.W12_of_ne m ρ c _ (by decide)).trans ?_
  refine (W11_keep m ρ c _ (by decide)).trans ?_
  refine (Gen.W10_of_ne m ρ c _ (by decide)).trans ?_
  refine (W9_keep m ρ c _ (by decide)).trans ?_
  refine (Gen.W8_of_ne m ρ c _ (by decide)).trans ?_
  refine (W7_keep m ρ c _ (by decide)).trans ?_
  refine (Gen.W6_of_ne m ρ c _ (by decide)).trans ?_
  refine (W5_keep m ρ c _ (by decide)).trans ?_
  refine (Gen.W4_of_ne m ρ c _ (by decide)).trans ?_
  refine (W3_keep m ρ c _ (by decide)).trans ?_
  refine (Gen.W2_of_ne m ρ c _ (by decide)).trans ?_
  refine (W1_keep m ρ c _ (by decide)).trans ?_
  rfl
theorem W12_a9 : W12 m ρ c (Proc.devRef .tc main_arg9) = a9 := by
  refine (Gen.W12_of_ne m ρ c _ (by decide)).trans ?_
  refine (W11_keep m ρ c _ (by decide)).trans ?_
  refine (Gen.W10_of_ne m ρ c _ (by decide)).trans ?_
  refine (W9_keep m ρ c _ (by decide)).trans ?_
  refine (Gen.W8_of_ne m ρ c _ (by decide)).trans ?_
  refine (W7_keep m ρ c _ (by decide)).trans ?_
  refine (Gen.W6_of_ne m ρ c _ (by decide)).trans ?_
  refine (W5_keep m ρ c _ (by decide)).trans ?_
  refine (Gen.W4_of_ne m ρ c _ (by decide)).trans ?_
  refine (W3_keep m ρ c _ (by decide)).trans ?_
  refine (Gen.W2_of_ne m ρ c _ (by decide)).trans ?_
  refine (W1_keep m ρ c _ (by decide)).trans ?_
  rfl
theorem W12_a10 : W12 m ρ c (Proc.devRef .tc main_arg10) = a10 := by
  refine (Gen.W12_of_ne m ρ c _ (by decide)).trans ?_
  refine (W11_keep m ρ c _ (by decide)).trans ?_
  refine (Gen.W10_of_ne m ρ c _ (by decide)).trans ?_
  refine (W9_keep m ρ c _ (by decide)).trans ?_
  refine (Gen.W8_of_ne m ρ c _ (by decide)).trans ?_
  refine (W7_keep m ρ c _ (by decide)).trans ?_
  refine (Gen.W6_of_ne m ρ c _ (by decide)).trans ?_
  refine (W5_keep m ρ c _ (by decide)).trans ?_
  refine (Gen.W4_of_ne m ρ c _ (by decide)).trans ?_
  refine (W3_keep m ρ c _ (by decide)).trans ?_
  refine (Gen.W2_of_ne m ρ c _ (by decide)).trans ?_
  refine (W1_keep m ρ c _ (by decide)).trans ?_
  rfl
theorem W12_a11 : W12 m ρ c (Proc.devRef .tc main_arg11) = a11 := by
  refine (Gen.W12_of_ne m ρ c _ (by decide)).trans ?_
  refine (W11_keep m ρ c _ (by decide)).trans ?_
  refine (Gen.W10_of_ne m ρ c _ (by decide)).trans ?_
  refine (W9_keep m ρ c _ (by decide)).trans ?_
  refine (Gen.W8_of_ne m ρ c _ (by decide)).trans ?_
  refine (W7_keep m ρ c _ (by decide)).trans ?_
  refine (Gen.W6_of_ne m ρ c _ (by decide)).trans ?_
  refine (W5_keep m ρ c _ (by decide)).trans ?_
  refine (Gen.W4_of_ne m ρ c _ (by decide)).trans ?_
  refine (W3_keep m ρ c _ (by decide)).trans ?_
  refine (Gen.W2_of_ne m ρ c _ (by decide)).trans ?_
  refine (W1_keep m ρ c _ (by decide)).trans ?_
  rfl
theorem W12_a12 : W12 m ρ c (Proc.devRef .tc main_arg12) = a12 := by
  refine (Gen.W12_of_ne m ρ c _ (by decide)).trans ?_
  refine (W11_keep m ρ c _ (by decide)).trans ?_
  refine (Gen.W10_of_ne m ρ c _ (by decide)).trans ?_
  refine (W9_keep m ρ c _ (by decide)).trans ?_
  refine (Gen.W8_of_ne m ρ c _ (by decide)).trans ?_
  refine (W7_keep m ρ c _ (by decide)).trans ?_
  refine (Gen.W6_of_ne m ρ c _ (by decide)).trans ?_
  refine (W5_keep m ρ c _ (by decide)).trans ?_
  refine (Gen.W4_of_ne m ρ c _ (by decide)).trans ?_
  refine (W3_keep m ρ c _ (by decide)).trans ?_
  refine (Gen.W2_of_ne m ρ c _ (by decide)).trans ?_
  refine (W1_keep m ρ c _ (by decide)).trans ?_
  rfl
theorem W12_a13 : W12 m ρ c (Proc.devRef .tc main_arg13) = a13 := by
  refine (Gen.W12_of_ne m ρ c _ (by decide)).trans ?_
  refine (W11_keep m ρ c _ (by decide)).trans ?_
  refine (Gen.W10_of_ne m ρ c _ (by decide)).trans ?_
  refine (W9_keep m ρ c _ (by decide)).trans ?_
  refine (Gen.W8_of_ne m ρ c _ (by decide)).trans ?_
  refine (W7_keep m ρ c _ (by decide)).trans ?_
  refine (Gen.W6_of_ne m ρ c _ (by decide)).trans ?_
  refine (W5_keep m ρ c _ (by decide)).trans ?_
  refine (Gen.W4_of_ne m ρ c _ (by decide)).trans ?_
  refine (W3_keep m ρ c _ (by decide)).trans ?_
  refine (Gen.W2_of_ne m ρ c _ (by decide)).trans ?_
  refine (W1_keep m ρ c _ (by decide)).trans ?_
  rfl
theorem W12_v1 : W12 m ρ c (Proc.devRef .tc main_v1) = SRC := by
  refine (Gen.W12_of_ne m ρ c _ (by decide)).trans ?_
  refine (W11_keep m ρ c _ (by decide)).trans ?_
  refine (Gen.W10_of_ne m ρ c _ (by decide)).trans ?_
  refine (W9_keep m ρ c _ (by decide)).trans ?_
  refine (Gen.W8_of_ne m ρ c _ (by decide)).trans ?_
  refine (W7_keep m ρ c _ (by decide)).trans ?_
  refine (Gen.W6_of_ne m ρ c _ (by decide)).trans ?_
  refine (W5_keep m ρ c _ (by decide)).trans ?_
  refine (Gen.W4_of_ne m ρ c _ (by decide)).trans ?_
  refine (W3_keep m ρ c _ (by decide)).trans ?_
  refine (Gen.W2_of_ne m ρ c _ (by decide)).trans ?_
  exact h0_v1 _
theorem W12_v3 : W12 m ρ c (Proc.devRef .tc main_v3) = DST := by
  refine (Gen.W12_of_ne m ρ c _ (by decide)).trans ?_
  refine (W11_keep m ρ c _ (by decide)).trans ?_
  refine (Gen.W10_of_ne m ρ c _ (by decide)).trans ?_
  refine (W9_keep m ρ c _ (by decide)).trans ?_
  refine (Gen.W8_of_ne m ρ c _ (by decide)).trans ?_
  refine (W7_keep m ρ c _ (by decide)).trans ?_
  refine (Gen.W6_of_ne m ρ c _ (by decide)).trans ?_
  refine (W5_keep m ρ c _ (by decide)).trans ?_
  refine (Gen.W4_of_ne m ρ c _ (by decide)).trans ?_
  refine (W3_keep m ρ c _ (by decide)).trans ?_
  refine (Gen.W2_of_ne m ρ c _ (by decide)).trans ?_
  exact h0_v3 _
theorem W13_v135 (h : RegionValues) : W13 m ρ c (Proc.devRef .tc main_v135) = Cert.Spec.gatherRows (F := Ideal) (Y1 m ρ c) DST :=
  (h6_v135 _).trans (gatherRows_congr (W12_v116 m ρ c h) (W12_v3 m ρ c))
theorem W13_v142 (h : RegionValues) : W13 m ρ c (Proc.devRef .tc main_v142) = Cert.Spec.gatherRows (F := Ideal) (Y1 m ρ c) SRC :=
  (h6_v142 _).trans (gatherRows_congr (W12_v116 m ρ c h) (W12_v1 m ρ c))
theorem W13_v143 : W13 m ρ c (Proc.devRef .tc main_v143) = Cert.Spec.wm1 (F := Ideal) a8 :=
  (h6_v143 _).trans (congrArg (Cert.Spec.wm1 (F := Ideal)) (W12_a8 m ρ c))
theorem W13_v144 : W13 m ρ c (Proc.devRef .tc main_v144) = rk128 (Cert.Spec.bm1 (F := Ideal) a9) :=
  (h6_v144 _).trans (congrArg (fun x => rk128 (Cert.Spec.bm1 (F := Ideal) x)) (W12_a9 m ρ c))
theorem W13_v122 : W13 m ρ c (Proc.devRef .tc main_v122) = (wihR1 a10) :=
  (h6_v122 _).trans (congrArg wihR1 (W12_a10 m ρ c))
theorem W13_v124 : W13 m ρ c (Proc.devRef .tc main_v124) = (whhR1 a11) :=
  (h6_v124 _).trans (congrArg whhR1 (W12_a11 m ρ c))
theorem W13_v126 : W13 m ρ c (Proc.devRef .tc main_v126) = Cert.Spec.bg1 (F := Ideal) a12 :=
  (h6_v126 _).trans (congrArg (Cert.Spec.bg1 (F := Ideal)) (W12_a12 m ρ c))
theorem W13_v128 : W13 m ρ c (Proc.devRef .tc main_v128) = Cert.Spec.bg1 (F := Ideal) a13 :=
  (h6_v128 _).trans (congrArg (Cert.Spec.bg1 (F := Ideal)) (W12_a13 m ρ c))
/-- The messages of layer B1: what region 6 leaves. -/
theorem W14_v145 (h : RegionValues) : W14 m ρ c (Proc.devRef .tc main_v145) = Cert.Spec.msgK (F := Ideal) (Cert.Spec.gatherRows (F := Ideal) (Y1 m ρ c) DST) (Cert.Spec.gatherRows (F := Ideal) (Y1 m ρ c) SRC) (Cert.Spec.wm1 (F := Ideal) a8) (rk128 (Cert.Spec.bm1 (F := Ideal) a9)) :=
  (Gen.W14_arr m ρ c 4).trans ((h.msg6 (V13 m ρ) c).trans
    (msgK_congr (W13_v135 m ρ c h) (W13_v142 m ρ c h) (W13_v143 m ρ c) (W13_v144 m ρ c)))
theorem W14_v1' : W14 m ρ c (Proc.devRef .tc main_v1) = SRC := by
  refine (Gen.W14_of_ne m ρ c _ (by decide)).trans ?_
  refine (W13_keep m ρ c _ (by decide)).trans ?_
  refine (Gen.W12_of_ne m ρ c _ (by decide)).trans ?_
  refine (W11_keep m ρ c _ (by decide)).trans ?_
  refine (Gen.W10_of_ne m ρ c _ (by decide)).trans ?_
  refine (W9_keep m ρ c _ (by decide)).trans ?_
  refine (Gen.W8_of_ne m ρ c _ (by decide)).trans ?_
  refine (W7_keep m ρ c _ (by decide)).trans ?_
  refine (Gen.W6_of_ne m ρ c _ (by decide)).trans ?_
  refine (W5_keep m ρ c _ (by decide)).trans ?_
  refine (Gen.W4_of_ne m ρ c _ (by decide)).trans ?_
  refine (W3_keep m ρ c _ (by decide)).trans ?_
  refine (Gen.W2_of_ne m ρ c _ (by decide)).trans ?_
  exact h0_v1 _
theorem W14_v122 : W14 m ρ c (Proc.devRef .tc main_v122) = (wihR1 a10) :=
  (Gen.W14_of_ne m ρ c main_v122 (by decide)).trans (W13_v122 m ρ c)
theorem W14_v124 : W14 m ρ c (Proc.devRef .tc main_v124) = (whhR1 a11) :=
  (Gen.W14_of_ne m ρ c main_v124 (by decide)).trans (W13_v124 m ρ c)
theorem W14_v126 : W14 m ρ c (Proc.devRef .tc main_v126) = Cert.Spec.bg1 (F := Ideal) a12 :=
  (Gen.W14_of_ne m ρ c main_v126 (by decide)).trans (W13_v126 m ρ c)
theorem W14_v128 : W14 m ρ c (Proc.devRef .tc main_v128) = Cert.Spec.bg1 (F := Ideal) a13 :=
  (Gen.W14_of_ne m ρ c main_v128 (by decide)).trans (W13_v128 m ρ c)
theorem W15_v148 (h : RegionValues) : W15 m ρ c (Proc.devRef .tc main_v148) = Cert.Spec.segSum (F := Ideal) SRC (Cert.Spec.msgK (F := Ideal) (Cert.Spec.gatherRows (F := Ideal) (Y1 m ρ c) DST) (Cert.Spec.gatherRows (F := Ideal) (Y1 m ρ c) SRC) (Cert.Spec.wm1 (F := Ideal) a8) (rk128 (Cert.Spec.bm1 (F := Ideal) a9))) :=
  (h7_v148 _).trans (segSum_congr (W14_v1' m ρ c) (W14_v145 m ρ c h))
theorem W15_v116 (h : RegionValues) : W15 m ρ c (Proc.devRef .tc main_v116) = (Y1 m ρ c) := by
  refine (W15_keep m ρ c _ (by decide)).trans ?_
  refine (Gen.W14_of_ne m ρ c _ (by decide)).trans ?_
  refine (W13_keep m ρ c _ (by decide)).trans ?_
  exact W12_v116 m ρ c h
theorem W15_v149 : W15 m ρ c (Proc.devRef .tc main_v149) = Cert.Spec.wih1 (F := Ideal) a10 :=
  (h7_v149 _).trans (congrArg trI (W14_v122 m ρ c))
theorem W15_v150 : W15 m ρ c (Proc.devRef .tc main_v150) = Cert.Spec.whh1 (F := Ideal) a11 :=
  (h7_v150 _).trans (congrArg trH (W14_v124 m ρ c))
theorem W15_v151 : W15 m ρ c (Proc.devRef .tc main_v151) = rk192 (Cert.Spec.bg1 (F := Ideal) a12) :=
  (h7_v151 _).trans (congrArg rk192 (W14_v126 m ρ c))
theorem W15_v152 : W15 m ρ c (Proc.devRef .tc main_v152) = rk192 (Cert.Spec.bg1 (F := Ideal) a13) :=
  (h7_v152 _).trans (congrArg rk192 (W14_v128 m ρ c))
/-- The states after layer B1: what region 7 leaves. -/
theorem W16_v153 (h : RegionValues) : W16 m ρ c (Proc.devRef .tc main_v153) = Y2 m ρ c :=
  (Gen.W16_arr m ρ c 6).trans ((h.gru7 (V15 m ρ) c).trans
    (gruK_congr (W15_v148 m ρ c h) (W15_v116 m ρ c h) (W15_v149 m ρ c) (W15_v150 m ρ c) (W15_v151 m ρ c) (W15_v152 m ρ c)))

/-! ## The last stretch -/

theorem W16_v79 (h : RegionValues) : W16 m ρ c (Proc.devRef .tc main_v79) = X2 m ρ c := by
  refine (Gen.W16_of_ne m ρ c _ (by decide)).trans ?_
  refine (W15_keep m ρ c _ (by decide)).trans ?_
  refine (Gen.W14_of_ne m ρ c _ (by decide)).trans ?_
  refine (W13_keep m ρ c _ (by decide)).trans ?_
  refine (Gen.W12_of_ne m ρ c _ (by decide)).trans ?_
  refine (W11_keep m ρ c _ (by decide)).trans ?_
  refine (Gen.W10_of_ne m ρ c _ (by decide)).trans ?_
  refine (W9_keep m ρ c _ (by decide)).trans ?_
  exact W8_v79 m ρ c h

/-- Two layers of the forward direction. -/
theorem X2_eq : X2 m ρ c = Cert.Spec.twoLayers (F := Ideal) rk128 rk192 HF SRC DST DST a2 a3 a4 a5 a6 a7 := rfl
/-- Two layers of the backward direction. -/
theorem Y2_eq : Y2 m ρ c = Cert.Spec.twoLayers (F := Ideal) rk128 rk192 HB DST SRC SRC a8 a9 a10 a11 a12 a13 := rfl

/-- The network is its two directions side by side. -/
theorem net_sideBySide (row128 : FVec Ideal S128 .f32 → FVec Ideal S1x128 .f32) (row192 : FVec Ideal S192 .f32 → FVec Ideal S1x192 .f32)
    (h : FVec Ideal S50000x128 .f32) (ei : IVec S2x800000 32)
    (b2 : FVec Ideal S2x128x128 .f32) (b3 : FVec Ideal S2x128 .f32) (b4 : FVec Ideal S2x192x128 .f32) (b5 : FVec Ideal S2x192x64 .f32) (b6 b7 : FVec Ideal S2x192 .f32)
    (b8 : FVec Ideal S2x128x128 .f32) (b9 : FVec Ideal S2x128 .f32) (b10 : FVec Ideal S2x192x128 .f32) (b11 : FVec Ideal S2x192x64 .f32) (b12 b13 : FVec Ideal S2x192 .f32) :
    concatenate S50000x128 1
      [⟨S50000x64, Cert.Spec.twoLayers (F := Ideal) row128 row192 (Cert.Spec.hfwd h) (Cert.Spec.src ei) (Cert.Spec.dst ei) (Cert.Spec.dst ei) b2 b3 b4 b5 b6 b7⟩,
       ⟨S50000x64, Cert.Spec.twoLayers (F := Ideal) row128 row192 (Cert.Spec.hbwd h) (Cert.Spec.dst ei) (Cert.Spec.src ei) (Cert.Spec.src ei) b8 b9 b10 b11 b12 b13⟩]
      concatenates_S50000x64_S50000x64_S50000x128_d1
      = Cert.Spec.net (F := Ideal) row128 row192 h ei b2 b3 b4 b5 b6 b7 b8 b9 b10 b11 b12 b13 := rfl

/-- The result buffer at the end of @main: the network of the launch contents of the arguments. -/
theorem result (h : RegionValues) :
    W17 m ρ c (Proc.devRef .tc main_v154) = Cert.Spec.net (F := Ideal) rk128 rk192 a0 a1 a2 a3 a4 a5 a6 a7 a8 a9 a10 a11 a12 a13 :=
  ((h8_v154 _).trans (sideBySide_congr ((W16_v79 m ρ c h).trans (X2_eq m ρ c)) ((W16_v153 m ρ c h).trans (Y2_eq m ρ c)))).trans
    (net_sideBySide rk128 rk192 a0 a1 a2 a3 a4 a5 a6 a7 a8 a9 a10 a11 a12 a13)

end Cert.KernelIdeal.Chain

end
-- ==== Proof.RefNet.lean ====
/-
  The reference program's result is the network.

  The reference's host operations, composed, give its result as one term over the fourteen argument
  arrays; the generated run names the intermediate values at the layer boundaries.  Here each named value
  is identified with the corresponding stage of the network (Spec, SpecNet): the two halves of the node
  states, the two rows of the edge list, each layer's two pre-activations and its new state.  Every
  equation holds by unfolding the definitions on both sides: the network was written with the reference's
  own operations, operation for operation.  The layers are taken one at a time, each over the NAMES of the
  earlier values, and the names are then replaced by the stages they equal.
-/
import proofs.«129615_j25563645346107_1_alg».proof.Proof.Gen.ReferenceIdeal.Run
import proofs.«129615_j25563645346107_1_alg».proof.Proof.SpecNet

noncomputable section

namespace Cert.ReferenceIdeal.RefValue

open Cert.ReferenceIdeal Cert.Spec Idealize.ShloMosaic Idealize.ShloMosaic.TcCoe Idealize.SL.Sem Idealize.ShloMosaic.StableHlo

variable {F : FTy → Type} [FloatOps F] [Cert.ReferenceIdeal.Facts]

/-! ## The inputs of the two directions -/

/-- The first named value is the source row of the edge list. -/
theorem res_v1_eq (V0 : Valuation τ sig (Elt F)) : Value.res_main_v1 V0 = src (V0 (Proc.devRef .tc main_arg1)) := rfl
/-- The second is the target row. -/
theorem res_v3_eq (V0 : Valuation τ sig (Elt F)) : Value.res_main_v3 V0 = dst (V0 (Proc.devRef .tc main_arg1)) := rfl
/-- The forward half of the node states. -/
theorem res_v4_eq (V0 : Valuation τ sig (Elt F)) : Value.res_main_v4 V0 = hfwd (V0 (Proc.devRef .tc main_arg0)) := rfl
/-- The backward half of the node states. -/
theorem res_v5_eq (V0 : Valuation τ sig (Elt F)) : Value.res_main_v5 V0 = hbwd (V0 (Proc.devRef .tc main_arg0)) := rfl

/-! ## The forward direction's first layer -/

/-- The input pre-activation of this layer, over the named earlier values. -/
theorem fwd0_gi (V0 : Valuation τ sig (Elt F)) :
    Value.res_main_v45 V0 = preI (segSum (Value.res_main_v3 V0) (msgK (gatherRows (Value.res_main_v4 V0) (Value.res_main_v1 V0)) (gatherRows (Value.res_main_v4 V0) (Value.res_main_v3 V0)) (wm0 (V0 (Proc.devRef .tc main_arg2))) (rowB128 (bm0 (V0 (Proc.devRef .tc main_arg3)))))) (wih0 (V0 (Proc.devRef .tc main_arg4))) (rowB192 (bg0 (V0 (Proc.devRef .tc main_arg6)))) := rfl

/-- The hidden pre-activation of this layer, over the named earlier values. -/
theorem fwd0_gh (V0 : Valuation τ sig (Elt F)) :
    Value.res_main_v50 V0 = preH (Value.res_main_v4 V0) (whh0 (V0 (Proc.devRef .tc main_arg5))) (rowB192 (bg0 (V0 (Proc.devRef .tc main_arg7)))) := rfl

/-- The layer's new state from its two pre-activations and its old state is the layer function. -/
theorem fwd0_layer (V0 : Valuation τ sig (Elt F)) :
    gates (Value.res_main_v45 V0) (Value.res_main_v50 V0) (Value.res_main_v4 V0) = layerK (Value.res_main_v4 V0) (Value.res_main_v1 V0) (Value.res_main_v3 V0) (Value.res_main_v3 V0) (wm0 (V0 (Proc.devRef .tc main_arg2))) (rowB128 (bm0 (V0 (Proc.devRef .tc main_arg3)))) (wih0 (V0 (Proc.devRef .tc main_arg4))) (whh0 (V0 (Proc.devRef .tc main_arg5))) (rowB192 (bg0 (V0 (Proc.devRef .tc main_arg6)))) (rowB192 (bg0 (V0 (Proc.devRef .tc main_arg7)))) := by
  rw [fwd0_gi, fwd0_gh]
  rfl

/-- The named result of the forward direction's first layer is the new state from its pre-activations. -/
theorem res_v78_gates (V0 : Valuation τ sig (Elt F)) :
    Value.res_main_v78 V0 = gates (Value.res_main_v45 V0) (Value.res_main_v50 V0) (Value.res_main_v4 V0) := rfl

/-- The forward direction's first layer. -/
theorem res_v78_eq (V0 : Valuation τ sig (Elt F)) :
    Value.res_main_v78 V0 = layerK (hfwd (V0 (Proc.devRef .tc main_arg0))) (src (V0 (Proc.devRef .tc main_arg1))) (dst (V0 (Proc.devRef .tc main_arg1))) (dst (V0 (Proc.devRef .tc main_arg1))) (wm0 (V0 (Proc.devRef .tc main_arg2))) (rowB128 (bm0 (V0 (Proc.devRef .tc main_arg3)))) (wih0 (V0 (Proc.devRef .tc main_arg4))) (whh0 (V0 (Proc.devRef .tc main_arg5))) (rowB192 (bg0 (V0 (Proc.devRef .tc main_arg6)))) (rowB192 (bg0 (V0 (Proc.devRef .tc main_arg7)))) := by
  rw [res_v78_gates, fwd0_layer, res_v4_eq, res_v1_eq, res_v3_eq]

/-! ## The forward direction's second layer -/

/-- The input pre-activation of this layer, over the named earlier values. -/
theorem fwd1_gi (V0 : Valuation τ sig (Elt F)) :
    Value.res_main_v118 V0 = preI (segSum (Value.res_main_v3 V0) (msgK (gatherRows (Value.res_main_v78 V0) (Value.res_main_v1 V0)) (gatherRows (Value.res_main_v78 V0) (Value.res_main_v3 V0)) (wm1 (V0 (Proc.devRef .tc main_arg2))) (rowB128 (bm1 (V0 (Proc.devRef .tc main_arg3)))))) (wih1 (V0 (Proc.devRef .tc main_arg4))) (rowB192 (bg1 (V0 (Proc.devRef .tc main_arg6)))) := rfl

/-- The hidden pre-activation of this layer, over the named earlier values. -/
theorem fwd1_gh (V0 : Valuation τ sig (Elt F)) :
    Value.res_main_v123 V0 = preH (Value.res_main_v78 V0) (whh1 (V0 (Proc.devRef .tc main_arg5))) (rowB192 (bg1 (V0 (Proc.devRef .tc main_arg7)))) := rfl

/-- The layer's new state from its two pre-activations and its old state is the layer function. -/
theorem fwd1_layer (V0 : Valuation τ sig (Elt F)) :
    gates (Value.res_main_v118 V0) (Value.res_main_v123 V0) (Value.res_main_v78 V0) = layerK (Value.res_main_v78 V0) (Value.res_main_v1 V0) (Value.res_main_v3 V0) (Value.res_main_v3 V0) (wm1 (V0 (Proc.devRef .tc main_arg2))) (rowB128 (bm1 (V0 (Proc.devRef .tc main_arg3)))) (wih1 (V0 (Proc.devRef .tc main_arg4))) (whh1 (V0 (Proc.devRef .tc main_arg5))) (rowB192 (bg1 (V0 (Proc.devRef .tc main_arg6)))) (rowB192 (bg1 (V0 (Proc.devRef .tc main_arg7)))) := by
  rw [fwd1_gi, fwd1_gh]
  rfl

/-- The forward direction's two layers. -/
theorem fwd_eq (V0 : Valuation τ sig (Elt F)) :
    gates (Value.res_main_v118 V0) (Value.res_main_v123 V0) (Value.res_main_v78 V0) = twoLayers rowB128 rowB192 (hfwd (V0 (Proc.devRef .tc main_arg0))) (src (V0 (Proc.devRef .tc main_arg1))) (dst (V0 (Proc.devRef .tc main_arg1))) (dst (V0 (Proc.devRef .tc main_arg1))) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) := by
  rw [fwd1_layer, res_v78_eq, res_v1_eq, res_v3_eq]
  rfl

/-! ## The backward direction's first layer -/

/-- The input pre-activation of this layer, over the named earlier values. -/
theorem bwd0_gi (V0 : Valuation τ sig (Elt F)) :
    Value.res_main_v191 V0 = preI (segSum (Value.res_main_v1 V0) (msgK (gatherRows (Value.res_main_v5 V0) (Value.res_main_v3 V0)) (gatherRows (Value.res_main_v5 V0) (Value.res_main_v1 V0)) (wm0 (V0 (Proc.devRef .tc main_arg8))) (rowB128 (bm0 (V0 (Proc.devRef .tc main_arg9)))))) (wih0 (V0 (Proc.devRef .tc main_arg10))) (rowB192 (bg0 (V0 (Proc.devRef .tc main_arg12)))) := rfl

/-- The hidden pre-activation of this layer, over the named earlier values. -/
theorem bwd0_gh (V0 : Valuation τ sig (Elt F)) :
    Value.res_main_v196 V0 = preH (Value.res_main_v5 V0) (whh0 (V0 (Proc.devRef .tc main_arg11))) (rowB192 (bg0 (V0 (Proc.devRef .tc main_arg13)))) := rfl

/-- The layer's new state from its two pre-activations and its old state is the layer function. -/
theorem bwd0_layer (V0 : Valuation τ sig (Elt F)) :
    gates (Value.res_main_v191 V0) (Value.res_main_v196 V0) (Value.res_main_v5 V0) = layerK (Value.res_main_v5 V0) (Value.res_main_v3 V0) (Value.res_main_v1 V0) (Value.res_main_v1 V0) (wm0 (V0 (Proc.devRef .tc main_arg8))) (rowB128 (bm0 (V0 (Proc.devRef .tc main_arg9)))) (wih0 (V0 (Proc.devRef .tc main_arg10))) (whh0 (V0 (Proc.devRef .tc main_arg11))) (rowB192 (bg0 (V0 (Proc.devRef .tc main_arg12)))) (rowB192 (bg0 (V0 (Proc.devRef .tc main_arg13)))) := by
  rw [bwd0_gi, bwd0_gh]
  rfl

/-- The named result of the backward direction's first layer is the new state from its pre-activations. -/
theorem res_v224_gates (V0 : Valuation τ sig (Elt F)) :
    Value.res_main_v224 V0 = gates (Value.res_main_v191 V0) (Value.res_main_v196 V0) (Value.res_main_v5 V0) := rfl

/-- The backward direction's first layer. -/
theorem res_v224_eq (V0 : Valuation τ sig (Elt F)) :
    Value.res_main_v224 V0 = layerK (hbwd (V0 (Proc.devRef .tc main_arg0))) (dst (V0 (Proc.devRef .tc main_arg1))) (src (V0 (Proc.devRef .tc main_arg1))) (src (V0 (Proc.devRef .tc main_arg1))) (wm0 (V0 (Proc.devRef .tc main_arg8))) (rowB128 (bm0 (V0 (Proc.devRef .tc main_arg9)))) (wih0 (V0 (Proc.devRef .tc main_arg10))) (whh0 (V0 (Proc.devRef .tc main_arg11))) (rowB192 (bg0 (V0 (Proc.devRef .tc main_arg12)))) (rowB192 (bg0 (V0 (Proc.devRef .tc main_arg13)))) := by
  rw [res_v224_gates, bwd0_layer, res_v5_eq, res_v1_eq, res_v3_eq]

/-! ## The backward direction's second layer -/

/-- The input pre-activation of this layer, over the named earlier values. -/
theorem bwd1_gi (V0 : Valuation τ sig (Elt F)) :
    Value.res_main_v264 V0 = preI (segSum (Value.res_main_v1 V0) (msgK (gatherRows (Value.res_main_v224 V0) (Value.res_main_v3 V0)) (gatherRows (Value.res_main_v224 V0) (Value.res_main_v1 V0)) (wm1 (V0 (Proc.devRef .tc main_arg8))) (rowB128 (bm1 (V0 (Proc.devRef .tc main_arg9)))))) (wih1 (V0 (Proc.devRef .tc main_arg10))) (rowB192 (bg1 (V0 (Proc.devRef .tc main_arg12)))) := rfl

/-- The hidden pre-activation of this layer, over the named earlier values. -/
theorem bwd1_gh (V0 : Valuation τ sig (Elt F)) :
    Value.res_main_v269 V0 = preH (Value.res_main_v224 V0) (whh1 (V0 (Proc.devRef .tc main_arg11))) (rowB192 (bg1 (V0 (Proc.devRef .tc main_arg13)))) := rfl

/-- The layer's new state from its two pre-activations and its old state is the layer function. -/
theorem bwd1_layer (V0 : Valuation τ sig (Elt F)) :
    gates (Value.res_main_v264 V0) (Value.res_main_v269 V0) (Value.res_main_v224 V0) = layerK (Value.res_main_v224 V0) (Value.res_main_v3 V0) (Value.res_main_v1 V0) (Value.res_main_v1 V0) (wm1 (V0 (Proc.devRef .tc main_arg8))) (rowB128 (bm1 (V0 (Proc.devRef .tc main_arg9)))) (wih1 (V0 (Proc.devRef .tc main_arg10))) (whh1 (V0 (Proc.devRef .tc main_arg11))) (rowB192 (bg1 (V0 (Proc.devRef .tc main_arg12)))) (rowB192 (bg1 (V0 (Proc.devRef .tc main_arg13)))) := by
  rw [bwd1_gi, bwd1_gh]
  rfl

/-- The backward direction's two layers. -/
theorem bwd_eq (V0 : Valuation τ sig (Elt F)) :
    gates (Value.res_main_v264 V0) (Value.res_main_v269 V0) (Value.res_main_v224 V0) = twoLayers rowB128 rowB192 (hbwd (V0 (Proc.devRef .tc main_arg0))) (dst (V0 (Proc.devRef .tc main_arg1))) (src (V0 (Proc.devRef .tc main_arg1))) (src (V0 (Proc.devRef .tc main_arg1))) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) := by
  rw [bwd1_layer, res_v224_eq, res_v1_eq, res_v3_eq]
  rfl

/-! ## The result -/

/-- The network lays its two directions side by side with the reference's last operation. -/
theorem net_eq_cat (V0 : Valuation τ sig (Elt F)) :
    net rowB128 rowB192 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13))
      = Value.fn_main_v298 (twoLayers rowB128 rowB192 (hfwd (V0 (Proc.devRef .tc main_arg0))) (src (V0 (Proc.devRef .tc main_arg1))) (dst (V0 (Proc.devRef .tc main_arg1))) (dst (V0 (Proc.devRef .tc main_arg1))) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)))
          (twoLayers rowB128 rowB192 (hbwd (V0 (Proc.devRef .tc main_arg0))) (dst (V0 (Proc.devRef .tc main_arg1))) (src (V0 (Proc.devRef .tc main_arg1))) (src (V0 (Proc.devRef .tc main_arg1))) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13))) := rfl

/-- The reference's result buffer after its run holds the network of the fourteen arguments. -/
theorem result_eq (V0 : Valuation τ sig (Elt F)) :
    Value.val6 V0 (Proc.devRef .tc main_v298) = net rowB128 rowB192 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) :=
  (Value.val6_main_v298 V0).trans (by
    rw [net_eq_cat, ← fwd_eq, ← bwd_eq]
    rfl)

/-- On every device, for any float values, from any memory with zero counters: every weakly fair execution of
    the reference terminates with its result the network of the arguments' launch contents, the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v298) = net rowB128 rowB192 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c =>
      ⟨(h c).1.trans ((Value.val6_main_v298 (launchContents m c)).symm.trans (result_eq (launchContents m c))), (h c).2⟩)
    (Value.run m ρ)

end Cert.ReferenceIdeal.RefValue

end
-- ==== Proof.Rows.lean ====
/-
  A bias vector made a row, in the two ways the two programs do it.

  One program recasts the vector [n] to [1, n] in row-major order; the other broadcasts it along a new
  leading axis.  Both give the row whose entry (0, j) is the vector's entry j, so they are equal as arrays.
-/
import proofs.«129615_j25563645346107_1_alg».proof.Proof.SpecNet
import Idealize.ShloMosaic.Lib.Pipeline.Value
import Idealize.ShloMosaic.Lib.ValueIdx
import Idealize.ShloMosaic.Lib.ValueLayout

namespace Cert.Spec.Rows

open Idealize.ShloMosaic Idealize.ShloMosaic.ValueIdx Cert.ReferenceIdeal

/-- For a vector of length n ≠ 1: the row-major recast to [1, n] and the broadcast along a new leading
    axis agree.  At (u, i) the recast reads the entry at row-major position u · n + i = i (u = 0), and the
    broadcast reads the entry at the coordinate on the axis it keeps, which is i. -/
theorem shapeCast_eq_broadcastInDim_row {α : Type} {n : ℕ} (hn : n ≠ 1) (v : (⟨1, ![n]⟩ : Shape).Idx → α)
    (h : (⟨1, ![n]⟩ : Shape).ShapeCasts ⟨2, ![1, n]⟩)
    (hb : (⟨1, ![n]⟩ : Shape).BroadcastsInDim ⟨2, ![1, n]⟩ ![1]) :
    shapeCast ⟨2, ![1, n]⟩ v h = broadcastInDim ⟨2, ![1, n]⟩ ![1] hb v := by
  funext j
  obtain ⟨u, i, rfl⟩ : ∃ u i, j = ix2 u i := ⟨j 0, j 1, eq_ix2 j⟩
  rw [shapeCast_a_1a_apply]
  refine (broadcastInDim_apply ![1] hb v (ix2 u i) (ix1 i) (fun a => ?_)).symm
  match a with
  | ⟨0, _⟩ =>
    show i.val = if n = 1 then 0 else i.val
    rw [if_neg hn]

variable {F : FTy → Type} [FloatOps F] [Cert.ReferenceIdeal.Facts]

/-- The 128-entry bias vector: its recast to a row, under any proof of the recast's side condition, is the
    broadcast row. -/
theorem shapeCast_rowB128 (v : FVec F S128 .f32) (h : S128.ShapeCasts S1x128) :
    shapeCast S1x128 v h = Cert.Spec.rowB128 v :=
  shapeCast_eq_broadcastInDim_row (by decide) v h Facts₀.bcast_S128_S1x128_1

/-- The 192-entry bias vector: its recast to a row, under any proof of the recast's side condition, is the
    broadcast row. -/
theorem shapeCast_rowB192 (v : FVec F S192 .f32) (h : S192.ShapeCasts S1x192) :
    shapeCast S1x192 v h = Cert.Spec.rowB192 v :=
  shapeCast_eq_broadcastInDim_row (by decide) v h Facts₀.bcast_S192_S1x192_1

end Cert.Spec.Rows
-- ==== Proof.LibPlainDot.lean ====
/-
  A plain matrix product read at an index, generic in the three extents.

  For the dimension numbers "rows × contraction times contraction × columns" (`DotDims.plain M K N`:
  no batch axis, the left operand contracted on its last axis, the right on its first), at the ideal
  values — floats extended reals, every operation exact — a `tpu.matmul` into the zero accumulator, read
  at the output index (r, c), is the plain sum over k of lhs (r, k) · rhs (k, c): no rounding and no
  chunk order is left in it.  The contraction index, a one-axis multi-index, is re-indexed by its one
  coordinate.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The left operand's index at output index (r, c) and contraction position k is (r, k). -/
theorem lhsIdx_plain (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  exact funext fun a => Fin.ext (by
    match a with
    | ⟨0, _⟩ => rfl
    | ⟨1, _⟩ => exact ((DotDims.plain M K N).lhsIdx_val_of_single rfl _ _).trans hk)

/-- The right operand's index at output index (r, c) and contraction position k is (k, c). -/
theorem rhsIdx_plain (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => rfl)

/-- A plain `tpu.matmul` into the zero accumulator, at the ideal values, read at (r, c):
    the sum over k of lhs (r, k) · rhs (k, c). -/
theorem matmul_plain_zero_apply {φ₁ φ₂ : FTy} (prec : Option ContractPrecision)
    (lhs : FVec Ideal ⟨2, ![M, K]⟩ φ₁) (rhs : FVec Ideal ⟨2, ![K, N]⟩ φ₂) (r : Fin M) (c : Fin N) :
    matmul (DotDims.plain M K N) prec lhs rhs (constant (F := Ideal) ⟨2, ![M, N]⟩ .f32 0x00000000#32) (ix2 r c)
      = ∑ k : Fin K, lhs (ix2 r k) * rhs (ix2 k c) := by
  show FloatOps.matmul (DotDims.plain M K N) prec lhs rhs (constant (F := Ideal) ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  rw [lhsIdx_plain, rhsIdx_plain]

end Cert.Lib.PlainDot

end
-- ==== Proof.LibRowBlocks.lean ====
/-
  A matrix product computed by blocks of rows is the whole product.

  At the ideal values — floats extended reals, every operation exact — the host's `dot_general` with
  the plain dimension numbers "rows × contraction times contraction × columns", read at the output
  index (r, c), is the sum over k of lhs (r, k) · rhs (k, c), exactly what a `tpu.matmul` into the zero
  accumulator is.  So a row block of the left operand, multiplied on the matrix unit by the whole right
  operand, gives at its local index (p, c) the whole product's entry at (r, c), where r is the row of the
  whole array that the block's row p is.  No finiteness is used: both sides are one and the same sum.
-/
import proofs.«129615_j25563645346107_1_alg».proof.Proof.LibPlainDot

noncomputable section

namespace Cert.Lib.RowBlocks

open Idealize.ShloMosaic Idealize.ShloMosaic.ValueIdx Cert.Lib.PlainDot

variable {M K N : Nat}

/-- The host's plain `dot_general`, at the ideal values, read at (r, c): the sum over k of
    lhs (r, k) · rhs (k, c). -/
theorem dotGeneral_plain_apply {φ₁ φ₂ : FTy} (prec : Option ContractPrecision)
    (lhs : FVec Ideal ⟨2, ![M, K]⟩ φ₁) (rhs : FVec Ideal ⟨2, ![K, N]⟩ φ₂) (r : Fin M) (c : Fin N) :
    Host.dotGeneral (DotDims.plain M K N) prec lhs rhs (ix2 r c) = ∑ k : Fin K, lhs (ix2 r k) * rhs (ix2 k c) := by
  show FloatOps.dotGeneral (DotDims.plain M K N) prec .single lhs rhs (ix2 r c) = _
  rw [Ideal.dotGeneral_apply, ← Equiv.sum_comp (contrEquiv1 (DotDims.plain M K N) K rfl rfl).symm]
  refine Finset.sum_congr rfl fun k _ => ?_
  rw [lhsIdx_plain, rhsIdx_plain]

/-- A block of B rows of the left operand times the whole right operand, into the zero accumulator: its
    entry at the local index (p, c) is the whole product's entry at (r, c), when row p of the block is row r
    of the whole left operand and the block's right operand is the whole one (the operands' float formats may
    differ between the block and the whole: at the ideal values every format is the extended reals). -/
theorem matmul_rows_eq_dotGeneral {B : Nat} {φ₁ φ₂ ψ₁ ψ₂ : FTy} (prec prec' : Option ContractPrecision)
    (x : FVec Ideal ⟨2, ![M, K]⟩ ψ₁) (w : FVec Ideal ⟨2, ![K, N]⟩ ψ₂)
    (xb : FVec Ideal ⟨2, ![B, K]⟩ φ₁) (wb : FVec Ideal ⟨2, ![K, N]⟩ φ₂) (p : Fin B) (r : Fin M) (c : Fin N)
    (hx : ∀ k : Fin K, (xb (ix2 p k) : EReal) = x (ix2 r k)) (hw : ∀ k : Fin K, (wb (ix2 k c) : EReal) = w (ix2 k c)) :
    matmul (DotDims.plain B K N) prec xb wb (constant (F := Ideal) ⟨2, ![B, N]⟩ .f32 0x00000000#32) (ix2 p c)
      = Host.dotGeneral (DotDims.plain M K N) prec' x w (ix2 r c) := by
  rw [matmul_plain_zero_apply, dotGeneral_plain_apply]
  exact Finset.sum_congr rfl fun k _ => congrArg₂ (fun a b : EReal => a * b) (hx k) (hw k)

end Cert.Lib.RowBlocks

end
-- ==== Proof.MsgBody.lean ====
/-
  The message kernel's block and the message stage, each read at an index, and the block as rows of the stage.

  A block of the message kernel takes 4000 rows of the two gathered-state arrays (64 columns each), lays them
  side by side, multiplies by the whole weight matrix [128, 128] on the matrix unit into a zero accumulator,
  and adds the bias row [1, 128] to every row.  At the ideal values — floats extended reals, every operation
  exact, the narrowing of the operands the identity — its entry (p, q) is
      Σ_k (x0 | x1)(p, k) · w(k, q) + bias(0, q),
  and the message stage's entry (r, q) over the whole arrays is the same expression with row r of the arrays.
  So when row p of each input block is row r of its array, the block's entry (p, q) is the stage's entry (r, q).
-/
import proofs.«129615_j25563645346107_1_alg».proof.Proof.Gen.KernelIdeal.Skeleton
import proofs.«129615_j25563645346107_1_alg».proof.Proof.Spec
import proofs.«129615_j25563645346107_1_alg».proof.Proof.LibRowBlocks
import Idealize.ShloMosaic.Lib.Pipeline.Value
import Idealize.ShloMosaic.Lib.ValueIdx

noncomputable section

namespace Cert.KernelIdeal.Regions

open Idealize.ShloMosaic Idealize.ShloMosaic.ValueIdx Cert.KernelIdeal Cert.KernelIdeal.Gen

/-- Two arrays of 64 columns laid side by side, read in row `r` at column `k` of the 128: the left one's
    column `k` for `k < 64`, the right one's column `k - 64` otherwise. -/
def sideBySide {M : Nat} (a b : (⟨2, ![M, 64]⟩ : Shape).Idx → EReal) (r : Fin M) (k : Fin 128) : EReal :=
  if h : k.val < 64 then a (ix2 r ⟨k.val, h⟩) else b (ix2 r ⟨k.val - 64, by omega⟩)

/-- The concatenation along the columns of two arrays of 64 columns, read at (r, k). -/
theorem concatenate_cols_apply {M : Nat} (a b : (⟨2, ![M, 64]⟩ : Shape).Idx → EReal)
    (h : Shape.Concatenates [(⟨2, ![M, 64]⟩ : Shape), ⟨2, ![M, 64]⟩] ⟨2, ![M, 128]⟩ 1) (r : Fin M) (k : Fin 128) :
    concatenate (⟨2, ![M, 128]⟩ : Shape) 1 [⟨⟨2, ![M, 64]⟩, a⟩, ⟨⟨2, ![M, 64]⟩, b⟩] h (ix2 r k) = sideBySide a b r k := by
  unfold sideBySide
  by_cases hk : k.val < 64
  · rw [dif_pos hk]
    exact concatenate_pair_apply_left 1 a b h (ix2 r k) rfl (ix2 r ⟨k.val, hk⟩) (fun d => by
      match d with
      | ⟨0, _⟩ => rfl
      | ⟨1, _⟩ => rfl)
  · rw [dif_neg hk]
    exact concatenate_pair_apply_right 1 a b h (ix2 r k) rfl rfl (ix2 r ⟨k.val - 64, by omega⟩) (fun d hd => by
      match d with
      | ⟨0, _⟩ => rfl
      | ⟨1, _⟩ => exact absurd (Fin.ext rfl) hd) (by show k.val - 64 + 64 = k.val; omega)

/-- The message kernel's block at (p, q): row `p` of the two input blocks side by side, times column `q`
    of the weights, plus the bias row's entry `q`.  The narrowing of the operands and the identity shape
    casts are the identity at the ideal values; the matrix unit's product into the zero accumulator is the
    plain sum. -/
theorem msgBlock_apply (x0 x1 : Vec Ideal S4000x64 .f32) (x2 : Vec Ideal S128x128 .f32) (x3 : Vec Ideal S1x128 .f32)
    (p : Fin 4000) (q : Fin 128) :
    k0_pay1 (F := Ideal) x0 x1 x2 x3 (ix2 p q)
      = (∑ k : Fin 128, sideBySide x0 x1 p k * x2 (ix2 k q)) + x3 (ix2 0 q) := by
  unfold k0_pay1
  refine (addf_apply _ _ (ix2 p q)).trans ?_
  refine congrArg₂ (fun a b : EReal => a + b) ?_ ?_
  · refine (Cert.Lib.PlainDot.matmul_plain_zero_apply (M := 4000) (K := 128) (N := 128) none _ _ p q).trans ?_
    refine Finset.sum_congr rfl fun k _ => ?_
    refine congrArg₂ (fun a b : EReal => a * b) ?_ ?_
    · refine (concatenate_cols_apply (M := 4000) _ _ concatenates_S4000x64_S4000x64_S4000x128_d1 p k).trans ?_
      exact congrArg₂ (fun a b : S4000x64.Idx → EReal => sideBySide a b p k) (shapeCast_self x0 _) (shapeCast_self x1 _)
    · exact congrFun (shapeCast_self x2 _) (ix2 k q)
  · refine (broadcastTo_apply _ broadcasts_S1x128_S4000x128 (ix2 p q) (ix2 0 q) (fun d => by
      match d with
      | ⟨0, _⟩ => rfl
      | ⟨1, _⟩ => rfl)).trans ?_
    exact congrFun (shapeCast_self x3 _) (ix2 0 q)

/-- The message stage at (r, q): row `r` of the two arrays side by side, times column `q` of the weights,
    plus the bias row's entry `q`. -/
theorem msgK_apply [Cert.ReferenceIdeal.Facts] (a b : FVec Ideal S800000x64 .f32) (wt : FVec Ideal S128x128 .f32)
    (b2 : FVec Ideal S1x128 .f32) (r : Fin 800000) (q : Fin 128) :
    Cert.Spec.msgK (F := Ideal) a b wt b2 (ix2 r q)
      = (∑ k : Fin 128, sideBySide a b r k * wt (ix2 k q)) + b2 (ix2 0 q) := by
  unfold Cert.Spec.msgK
  refine (addf_apply _ _ (ix2 r q)).trans ?_
  refine congrArg₂ (fun a b : EReal => a + b) ?_ ?_
  · refine (Cert.Lib.RowBlocks.dotGeneral_plain_apply (M := 800000) (K := 128) (N := 128) none _ _ r q).trans ?_
    refine Finset.sum_congr rfl fun k _ => ?_
    exact congrArg (fun t : EReal => t * wt (ix2 k q)) (concatenate_cols_apply (M := 800000) a b _ r k)
  · exact broadcastInDim_apply _ _ b2 (ix2 r q) (ix2 0 q) (fun d => by
      match d with
      | ⟨0, _⟩ => rfl
      | ⟨1, _⟩ => rfl)

/-- The block is the stage's rows: when row `p` of each input block is row `r` of its array, and the
    block's weights and bias are the arrays', the kernel's entry (p, q) is the message stage's entry (r, q). -/
theorem msgBlock_eq_msgK [Cert.ReferenceIdeal.Facts]
    (x0 x1 : Vec Ideal S4000x64 .f32) (x2 : Vec Ideal S128x128 .f32) (x3 : Vec Ideal S1x128 .f32)
    (a b : FVec Ideal S800000x64 .f32) (wt : FVec Ideal S128x128 .f32) (b2 : FVec Ideal S1x128 .f32)
    (p : Fin 4000) (r : Fin 800000) (q : Fin 128)
    (h0 : ∀ k : Fin 64, x0 (ix2 p k) = a (ix2 r k)) (h1 : ∀ k : Fin 64, x1 (ix2 p k) = b (ix2 r k))
    (h2 : ∀ k : Fin 128, x2 (ix2 k q) = wt (ix2 k q)) (h3 : x3 (ix2 0 q) = b2 (ix2 0 q)) :
    k0_pay1 (F := Ideal) x0 x1 x2 x3 (ix2 p q) = Cert.Spec.msgK (F := Ideal) a b wt b2 (ix2 r q) := by
  rw [msgBlock_apply, msgK_apply, h3]
  refine congrArg (fun s : EReal => s + b2 (ix2 0 q)) (Finset.sum_congr rfl fun k _ => ?_)
  rw [h2 k]
  refine congrArg (fun s : EReal => s * wt (ix2 k q)) ?_
  unfold sideBySide
  by_cases hk : k.val < 64
  · rw [dif_pos hk, dif_pos hk]; exact h0 _
  · rw [dif_neg hk, dif_neg hk]; exact h1 _

end Cert.KernelIdeal.Regions

end
-- ==== Proof.Msg0.lean ====
/-
  Region 0 (a message kernel): the array its write-backs leave is the message stage of the arrays the region
  finds.

  The grid has 200 points.  Point t loads rows 4000·t … 4000·t + 3999 of the two gathered-state arrays
  [800000, 64], the whole weight matrix [128, 128] and the whole bias row [1, 128], and writes rows
  4000·t … 4000·t + 3999 of the output [800000, 128].  Row p of the block it stores is row 4000·t + p of the
  message stage (the block's entry is the stage's entry, because row p of each input block is row 4000·t + p of
  its array); row r of the output lies in the block of point r / 4000; so the output ends as the message stage.
-/
import proofs.«129615_j25563645346107_1_alg».proof.Proof.Gen.KernelIdeal.Frame
import proofs.«129615_j25563645346107_1_alg».proof.Proof.MsgBody
import Idealize.ShloMosaic.Lib.Pipeline.Value

set_option maxRecDepth 16384

noncomputable section

namespace Cert.KernelIdeal.Regions

open Idealize.ShloMosaic Idealize.ShloMosaic.TcCoe Idealize.ShloMosaic.ValueIdx Idealize.SL.Sem
open Idealize.ShloMosaic.Pipeline (Dat)
open Cert.KernelIdeal Cert.KernelIdeal.Gen

/-- The zero offsets of a whole-buffer access, as a constant function. -/
theorem msg0_zeroOffsets : (![0, 0] : Fin 2 → Nat) = fun _ => 0 := funext fun a => by fin_cases a <;> rfl

/-- The region's payload is the message kernel's block. -/
theorem msg0_payload (x0 x1 : Vec Ideal S4000x64 .f32) (x2 : Vec Ideal S128x128 .f32) (x3 : Vec Ideal S1x128 .f32) :
    k0_pay1 (F := Ideal) x0 x1 x2 x3 = k0_pay1 (F := Ideal) x0 x1 x2 x3 := rfl

/-- The printed index maps, decided over the grid: the two gathered-state windows and the output move with the
    point by whole blocks of rows; the weights and the bias stay where they are. -/
theorem msg0_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

section
variable (V : (c : Dev nD) → (b : Ref sig .tc) → Buf (Elt Ideal) ((c : Thread nD τ).loc b))

/-- Row p of the first gathered-state block at point t is row 4000·t + p of its array. -/
theorem msg0_rows0 (c : Dev nD) (t : Fin cfg0.N) (p : Fin 4000) (k : Fin 64) (r : Fin 800000)
    (hr : r.val = t.val * 4000 + p.val) :
    (iblk0 V c 0 t : Vec Ideal S4000x64 .f32) (ix2 p k) = (V c (Pipeline.arrRef spec0 0) : FVec Ideal S800000x64 .f32) (ix2 r k) := by
  obtain ⟨e0, e1, -⟩ := msg0_index t
  unfold iblk0
  rw [View.read_apply]
  show V c (Pipeline.arrRef spec0 0) _ = V c (Pipeline.arrRef spec0 0) _
  congr 1
  funext a
  apply Fin.ext
  match a with
  | ⟨0, _⟩ => show win0_0.index t (0 : Fin 2) * 4000 + 1 * p.val = r.val; omega
  | ⟨1, _⟩ => show win0_0.index t (1 : Fin 2) * 64 + 1 * k.val = k.val; omega

/-- Row p of the second gathered-state block at point t is row 4000·t + p of its array. -/
theorem msg0_rows1 (c : Dev nD) (t : Fin cfg0.N) (p : Fin 4000) (k : Fin 64) (r : Fin 800000)
    (hr : r.val = t.val * 4000 + p.val) :
    (iblk0 V c 1 t : Vec Ideal S4000x64 .f32) (ix2 p k) = (V c (Pipeline.arrRef spec0 1) : FVec Ideal S800000x64 .f32) (ix2 r k) := by
  obtain ⟨-, -, e2, e3, -⟩ := msg0_index t
  unfold iblk0
  rw [View.read_apply]
  show V c (Pipeline.arrRef spec0 1) _ = V c (Pipeline.arrRef spec0 1) _
  congr 1
  funext a
  apply Fin.ext
  match a with
  | ⟨0, _⟩ => show win0_1.index t (0 : Fin 2) * 4000 + 1 * p.val = r.val; omega
  | ⟨1, _⟩ => show win0_1.index t (1 : Fin 2) * 64 + 1 * k.val = k.val; omega

/-- The weights' block at every point is the whole weight matrix. -/
theorem msg0_weights (c : Dev nD) (t : Fin cfg0.N) (k q : Fin 128) :
    (iblk0 V c 2 t : Vec Ideal S128x128 .f32) (ix2 k q) = (V c (Pipeline.arrRef spec0 2) : FVec Ideal S128x128 .f32) (ix2 k q) := by
  obtain ⟨-, -, -, -, e4, e5, -⟩ := msg0_index t
  unfold iblk0
  rw [View.read_apply]
  show V c (Pipeline.arrRef spec0 2) _ = V c (Pipeline.arrRef spec0 2) _
  congr 1
  funext a
  apply Fin.ext
  match a with
  | ⟨0, _⟩ => show win0_2.index t (0 : Fin 2) * 128 + 1 * k.val = k.val; omega
  | ⟨1, _⟩ => show win0_2.index t (1 : Fin 2) * 128 + 1 * q.val = q.val; omega

/-- The bias's block at every point is the whole bias row. -/
theorem msg0_bias (c : Dev nD) (t : Fin cfg0.N) (q : Fin 128) :
    (iblk0 V c 3 t : Vec Ideal S1x128 .f32) (ix2 0 q) = (V c (Pipeline.arrRef spec0 3) : FVec Ideal S1x128 .f32) (ix2 0 q) := by
  obtain ⟨-, -, -, -, -, -, e6, e7, -⟩ := msg0_index t
  unfold iblk0
  rw [View.read_apply]
  show V c (Pipeline.arrRef spec0 3) _ = V c (Pipeline.arrRef spec0 3) _
  congr 1
  funext a
  apply Fin.ext
  match a with
  | ⟨0, _⟩ => show win0_3.index t (0 : Fin 2) * 1 + 1 * 0 = 0; omega
  | ⟨1, _⟩ => show win0_3.index t (1 : Fin 2) * 128 + 1 * q.val = q.val; omega

set_option maxHeartbeats 1000000 in
/-- What point t writes back is block t of the message stage of the arrays the region finds. -/
theorem msg0_flushed [Cert.ReferenceIdeal.Facts] (c : Dev nD) (t : Fin cfg0.N) :
    (dat0 (F := Ideal) V c).flushed 4 t = ((cfg0.win 4).blk t).view.read (Elt Ideal)
      (Cert.Spec.msgK (F := Ideal) (V c (Pipeline.arrRef spec0 0)) (V c (Pipeline.arrRef spec0 1)) (V c (Pipeline.arrRef spec0 2)) (V c (Pipeline.arrRef spec0 3))) := by
  show (cfg0.win 4).cut (grid0.coords t) ((dat0 (F := Ideal) V c).after 4 t) = _
  rw [after0_4]
  unfold out0_4
  rw [View.canon_unit_zero msg0_zeroOffsets]
  simp only [View.ld_unit_zero (S := S4000x64) msg0_zeroOffsets, View.ld_unit_zero (S := S128x128) msg0_zeroOffsets, View.ld_unit_zero (S := S1x128) msg0_zeroOffsets]
  rw [msg0_payload]
  funext j
  obtain ⟨p, q, rfl⟩ : ∃ (p : Fin 4000) (q : Fin 128), j = ix2 p q := ⟨j 0, j 1, eq_ix2 (n0 := 4000) (n1 := 128) j⟩
  have hN : cfg0.N = 200 := N_0
  have ht : t.val < 200 := by have := t.isLt; omega
  obtain ⟨-, -, -, -, -, -, -, -, e8, e9⟩ := msg0_index t
  have hemb : ((cfg0.win 4).blk t).view.emb (ix2 p q) = ix2 (⟨t.val * 4000 + p.val, by omega⟩ : Fin 800000) q := by
    funext a
    apply Fin.ext
    match a with
    | ⟨0, _⟩ => show win0_4.index t (0 : Fin 2) * 4000 + 1 * p.val = t.val * 4000 + p.val; omega
    | ⟨1, _⟩ => show win0_4.index t (1 : Fin 2) * 128 + 1 * q.val = q.val; omega
  rw [View.read_apply, hemb]
  exact msgBlock_eq_msgK (iblk0 V c 0 t) (iblk0 V c 1 t) (iblk0 V c 2 t) (iblk0 V c 3 t)
    (V c (Pipeline.arrRef spec0 0)) (V c (Pipeline.arrRef spec0 1)) (V c (Pipeline.arrRef spec0 2)) (V c (Pipeline.arrRef spec0 3))
    p ⟨t.val * 4000 + p.val, by omega⟩ q
    (fun k => msg0_rows0 V c t p k ⟨t.val * 4000 + p.val, by omega⟩ rfl) (fun k => msg0_rows1 V c t p k ⟨t.val * 4000 + p.val, by omega⟩ rfl)
    (fun k => msg0_weights V c t k q) (msg0_bias V c t q)

/-- An index of the output is in point t's block iff each coordinate is in the block's range on its axis. -/
theorem msg0_mem_blk (t : Fin cfg0.N) (i : S800000x128.Idx) :
    i ∈ ((cfg0.win 4).blk t).view.set ↔ ∀ a : Fin 2, win0_4.index t a * S4000x128.size a ≤ (i a).val ∧ (i a).val < win0_4.index t a * S4000x128.size a + S4000x128.size a := by
  show i ∈ ((View.whole main_v34).slice (win0_4.rect t)).set ↔ _
  rw [View.set_slice_whole, Rect.mem_set_unit]
  exact Iff.rfl

/-- Row r of the output lies in the block of point r / 4000, which is written back. -/
theorem msg0_cover (i : S800000x128.Idx) :
    ∃ t : Fin cfg0.N, (cfg0.win 4).flush t = true ∧ i ∈ ((cfg0.win 4).blk t).view.set := by
  have hN : cfg0.N = 200 := N_0
  have h0 : (i 0).val < 800000 := (i 0).isLt
  have h1 : (i 1).val < 128 := (i 1).isLt
  have ht : (i 0).val / 4000 < cfg0.N := by rw [hN]; omega
  refine ⟨⟨(i 0).val / 4000, ht⟩, flush0_4 _, ?_⟩
  rw [msg0_mem_blk]
  obtain ⟨-, -, -, -, -, -, -, -, e8, e9⟩ := msg0_index ⟨(i 0).val / 4000, ht⟩
  intro a
  match a with
  | ⟨0, _⟩ =>
    show win0_4.index ⟨(i 0).val / 4000, ht⟩ (0 : Fin 2) * 4000 ≤ (i 0).val ∧ (i 0).val < win0_4.index ⟨(i 0).val / 4000, ht⟩ (0 : Fin 2) * 4000 + 4000
    rw [e8]; show (i 0).val / 4000 * 4000 ≤ (i 0).val ∧ (i 0).val < (i 0).val / 4000 * 4000 + 4000; omega
  | ⟨1, _⟩ =>
    show win0_4.index ⟨(i 0).val / 4000, ht⟩ (1 : Fin 2) * 128 ≤ (i 1).val ∧ (i 1).val < win0_4.index ⟨(i 0).val / 4000, ht⟩ (1 : Fin 2) * 128 + 128
    rw [e9]; omega

end

/-- THE REGION'S OUTPUT: after the write-backs of all 200 points, the output array is the message stage of the
    arrays the region finds. -/
theorem msg0_final [Cert.KernelIdeal.Facts] [Cert.ReferenceIdeal.Facts]
    (V : (c : Dev nD) → (b : Ref sig .tc) → Buf (Elt Ideal) ((c : Thread nD τ).loc b)) (c : Dev nD) :
    (Gen.dat0 (F := Ideal) V c).arrAt 4 cfg0.N
      = Cert.Spec.msgK (F := Ideal) (V c (Pipeline.arrRef spec0 0)) (V c (Pipeline.arrRef spec0 1)) (V c (Pipeline.arrRef spec0 2)) (V c (Pipeline.arrRef spec0 3)) :=
  (Gen.dat0 (F := Ideal) V c).arrAt_eq_of_cover 4 _ (fun t _ => msg0_flushed V c t) msg0_cover

end Cert.KernelIdeal.Regions

end
-- ==== Proof.Msg2.lean ====
/-
  Region 2 (a message kernel): the array its write-backs leave is the message stage of the arrays the region
  finds.

  The grid has 200 points.  Point t loads rows 4000·t … 4000·t + 3999 of the two gathered-state arrays
  [800000, 64], the whole weight matrix [128, 128] and the whole bias row [1, 128], and writes rows
  4000·t … 4000·t + 3999 of the output [800000, 128].  Row p of the block it stores is row 4000·t + p of the
  message stage (the block's entry is the stage's entry, because row p of each input block is row 4000·t + p of
  its array); row r of the output lies in the block of point r / 4000; so the output ends as the message stage.
-/
import proofs.«129615_j25563645346107_1_alg».proof.Proof.Gen.KernelIdeal.Frame
import proofs.«129615_j25563645346107_1_alg».proof.Proof.MsgBody
import Idealize.ShloMosaic.Lib.Pipeline.Value

set_option maxRecDepth 16384

noncomputable section

namespace Cert.KernelIdeal.Regions

open Idealize.ShloMosaic Idealize.ShloMosaic.TcCoe Idealize.ShloMosaic.ValueIdx Idealize.SL.Sem
open Idealize.ShloMosaic.Pipeline (Dat)
open Cert.KernelIdeal Cert.KernelIdeal.Gen

/-- The zero offsets of a whole-buffer access, as a constant function. -/
theorem msg2_zeroOffsets : (![0, 0] : Fin 2 → Nat) = fun _ => 0 := funext fun a => by fin_cases a <;> rfl

/-- The region's payload is the message kernel's block. -/
theorem msg2_payload (x0 x1 : Vec Ideal S4000x64 .f32) (x2 : Vec Ideal S128x128 .f32) (x3 : Vec Ideal S1x128 .f32) :
    k2_pay1 (F := Ideal) x0 x1 x2 x3 = k0_pay1 (F := Ideal) x0 x1 x2 x3 := rfl

/-- The printed index maps, decided over the grid: the two gathered-state windows and the output move with the
    point by whole blocks of rows; the weights and the bias stay where they are. -/
theorem msg2_index : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

section
variable (V : (c : Dev nD) → (b : Ref sig .tc) → Buf (Elt Ideal) ((c : Thread nD τ).loc b))

/-- Row p of the first gathered-state block at point t is row 4000·t + p of its array. -/
theorem msg2_rows0 (c : Dev nD) (t : Fin cfg2.N) (p : Fin 4000) (k : Fin 64) (r : Fin 800000)
    (hr : r.val = t.val * 4000 + p.val) :
    (iblk2 V c 0 t : Vec Ideal S4000x64 .f32) (ix2 p k) = (V c (Pipeline.arrRef spec2 0) : FVec Ideal S800000x64 .f32) (ix2 r k) := by
  obtain ⟨e0, e1, -⟩ := msg2_index t
  unfold iblk2
  rw [View.read_apply]
  show V c (Pipeline.arrRef spec2 0) _ = V c (Pipeline.arrRef spec2 0) _
  congr 1
  funext a
  apply Fin.ext
  match a with
  | ⟨0, _⟩ => show win2_0.index t (0 : Fin 2) * 4000 + 1 * p.val = r.val; omega
  | ⟨1, _⟩ => show win2_0.index t (1 : Fin 2) * 64 + 1 * k.val = k.val; omega

/-- Row p of the second gathered-state block at point t is row 4000·t + p of its array. -/
theorem msg2_rows1 (c : Dev nD) (t : Fin cfg2.N) (p : Fin 4000) (k : Fin 64) (r : Fin 800000)
    (hr : r.val = t.val * 4000 + p.val) :
    (iblk2 V c 1 t : Vec Ideal S4000x64 .f32) (ix2 p k) = (V c (Pipeline.arrRef spec2 1) : FVec Ideal S800000x64 .f32) (ix2 r k) := by
  obtain ⟨-, -, e2, e3, -⟩ := msg2_index t
  unfold iblk2
  rw [View.read_apply]
  show V c (Pipeline.arrRef spec2 1) _ = V c (Pipeline.arrRef spec2 1) _
  congr 1
  funext a
  apply Fin.ext
  match a with
  | ⟨0, _⟩ => show win2_1.index t (0 : Fin 2) * 4000 + 1 * p.val = r.val; omega
  | ⟨1, _⟩ => show win2_1.index t (1 : Fin 2) * 64 + 1 * k.val = k.val; omega

/-- The weights' block at every point is the whole weight matrix. -/
theorem msg2_weights (c : Dev nD) (t : Fin cfg2.N) (k q : Fin 128) :
    (iblk2 V c 2 t : Vec Ideal S128x128 .f32) (ix2 k q) = (V c (Pipeline.arrRef spec2 2) : FVec Ideal S128x128 .f32) (ix2 k q) := by
  obtain ⟨-, -, -, -, e4, e5, -⟩ := msg2_index t
  unfold iblk2
  rw [View.read_apply]
  show V c (Pipeline.arrRef spec2 2) _ = V c (Pipeline.arrRef spec2 2) _
  congr 1
  funext a
  apply Fin.ext
  match a with
  | ⟨0, _⟩ => show win2_2.index t (0 : Fin 2) * 128 + 1 * k.val = k.val; omega
  | ⟨1, _⟩ => show win2_2.index t (1 : Fin 2) * 128 + 1 * q.val = q.val; omega

/-- The bias's block at every point is the whole bias row. -/
theorem msg2_bias (c : Dev nD) (t : Fin cfg2.N) (q : Fin 128) :
    (iblk2 V c 3 t : Vec Ideal S1x128 .f32) (ix2 0 q) = (V c (Pipeline.arrRef spec2 3) : FVec Ideal S1x128 .f32) (ix2 0 q) := by
  obtain ⟨-, -, -, -, -, -, e6, e7, -⟩ := msg2_index t
  unfold iblk2
  rw [View.read_apply]
  show V c (Pipeline.arrRef spec2 3) _ = V c (Pipeline.arrRef spec2 3) _
  congr 1
  funext a
  apply Fin.ext
  match a with
  | ⟨0, _⟩ => show win2_3.index t (0 : Fin 2) * 1 + 1 * 0 = 0; omega
  | ⟨1, _⟩ => show win2_3.index t (1 : Fin 2) * 128 + 1 * q.val = q.val; omega

set_option maxHeartbeats 1000000 in
/-- What point t writes back is block t of the message stage of the arrays the region finds. -/
theorem msg2_flushed [Cert.ReferenceIdeal.Facts] (c : Dev nD) (t : Fin cfg2.N) :
    (dat2 (F := Ideal) V c).flushed 4 t = ((cfg2.win 4).blk t).view.read (Elt Ideal)
      (Cert.Spec.msgK (F := Ideal) (V c (Pipeline.arrRef spec2 0)) (V c (Pipeline.arrRef spec2 1)) (V c (Pipeline.arrRef spec2 2)) (V c (Pipeline.arrRef spec2 3))) := by
  show (cfg2.win 4).cut (grid2.coords t) ((dat2 (F := Ideal) V c).after 4 t) = _
  rw [after2_4]
  unfold out2_4
  rw [View.canon_unit_zero msg2_zeroOffsets]
  simp only [View.ld_unit_zero (S := S4000x64) msg2_zeroOffsets, View.ld_unit_zero (S := S128x128) msg2_zeroOffsets, View.ld_unit_zero (S := S1x128) msg2_zeroOffsets]
  rw [msg2_payload]
  funext j
  obtain ⟨p, q, rfl⟩ : ∃ (p : Fin 4000) (q : Fin 128), j = ix2 p q := ⟨j 0, j 1, eq_ix2 (n0 := 4000) (n1 := 128) j⟩
  have hN : cfg2.N = 200 := N_2
  have ht : t.val < 200 := by have := t.isLt; omega
  obtain ⟨-, -, -, -, -, -, -, -, e8, e9⟩ := msg2_index t
  have hemb : ((cfg2.win 4).blk t).view.emb (ix2 p q) = ix2 (⟨t.val * 4000 + p.val, by omega⟩ : Fin 800000) q := by
    funext a
    apply Fin.ext
    match a with
    | ⟨0, _⟩ => show win2_4.index t (0 : Fin 2) * 4000 + 1 * p.val = t.val * 4000 + p.val; omega
    | ⟨1, _⟩ => show win2_4.index t (1 : Fin 2) * 128 + 1 * q.val = q.val; omega
  rw [View.read_apply, hemb]
  exact msgBlock_eq_msgK (iblk2 V c 0 t) (iblk2 V c 1 t) (iblk2 V c 2 t) (iblk2 V c 3 t)
    (V c (Pipeline.arrRef spec2 0)) (V c (Pipeline.arrRef spec2 1)) (V c (Pipeline.arrRef spec2 2)) (V c (Pipeline.arrRef spec2 3))
    p ⟨t.val * 4000 + p.val, by omega⟩ q
    (fun k => msg2_rows0 V c t p k ⟨t.val * 4000 + p.val, by omega⟩ rfl) (fun k => msg2_rows1 V c t p k ⟨t.val * 4000 + p.val, by omega⟩ rfl)
    (fun k => msg2_weights V c t k q) (msg2_bias V c t q)

/-- An index of the output is in point t's block iff each coordinate is in the block's range on its axis. -/
theorem msg2_mem_blk (t : Fin cfg2.N) (i : S800000x128.Idx) :
    i ∈ ((cfg2.win 4).blk t).view.set ↔ ∀ a : Fin 2, win2_4.index t a * S4000x128.size a ≤ (i a).val ∧ (i a).val < win2_4.index t a * S4000x128.size a + S4000x128.size a := by
  show i ∈ ((View.whole main_v71).slice (win2_4.rect t)).set ↔ _
  rw [View.set_slice_whole, Rect.mem_set_unit]
  exact Iff.rfl

/-- Row r of the output lies in the block of point r / 4000, which is written back. -/
theorem msg2_cover (i : S800000x128.Idx) :
    ∃ t : Fin cfg2.N, (cfg2.win 4).flush t = true ∧ i ∈ ((cfg2.win 4).blk t).view.set := by
  have hN : cfg2.N = 200 := N_2
  have h0 : (i 0).val < 800000 := (i 0).isLt
  have h1 : (i 1).val < 128 := (i 1).isLt
  have ht : (i 0).val / 4000 < cfg2.N := by rw [hN]; omega
  refine ⟨⟨(i 0).val / 4000, ht⟩, flush2_4 _, ?_⟩
  rw [msg2_mem_blk]
  obtain ⟨-, -, -, -, -, -, -, -, e8, e9⟩ := msg2_index ⟨(i 0).val / 4000, ht⟩
  intro a
  match a with
  | ⟨0, _⟩ =>
    show win2_4.index ⟨(i 0).val / 4000, ht⟩ (0 : Fin 2) * 4000 ≤ (i 0).val ∧ (i 0).val < win2_4.index ⟨(i 0).val / 4000, ht⟩ (0 : Fin 2) * 4000 + 4000
    rw [e8]; show (i 0).val / 4000 * 4000 ≤ (i 0).val ∧ (i 0).val < (i 0).val / 4000 * 4000 + 4000; omega
  | ⟨1, _⟩ =>
    show win2_4.index ⟨(i 0).val / 4000, ht⟩ (1 : Fin 2) * 128 ≤ (i 1).val ∧ (i 1).val < win2_4.index ⟨(i 0).val / 4000, ht⟩ (1 : Fin 2) * 128 + 128
    rw [e9]; omega

end

/-- THE REGION'S OUTPUT: after the write-backs of all 200 points, the output array is the message stage of the
    arrays the region finds. -/
theorem msg2_final [Cert.KernelIdeal.Facts] [Cert.ReferenceIdeal.Facts]
    (V : (c : Dev nD) → (b : Ref sig .tc) → Buf (Elt Ideal) ((c : Thread nD τ).loc b)) (c : Dev nD) :
    (Gen.dat2 (F := Ideal) V c).arrAt 4 cfg2.N
      = Cert.Spec.msgK (F := Ideal) (V c (Pipeline.arrRef spec2 0)) (V c (Pipeline.arrRef spec2 1)) (V c (Pipeline.arrRef spec2 2)) (V c (Pipeline.arrRef spec2 3)) :=
  (Gen.dat2 (F := Ideal) V c).arrAt_eq_of_cover 4 _ (fun t _ => msg2_flushed V c t) msg2_cover

end Cert.KernelIdeal.Regions

end
-- ==== Proof.Msg4.lean ====
/-
  Region 4 (a message kernel): the array its write-backs leave is the message stage of the arrays the region
  finds.

  The grid has 200 points.  Point t loads rows 4000·t … 4000·t + 3999 of the two gathered-state arrays
  [800000, 64], the whole weight matrix [128, 128] and the whole bias row [1, 128], and writes rows
  4000·t … 4000·t + 3999 of the output [800000, 128].  Row p of the block it stores is row 4000·t + p of the
  message stage (the block's entry is the stage's entry, because row p of each input block is row 4000·t + p of
  its array); row r of the output lies in the block of point r / 4000; so the output ends as the message stage.
-/
import proofs.«129615_j25563645346107_1_alg».proof.Proof.Gen.KernelIdeal.Frame
import proofs.«129615_j25563645346107_1_alg».proof.Proof.MsgBody
import Idealize.ShloMosaic.Lib.Pipeline.Value

set_option maxRecDepth 16384

noncomputable section

namespace Cert.KernelIdeal.Regions

open Idealize.ShloMosaic Idealize.ShloMosaic.TcCoe Idealize.ShloMosaic.ValueIdx Idealize.SL.Sem
open Idealize.ShloMosaic.Pipeline (Dat)
open Cert.KernelIdeal Cert.KernelIdeal.Gen

/-- The zero offsets of a whole-buffer access, as a constant function. -/
theorem msg4_zeroOffsets : (![0, 0] : Fin 2 → Nat) = fun _ => 0 := funext fun a => by fin_cases a <;> rfl

/-- The region's payload is the message kernel's block. -/
theorem msg4_payload (x0 x1 : Vec Ideal S4000x64 .f32) (x2 : Vec Ideal S128x128 .f32) (x3 : Vec Ideal S1x128 .f32) :
    k4_pay1 (F := Ideal) x0 x1 x2 x3 = k0_pay1 (F := Ideal) x0 x1 x2 x3 := rfl

/-- The printed index maps, decided over the grid: the two gathered-state windows and the output move with the
    point by whole blocks of rows; the weights and the bias stay where they are. -/
theorem msg4_index : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

section
variable (V : (c : Dev nD) → (b : Ref sig .tc) → Buf (Elt Ideal) ((c : Thread nD τ).loc b))

/-- Row p of the first gathered-state block at point t is row 4000·t + p of its array. -/
theorem msg4_rows0 (c : Dev nD) (t : Fin cfg4.N) (p : Fin 4000) (k : Fin 64) (r : Fin 800000)
    (hr : r.val = t.val * 4000 + p.val) :
    (iblk4 V c 0 t : Vec Ideal S4000x64 .f32) (ix2 p k) = (V c (Pipeline.arrRef spec4 0) : FVec Ideal S800000x64 .f32) (ix2 r k) := by
  obtain ⟨e0, e1, -⟩ := msg4_index t
  unfold iblk4
  rw [View.read_apply]
  show V c (Pipeline.arrRef spec4 0) _ = V c (Pipeline.arrRef spec4 0) _
  congr 1
  funext a
  apply Fin.ext
  match a with
  | ⟨0, _⟩ => show win4_0.index t (0 : Fin 2) * 4000 + 1 * p.val = r.val; omega
  | ⟨1, _⟩ => show win4_0.index t (1 : Fin 2) * 64 + 1 * k.val = k.val; omega

/-- Row p of the second gathered-state block at point t is row 4000·t + p of its array. -/
theorem msg4_rows1 (c : Dev nD) (t : Fin cfg4.N) (p : Fin 4000) (k : Fin 64) (r : Fin 800000)
    (hr : r.val = t.val * 4000 + p.val) :
    (iblk4 V c 1 t : Vec Ideal S4000x64 .f32) (ix2 p k) = (V c (Pipeline.arrRef spec4 1) : FVec Ideal S800000x64 .f32) (ix2 r k) := by
  obtain ⟨-, -, e2, e3, -⟩ := msg4_index t
  unfold iblk4
  rw [View.read_apply]
  show V c (Pipeline.arrRef spec4 1) _ = V c (Pipeline.arrRef spec4 1) _
  congr 1
  funext a
  apply Fin.ext
  match a with
  | ⟨0, _⟩ => show win4_1.index t (0 : Fin 2) * 4000 + 1 * p.val = r.val; omega
  | ⟨1, _⟩ => show win4_1.index t (1 : Fin 2) * 64 + 1 * k.val = k.val; omega

/-- The weights' block at every point is the whole weight matrix. -/
theorem msg4_weights (c : Dev nD) (t : Fin cfg4.N) (k q : Fin 128) :
    (iblk4 V c 2 t : Vec Ideal S128x128 .f32) (ix2 k q) = (V c (Pipeline.arrRef spec4 2) : FVec Ideal S128x128 .f32) (ix2 k q) := by
  obtain ⟨-, -, -, -, e4, e5, -⟩ := msg4_index t
  unfold iblk4
  rw [View.read_apply]
  show V c (Pipeline.arrRef spec4 2) _ = V c (Pipeline.arrRef spec4 2) _
  congr 1
  funext a
  apply Fin.ext
  match a with
  | ⟨0, _⟩ => show win4_2.index t (0 : Fin 2) * 128 + 1 * k.val = k.val; omega
  | ⟨1, _⟩ => show win4_2.index t (1 : Fin 2) * 128 + 1 * q.val = q.val; omega

/-- The bias's block at every point is the whole bias row. -/
theorem msg4_bias (c : Dev nD) (t : Fin cfg4.N) (q : Fin 128) :
    (iblk4 V c 3 t : Vec Ideal S1x128 .f32) (ix2 0 q) = (V c (Pipeline.arrRef spec4 3) : FVec Ideal S1x128 .f32) (ix2 0 q) := by
  obtain ⟨-, -, -, -, -, -, e6, e7, -⟩ := msg4_index t
  unfold iblk4
  rw [View.read_apply]
  show V c (Pipeline.arrRef spec4 3) _ = V c (Pipeline.arrRef spec4 3) _
  congr 1
  funext a
  apply Fin.ext
  match a with
  | ⟨0, _⟩ => show win4_3.index t (0 : Fin 2) * 1 + 1 * 0 = 0; omega
  | ⟨1, _⟩ => show win4_3.index t (1 : Fin 2) * 128 + 1 * q.val = q.val; omega

set_option maxHeartbeats 1000000 in
/-- What point t writes back is block t of the message stage of the arrays the region finds. -/
theorem msg4_flushed [Cert.ReferenceIdeal.Facts] (c : Dev nD) (t : Fin cfg4.N) :
    (dat4 (F := Ideal) V c).flushed 4 t = ((cfg4.win 4).blk t).view.read (Elt Ideal)
      (Cert.Spec.msgK (F := Ideal) (V c (Pipeline.arrRef spec4 0)) (V c (Pipeline.arrRef spec4 1)) (V c (Pipeline.arrRef spec4 2)) (V c (Pipeline.arrRef spec4 3))) := by
  show (cfg4.win 4).cut (grid4.coords t) ((dat4 (F := Ideal) V c).after 4 t) = _
  rw [after4_4]
  unfold out4_4
  rw [View.canon_unit_zero msg4_zeroOffsets]
  simp only [View.ld_unit_zero (S := S4000x64) msg4_zeroOffsets, View.ld_unit_zero (S := S128x128) msg4_zeroOffsets, View.ld_unit_zero (S := S1x128) msg4_zeroOffsets]
  rw [msg4_payload]
  funext j
  obtain ⟨p, q, rfl⟩ : ∃ (p : Fin 4000) (q : Fin 128), j = ix2 p q := ⟨j 0, j 1, eq_ix2 (n0 := 4000) (n1 := 128) j⟩
  have hN : cfg4.N = 200 := N_4
  have ht : t.val < 200 := by have := t.isLt; omega
  obtain ⟨-, -, -, -, -, -, -, -, e8, e9⟩ := msg4_index t
  have hemb : ((cfg4.win 4).blk t).view.emb (ix2 p q) = ix2 (⟨t.val * 4000 + p.val, by omega⟩ : Fin 800000) q := by
    funext a
    apply Fin.ext
    match a with
    | ⟨0, _⟩ => show win4_4.index t (0 : Fin 2) * 4000 + 1 * p.val = t.val * 4000 + p.val; omega
    | ⟨1, _⟩ => show win4_4.index t (1 : Fin 2) * 128 + 1 * q.val = q.val; omega
  rw [View.read_apply, hemb]
  exact msgBlock_eq_msgK (iblk4 V c 0 t) (iblk4 V c 1 t) (iblk4 V c 2 t) (iblk4 V c 3 t)
    (V c (Pipeline.arrRef spec4 0)) (V c (Pipeline.arrRef spec4 1)) (V c (Pipeline.arrRef spec4 2)) (V c (Pipeline.arrRef spec4 3))
    p ⟨t.val * 4000 + p.val, by omega⟩ q
    (fun k => msg4_rows0 V c t p k ⟨t.val * 4000 + p.val, by omega⟩ rfl) (fun k => msg4_rows1 V c t p k ⟨t.val * 4000 + p.val, by omega⟩ rfl)
    (fun k => msg4_weights V c t k q) (msg4_bias V c t q)

/-- An index of the output is in point t's block iff each coordinate is in the block's range on its axis. -/
theorem msg4_mem_blk (t : Fin cfg4.N) (i : S800000x128.Idx) :
    i ∈ ((cfg4.win 4).blk t).view.set ↔ ∀ a : Fin 2, win4_4.index t a * S4000x128.size a ≤ (i a).val ∧ (i a).val < win4_4.index t a * S4000x128.size a + S4000x128.size a := by
  show i ∈ ((View.whole main_v108).slice (win4_4.rect t)).set ↔ _
  rw [View.set_slice_whole, Rect.mem_set_unit]
  exact Iff.rfl

/-- Row r of the output lies in the block of point r / 4000, which is written back. -/
theorem msg4_cover (i : S800000x128.Idx) :
    ∃ t : Fin cfg4.N, (cfg4.win 4).flush t = true ∧ i ∈ ((cfg4.win 4).blk t).view.set := by
  have hN : cfg4.N = 200 := N_4
  have h0 : (i 0).val < 800000 := (i 0).isLt
  have h1 : (i 1).val < 128 := (i 1).isLt
  have ht : (i 0).val / 4000 < cfg4.N := by rw [hN]; omega
  refine ⟨⟨(i 0).val / 4000, ht⟩, flush4_4 _, ?_⟩
  rw [msg4_mem_blk]
  obtain ⟨-, -, -, -, -, -, -, -, e8, e9⟩ := msg4_index ⟨(i 0).val / 4000, ht⟩
  intro a
  match a with
  | ⟨0, _⟩ =>
    show win4_4.index ⟨(i 0).val / 4000, ht⟩ (0 : Fin 2) * 4000 ≤ (i 0).val ∧ (i 0).val < win4_4.index ⟨(i 0).val / 4000, ht⟩ (0 : Fin 2) * 4000 + 4000
    rw [e8]; show (i 0).val / 4000 * 4000 ≤ (i 0).val ∧ (i 0).val < (i 0).val / 4000 * 4000 + 4000; omega
  | ⟨1, _⟩ =>
    show win4_4.index ⟨(i 0).val / 4000, ht⟩ (1 : Fin 2) * 128 ≤ (i 1).val ∧ (i 1).val < win4_4.index ⟨(i 0).val / 4000, ht⟩ (1 : Fin 2) * 128 + 128
    rw [e9]; omega

end

/-- THE REGION'S OUTPUT: after the write-backs of all 200 points, the output array is the message stage of the
    arrays the region finds. -/
theorem msg4_final [Cert.KernelIdeal.Facts] [Cert.ReferenceIdeal.Facts]
    (V : (c : Dev nD) → (b : Ref sig .tc) → Buf (Elt Ideal) ((c : Thread nD τ).loc b)) (c : Dev nD) :
    (Gen.dat4 (F := Ideal) V c).arrAt 4 cfg4.N
      = Cert.Spec.msgK (F := Ideal) (V c (Pipeline.arrRef spec4 0)) (V c (Pipeline.arrRef spec4 1)) (V c (Pipeline.arrRef spec4 2)) (V c (Pipeline.arrRef spec4 3)) :=
  (Gen.dat4 (F := Ideal) V c).arrAt_eq_of_cover 4 _ (fun t _ => msg4_flushed V c t) msg4_cover

end Cert.KernelIdeal.Regions

end
-- ==== Proof.Msg6.lean ====
/-
  Region 6 (a message kernel): the array its write-backs leave is the message stage of the arrays the region
  finds.

  The grid has 200 points.  Point t loads rows 4000·t … 4000·t + 3999 of the two gathered-state arrays
  [800000, 64], the whole weight matrix [128, 128] and the whole bias row [1, 128], and writes rows
  4000·t … 4000·t + 3999 of the output [800000, 128].  Row p of the block it stores is row 4000·t + p of the
  message stage (the block's entry is the stage's entry, because row p of each input block is row 4000·t + p of
  its array); row r of the output lies in the block of point r / 4000; so the output ends as the message stage.
-/
import proofs.«129615_j25563645346107_1_alg».proof.Proof.Gen.KernelIdeal.Frame
import proofs.«129615_j25563645346107_1_alg».proof.Proof.MsgBody
import Idealize.ShloMosaic.Lib.Pipeline.Value

set_option maxRecDepth 16384

noncomputable section

namespace Cert.KernelIdeal.Regions

open Idealize.ShloMosaic Idealize.ShloMosaic.TcCoe Idealize.ShloMosaic.ValueIdx Idealize.SL.Sem
open Idealize.ShloMosaic.Pipeline (Dat)
open Cert.KernelIdeal Cert.KernelIdeal.Gen

/-- The zero offsets of a whole-buffer access, as a constant function. -/
theorem msg6_zeroOffsets : (![0, 0] : Fin 2 → Nat) = fun _ => 0 := funext fun a => by fin_cases a <;> rfl

/-- The region's payload is the message kernel's block. -/
theorem msg6_payload (x0 x1 : Vec Ideal S4000x64 .f32) (x2 : Vec Ideal S128x128 .f32) (x3 : Vec Ideal S1x128 .f32) :
    k6_pay1 (F := Ideal) x0 x1 x2 x3 = k0_pay1 (F := Ideal) x0 x1 x2 x3 := rfl

/-- The printed index maps, decided over the grid: the two gathered-state windows and the output move with the
    point by whole blocks of rows; the weights and the bias stay where they are. -/
theorem msg6_index : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = t.val ∧ win6_4.index t (1 : Fin 2) = 0 :=
  (by decide +kernel : ∀ t : Fin grid6.N, _)

section
variable (V : (c : Dev nD) → (b : Ref sig .tc) → Buf (Elt Ideal) ((c : Thread nD τ).loc b))

/-- Row p of the first gathered-state block at point t is row 4000·t + p of its array. -/
theorem msg6_rows0 (c : Dev nD) (t : Fin cfg6.N) (p : Fin 4000) (k : Fin 64) (r : Fin 800000)
    (hr : r.val = t.val * 4000 + p.val) :
    (iblk6 V c 0 t : Vec Ideal S4000x64 .f32) (ix2 p k) = (V c (Pipeline.arrRef spec6 0) : FVec Ideal S800000x64 .f32) (ix2 r k) := by
  obtain ⟨e0, e1, -⟩ := msg6_index t
  unfold iblk6
  rw [View.read_apply]
  show V c (Pipeline.arrRef spec6 0) _ = V c (Pipeline.arrRef spec6 0) _
  congr 1
  funext a
  apply Fin.ext
  match a with
  | ⟨0, _⟩ => show win6_0.index t (0 : Fin 2) * 4000 + 1 * p.val = r.val; omega
  | ⟨1, _⟩ => show win6_0.index t (1 : Fin 2) * 64 + 1 * k.val = k.val; omega

/-- Row p of the second gathered-state block at point t is row 4000·t + p of its array. -/
theorem msg6_rows1 (c : Dev nD) (t : Fin cfg6.N) (p : Fin 4000) (k : Fin 64) (r : Fin 800000)
    (hr : r.val = t.val * 4000 + p.val) :
    (iblk6 V c 1 t : Vec Ideal S4000x64 .f32) (ix2 p k) = (V c (Pipeline.arrRef spec6 1) : FVec Ideal S800000x64 .f32) (ix2 r k) := by
  obtain ⟨-, -, e2, e3, -⟩ := msg6_index t
  unfold iblk6
  rw [View.read_apply]
  show V c (Pipeline.arrRef spec6 1) _ = V c (Pipeline.arrRef spec6 1) _
  congr 1
  funext a
  apply Fin.ext
  match a with
  | ⟨0, _⟩ => show win6_1.index t (0 : Fin 2) * 4000 + 1 * p.val = r.val; omega
  | ⟨1, _⟩ => show win6_1.index t (1 : Fin 2) * 64 + 1 * k.val = k.val; omega

/-- The weights' block at every point is the whole weight matrix. -/
theorem msg6_weights (c : Dev nD) (t : Fin cfg6.N) (k q : Fin 128) :
    (iblk6 V c 2 t : Vec Ideal S128x128 .f32) (ix2 k q) = (V c (Pipeline.arrRef spec6 2) : FVec Ideal S128x128 .f32) (ix2 k q) := by
  obtain ⟨-, -, -, -, e4, e5, -⟩ := msg6_index t
  unfold iblk6
  rw [View.read_apply]
  show V c (Pipeline.arrRef spec6 2) _ = V c (Pipeline.arrRef spec6 2) _
  congr 1
  funext a
  apply Fin.ext
  match a with
  | ⟨0, _⟩ => show win6_2.index t (0 : Fin 2) * 128 + 1 * k.val = k.val; omega
  | ⟨1, _⟩ => show win6_2.index t (1 : Fin 2) * 128 + 1 * q.val = q.val; omega

/-- The bias's block at every point is the whole bias row. -/
theorem msg6_bias (c : Dev nD) (t : Fin cfg6.N) (q : Fin 128) :
    (iblk6 V c 3 t : Vec Ideal S1x128 .f32) (ix2 0 q) = (V c (Pipeline.arrRef spec6 3) : FVec Ideal S1x128 .f32) (ix2 0 q) := by
  obtain ⟨-, -, -, -, -, -, e6, e7, -⟩ := msg6_index t
  unfold iblk6
  rw [View.read_apply]
  show V c (Pipeline.arrRef spec6 3) _ = V c (Pipeline.arrRef spec6 3) _
  congr 1
  funext a
  apply Fin.ext
  match a with
  | ⟨0, _⟩ => show win6_3.index t (0 : Fin 2) * 1 + 1 * 0 = 0; omega
  | ⟨1, _⟩ => show win6_3.index t (1 : Fin 2) * 128 + 1 * q.val = q.val; omega

set_option maxHeartbeats 1000000 in
/-- What point t writes back is block t of the message stage of the arrays the region finds. -/
theorem msg6_flushed [Cert.ReferenceIdeal.Facts] (c : Dev nD) (t : Fin cfg6.N) :
    (dat6 (F := Ideal) V c).flushed 4 t = ((cfg6.win 4).blk t).view.read (Elt Ideal)
      (Cert.Spec.msgK (F := Ideal) (V c (Pipeline.arrRef spec6 0)) (V c (Pipeline.arrRef spec6 1)) (V c (Pipeline.arrRef spec6 2)) (V c (Pipeline.arrRef spec6 3))) := by
  show (cfg6.win 4).cut (grid6.coords t) ((dat6 (F := Ideal) V c).after 4 t) = _
  rw [after6_4]
  unfold out6_4
  rw [View.canon_unit_zero msg6_zeroOffsets]
  simp only [View.ld_unit_zero (S := S4000x64) msg6_zeroOffsets, View.ld_unit_zero (S := S128x128) msg6_zeroOffsets, View.ld_unit_zero (S := S1x128) msg6_zeroOffsets]
  rw [msg6_payload]
  funext j
  obtain ⟨p, q, rfl⟩ : ∃ (p : Fin 4000) (q : Fin 128), j = ix2 p q := ⟨j 0, j 1, eq_ix2 (n0 := 4000) (n1 := 128) j⟩
  have hN : cfg6.N = 200 := N_6
  have ht : t.val < 200 := by have := t.isLt; omega
  obtain ⟨-, -, -, -, -, -, -, -, e8, e9⟩ := msg6_index t
  have hemb : ((cfg6.win 4).blk t).view.emb (ix2 p q) = ix2 (⟨t.val * 4000 + p.val, by omega⟩ : Fin 800000) q := by
    funext a
    apply Fin.ext
    match a with
    | ⟨0, _⟩ => show win6_4.index t (0 : Fin 2) * 4000 + 1 * p.val = t.val * 4000 + p.val; omega
    | ⟨1, _⟩ => show win6_4.index t (1 : Fin 2) * 128 + 1 * q.val = q.val; omega
  rw [View.read_apply, hemb]
  exact msgBlock_eq_msgK (iblk6 V c 0 t) (iblk6 V c 1 t) (iblk6 V c 2 t) (iblk6 V c 3 t)
    (V c (Pipeline.arrRef spec6 0)) (V c (Pipeline.arrRef spec6 1)) (V c (Pipeline.arrRef spec6 2)) (V c (Pipeline.arrRef spec6 3))
    p ⟨t.val * 4000 + p.val, by omega⟩ q
    (fun k => msg6_rows0 V c t p k ⟨t.val * 4000 + p.val, by omega⟩ rfl) (fun k => msg6_rows1 V c t p k ⟨t.val * 4000 + p.val, by omega⟩ rfl)
    (fun k => msg6_weights V c t k q) (msg6_bias V c t q)

/-- An index of the output is in point t's block iff each coordinate is in the block's range on its axis. -/
theorem msg6_mem_blk (t : Fin cfg6.N) (i : S800000x128.Idx) :
    i ∈ ((cfg6.win 4).blk t).view.set ↔ ∀ a : Fin 2, win6_4.index t a * S4000x128.size a ≤ (i a).val ∧ (i a).val < win6_4.index t a * S4000x128.size a + S4000x128.size a := by
  show i ∈ ((View.whole main_v145).slice (win6_4.rect t)).set ↔ _
  rw [View.set_slice_whole, Rect.mem_set_unit]
  exact Iff.rfl

/-- Row r of the output lies in the block of point r / 4000, which is written back. -/
theorem msg6_cover (i : S800000x128.Idx) :
    ∃ t : Fin cfg6.N, (cfg6.win 4).flush t = true ∧ i ∈ ((cfg6.win 4).blk t).view.set := by
  have hN : cfg6.N = 200 := N_6
  have h0 : (i 0).val < 800000 := (i 0).isLt
  have h1 : (i 1).val < 128 := (i 1).isLt
  have ht : (i 0).val / 4000 < cfg6.N := by rw [hN]; omega
  refine ⟨⟨(i 0).val / 4000, ht⟩, flush6_4 _, ?_⟩
  rw [msg6_mem_blk]
  obtain ⟨-, -, -, -, -, -, -, -, e8, e9⟩ := msg6_index ⟨(i 0).val / 4000, ht⟩
  intro a
  match a with
  | ⟨0, _⟩ =>
    show win6_4.index ⟨(i 0).val / 4000, ht⟩ (0 : Fin 2) * 4000 ≤ (i 0).val ∧ (i 0).val < win6_4.index ⟨(i 0).val / 4000, ht⟩ (0 : Fin 2) * 4000 + 4000
    rw [e8]; show (i 0).val / 4000 * 4000 ≤ (i 0).val ∧ (i 0).val < (i 0).val / 4000 * 4000 + 4000; omega
  | ⟨1, _⟩ =>
    show win6_4.index ⟨(i 0).val / 4000, ht⟩ (1 : Fin 2) * 128 ≤ (i 1).val ∧ (i 1).val < win6_4.index ⟨(i 0).val / 4000, ht⟩ (1 : Fin 2) * 128 + 128
    rw [e9]; omega

end

/-- THE REGION'S OUTPUT: after the write-backs of all 200 points, the output array is the message stage of the
    arrays the region finds. -/
theorem msg6_final [Cert.KernelIdeal.Facts] [Cert.ReferenceIdeal.Facts]
    (V : (c : Dev nD) → (b : Ref sig .tc) → Buf (Elt Ideal) ((c : Thread nD τ).loc b)) (c : Dev nD) :
    (Gen.dat6 (F := Ideal) V c).arrAt 4 cfg6.N
      = Cert.Spec.msgK (F := Ideal) (V c (Pipeline.arrRef spec6 0)) (V c (Pipeline.arrRef spec6 1)) (V c (Pipeline.arrRef spec6 2)) (V c (Pipeline.arrRef spec6 3)) :=
  (Gen.dat6 (F := Ideal) V c).arrAt_eq_of_cover 4 _ (fun t _ => msg6_flushed V c t) msg6_cover

end Cert.KernelIdeal.Regions

end
-- ==== Proof.GruBody.lean ====
/-
  One GRU update read entry by entry.

  The GRU stage maps the summed messages x0 : [M, 128] and the old states x1 : [M, 64] of M nodes, with the
  weights x2 : [128, 192], x3 : [64, 192] and the bias rows x4, x5 : [1, 192], to the new states.  Row r of
  the result depends on row r of x0 and x1 alone:
      gi (r, c) = Σ_k x0 (r, k) · x2 (k, c) + x4 (0, c)          (c < 192)
      gh (r, c) = Σ_k x1 (r, k) · x3 (k, c) + x5 (0, c)
      out (r, q) = (1 − z) · tanh (gi (r, 128 + q) + σ (gi (r, q) + gh (r, q)) · gh (r, 128 + q)) + z · x1 (r, q),
      z = σ (gi (r, 64 + q) + gh (r, 64 + q)),   σ x = 1 / (1 + e^(−x))                      (q < 64).
  At the ideal values (floats extended reals, every operation exact, the narrowing to bf16 the identity)
  the kernel's block computation on 1000 rows and the reference's whole-array computation on 50000 rows
  are both this expression: the kernel's matrix-unit product into a zero accumulator and the host's
  dot_general are the same sum, and the kernel's logistic is the host's quotient 1 / (1 + e^(−x)).
-/
import proofs.«129615_j25563645346107_1_alg».proof.Proof.Gen.KernelIdeal.Skeleton
import proofs.«129615_j25563645346107_1_alg».proof.Proof.Spec
import proofs.«129615_j25563645346107_1_alg».proof.Proof.LibRowBlocks
import Idealize.ShloMosaic.Lib.Pipeline.Value
import Idealize.ShloMosaic.Lib.IdealHost

noncomputable section

namespace Cert.KernelIdeal.Regions

open Idealize.ShloMosaic Idealize.ShloMosaic.ValueIdx

/-! ## The normal form -/

/-- Column o + q of a 192-column array, for one of the three thirds o = 0, 64, 128. -/
def col (o : Nat) (ho : o + 64 ≤ 192) (q : Fin 64) : Fin 192 := ⟨o + q.val, by have := q.isLt; omega⟩

/-- An entry of a pre-activation: row r of x times column c of w, plus the bias row's entry c. -/
def pre {M K : Nat} (x : (⟨2, ![M, K]⟩ : Shape).Idx → EReal) (w : (⟨2, ![K, 192]⟩ : Shape).Idx → EReal)
    (b : (⟨2, ![1, 192]⟩ : Shape).Idx → EReal) (r : Fin M) (c : Fin 192) : EReal :=
  (∑ k : Fin K, x (ix2 r k) * w (ix2 k c)) + b (ix2 0 c)

/-- The new state's entry from the three thirds a0, a1, a2 of the input pre-activation's row, the three
    thirds b0, b1, b2 of the hidden one's and the old state's entry h, for a given constant one and a given
    gate function s: (one − s (a1 + b1)) · tanh (a2 + s (a0 + b0) · b2) + s (a1 + b1) · h. -/
def cellWith (one : EReal) (s : EReal → EReal) (a0 a1 a2 b0 b1 b2 h : EReal) : EReal :=
  (one - s (a1 + b1)) * Ideal.tanh (a2 + s (a0 + b0) * b2) + s (a1 + b1) * h

/-- The new state's entry: the constant 1 and the logistic gate. -/
def cell (a0 a1 a2 b0 b1 b2 h : EReal) : EReal := cellWith 1 Ideal.logistic a0 a1 a2 b0 b1 b2 h

/-- Entry (r, q) of the GRU stage in the normal form. -/
def gruAt {M : Nat} (x0 : (⟨2, ![M, 128]⟩ : Shape).Idx → EReal) (x1 : (⟨2, ![M, 64]⟩ : Shape).Idx → EReal)
    (x2 : (⟨2, ![128, 192]⟩ : Shape).Idx → EReal) (x3 : (⟨2, ![64, 192]⟩ : Shape).Idx → EReal)
    (x4 x5 : (⟨2, ![1, 192]⟩ : Shape).Idx → EReal) (r : Fin M) (q : Fin 64) : EReal :=
  cell (pre x0 x2 x4 r (col 0 (by omega) q)) (pre x0 x2 x4 r (col 64 (by omega) q)) (pre x0 x2 x4 r (col 128 (by omega) q))
    (pre x1 x3 x5 r (col 0 (by omega) q)) (pre x1 x3 x5 r (col 64 (by omega) q)) (pre x1 x3 x5 r (col 128 (by omega) q))
    (x1 (ix2 r q))

/-- Row r of the result depends on row r of the two row operands alone: equal rows, weights and biases give
    equal entries, whatever the two arrays' numbers of rows. -/
theorem gruAt_congr {M M' : Nat} (x0 : (⟨2, ![M, 128]⟩ : Shape).Idx → EReal) (x1 : (⟨2, ![M, 64]⟩ : Shape).Idx → EReal)
    (y0 : (⟨2, ![M', 128]⟩ : Shape).Idx → EReal) (y1 : (⟨2, ![M', 64]⟩ : Shape).Idx → EReal)
    (x2 y2 : (⟨2, ![128, 192]⟩ : Shape).Idx → EReal) (x3 y3 : (⟨2, ![64, 192]⟩ : Shape).Idx → EReal)
    (x4 x5 y4 y5 : (⟨2, ![1, 192]⟩ : Shape).Idx → EReal) (r : Fin M) (r' : Fin M') (q : Fin 64)
    (h0 : ∀ k : Fin 128, x0 (ix2 r k) = y0 (ix2 r' k)) (h1 : ∀ k : Fin 64, x1 (ix2 r k) = y1 (ix2 r' k))
    (h2 : ∀ (k : Fin 128) (c : Fin 192), x2 (ix2 k c) = y2 (ix2 k c)) (h3 : ∀ (k : Fin 64) (c : Fin 192), x3 (ix2 k c) = y3 (ix2 k c))
    (h4 : ∀ c : Fin 192, x4 (ix2 0 c) = y4 (ix2 0 c)) (h5 : ∀ c : Fin 192, x5 (ix2 0 c) = y5 (ix2 0 c)) :
    gruAt x0 x1 x2 x3 x4 x5 r q = gruAt y0 y1 y2 y3 y4 y5 r' q := by
  have e0 : ∀ c : Fin 192, pre x0 x2 x4 r c = pre y0 y2 y4 r' c := fun c => by
    unfold pre; rw [h4 c, Finset.sum_congr rfl fun k _ => by rw [h0 k, h2 k c]]
  have e1 : ∀ c : Fin 192, pre x1 x3 x5 r c = pre y1 y3 y5 r' c := fun c => by
    unfold pre; rw [h5 c, Finset.sum_congr rfl fun k _ => by rw [h1 k, h3 k c]]
  unfold gruAt
  rw [e0, e0, e0, e1, e1, e1, h1 q]

/-! ## Layout operations on a 192-column array, read at an index -/

/-- A third of the columns, read at (p, q): the array at (p, o + q). -/
theorem slice_cols_apply {M : Nat} (o : Nat) (ho : o + 64 ≤ 192) (g : (⟨2, ![M, 192]⟩ : Shape).Idx → EReal)
    (h : (⟨2, ![M, 192]⟩ : Shape).Slices ![0, o] ⟨2, ![M, 64]⟩) (p : Fin M) (q : Fin 64) :
    extractStridedSlice ⟨2, ![M, 64]⟩ ![0, o] g h (ix2 p q) = g (ix2 p (col o ho q)) :=
  extractStridedSlice_apply ![0, o] g h (ix2 p q) (ix2 p (col o ho q)) fun a => by
    match a with
    | ⟨0, _⟩ => show p.val = 0 + p.val; omega
    | ⟨1, _⟩ => rfl

/-! ## The kernel's block computation -/

/-- The kernel's pre-activation block: the bf16-narrowed row block times the bf16-narrowed weights on the
    matrix unit into a zero accumulator, plus the bias row spread over the rows. -/
def preBlk {K : Nat} (d : DotDims ⟨2, ![1000, K]⟩ ⟨2, ![K, 192]⟩ ⟨2, ![1000, 192]⟩)
    (x : FVec Ideal ⟨2, ![1000, K]⟩ .f32) (w : FVec Ideal ⟨2, ![K, 192]⟩ .f32) (b : FVec Ideal S1x192 .f32) :
    FVec Ideal S1000x192 .f32 :=
  addf (matmul d none (truncf .bf16 x Gen.bitsLt_bf16_f32) (truncf .bf16 w Gen.bitsLt_bf16_f32)
    (constant (F := Ideal) S1000x192 .f32 0x00000000#32)) (broadcastTo S1000x192 b Gen.broadcasts_S1x192_S1000x192)

/-- Its entry (p, c) is the normal form's. -/
theorem preBlk_apply {K : Nat} (x : FVec Ideal ⟨2, ![1000, K]⟩ .f32) (w : FVec Ideal ⟨2, ![K, 192]⟩ .f32)
    (b : FVec Ideal S1x192 .f32) (p : Fin 1000) (c : Fin 192) :
    preBlk (DotDims.plain 1000 K 192) x w b (ix2 p c) = pre x w b p c := by
  unfold preBlk pre
  rw [addf_apply]
  refine congrArg₂ (fun u v : EReal => u + v) ?_ ?_
  · exact Cert.Lib.PlainDot.matmul_plain_zero_apply none _ _ p c
  · exact broadcastTo_apply b _ (ix2 p c) (ix2 0 c) fun a => by
      match a with
      | ⟨0, _⟩ => rfl
      | ⟨1, _⟩ => rfl

/-- The payload of the GRU kernel's one store, read at (p, q), over the kernel's seven loaded blocks (the old
    states are loaded twice: x1 feeds the product, x1' the last term). -/
theorem pay_apply (x0 : Vec Ideal S1000x128 .f32) (x1 : Vec Ideal S1000x64 .f32) (x2 : Vec Ideal S128x192 .f32)
    (x3 : Vec Ideal S64x192 .f32) (x4 x5 : Vec Ideal S1x192 .f32) (x1' : Vec Ideal S1000x64 .f32)
    (p : Fin 1000) (q : Fin 64) :
    Gen.k1_pay1 (F := Ideal) x0 x1 x2 x3 x4 x5 x1' (ix2 p q)
      = cell (pre x0 x2 x4 p (col 0 (by omega) q)) (pre x0 x2 x4 p (col 64 (by omega) q)) (pre x0 x2 x4 p (col 128 (by omega) q))
          (pre x1 x3 x5 p (col 0 (by omega) q)) (pre x1 x3 x5 p (col 64 (by omega) q)) (pre x1 x3 x5 p (col 128 (by omega) q))
          (x1' (ix2 p q)) := by
  have e : Gen.k1_pay1 (F := Ideal) x0 x1 x2 x3 x4 x5 x1' (ix2 p q)
      = cellWith (Ideal.ofBits .f32 0x3F800000#32) Ideal.logistic
          (extractStridedSlice S1000x64 ![0, 0] (preBlk (DotDims.plain 1000 128 192) x0 x2 x4) Gen.slices_S1000x192_o0_0_S1000x64 (ix2 p q))
          (extractStridedSlice S1000x64 ![0, 64] (preBlk (DotDims.plain 1000 128 192) x0 x2 x4) Gen.slices_S1000x192_o0_64_S1000x64 (ix2 p q))
          (extractStridedSlice S1000x64 ![0, 128] (preBlk (DotDims.plain 1000 128 192) x0 x2 x4) Gen.slices_S1000x192_o0_128_S1000x64 (ix2 p q))
          (extractStridedSlice S1000x64 ![0, 0] (preBlk (DotDims.plain 1000 64 192) x1 x3 x5) Gen.slices_S1000x192_o0_0_S1000x64 (ix2 p q))
          (extractStridedSlice S1000x64 ![0, 64] (preBlk (DotDims.plain 1000 64 192) x1 x3 x5) Gen.slices_S1000x192_o0_64_S1000x64 (ix2 p q))
          (extractStridedSlice S1000x64 ![0, 128] (preBlk (DotDims.plain 1000 64 192) x1 x3 x5) Gen.slices_S1000x192_o0_128_S1000x64 (ix2 p q))
          (x1' (ix2 p q)) := by
    unfold Gen.k1_pay1
    simp only [shapeCast_self]
    rfl
  rw [e, Ideal.ofBits_one_f32,
    slice_cols_apply 0 (by omega) _ _ p q, slice_cols_apply 64 (by omega) _ _ p q, slice_cols_apply 128 (by omega) _ _ p q,
    slice_cols_apply 0 (by omega) _ _ p q, slice_cols_apply 64 (by omega) _ _ p q, slice_cols_apply 128 (by omega) _ _ p q,
    preBlk_apply, preBlk_apply, preBlk_apply, preBlk_apply, preBlk_apply, preBlk_apply]
  rfl

/-- The kernel's block at (p, q), its two loads of the old states the same block: the normal form. -/
theorem pay_gruAt (x0 : Vec Ideal S1000x128 .f32) (x1 : Vec Ideal S1000x64 .f32) (x2 : Vec Ideal S128x192 .f32)
    (x3 : Vec Ideal S64x192 .f32) (x4 x5 : Vec Ideal S1x192 .f32) (p : Fin 1000) (q : Fin 64) :
    Gen.k1_pay1 (F := Ideal) x0 x1 x2 x3 x4 x5 x1 (ix2 p q) = gruAt x0 x1 x2 x3 x4 x5 p q :=
  pay_apply x0 x1 x2 x3 x4 x5 x1 p q

/-! ## The reference's whole-array computation -/

section Reference

variable [Cert.ReferenceIdeal.Facts]

/-- The input pre-activation's entry (r, c) is the normal form's. -/
theorem preI_apply (aggr : FVec Ideal Cert.ReferenceIdeal.S50000x128 .f32) (wiht : FVec Ideal Cert.ReferenceIdeal.S128x192 .f32)
    (bi2 : FVec Ideal Cert.ReferenceIdeal.S1x192 .f32) (r : Fin 50000) (c : Fin 192) :
    Cert.Spec.preI (F := Ideal) aggr wiht bi2 (ix2 r c) = pre aggr wiht bi2 r c := by
  unfold Cert.Spec.preI pre
  rw [addf_apply]
  refine congrArg₂ (fun u v : EReal => u + v) ?_ ?_
  · exact Cert.Lib.RowBlocks.dotGeneral_plain_apply none aggr wiht r c
  · exact broadcastInDim_apply _ _ bi2 (ix2 r c) (ix2 0 c) fun a => by
      match a with
      | ⟨0, _⟩ => rfl
      | ⟨1, _⟩ => rfl

/-- The hidden pre-activation's entry (r, c) is the normal form's. -/
theorem preH_apply (hs : FVec Ideal Cert.ReferenceIdeal.S50000x64 .f32) (whht : FVec Ideal Cert.ReferenceIdeal.S64x192 .f32)
    (bh2 : FVec Ideal Cert.ReferenceIdeal.S1x192 .f32) (r : Fin 50000) (c : Fin 192) :
    Cert.Spec.preH (F := Ideal) hs whht bh2 (ix2 r c) = pre hs whht bh2 r c := by
  unfold Cert.Spec.preH pre
  rw [addf_apply]
  refine congrArg₂ (fun u v : EReal => u + v) ?_ ?_
  · exact Cert.Lib.RowBlocks.dotGeneral_plain_apply none hs whht r c
  · exact broadcastInDim_apply _ _ bh2 (ix2 r c) (ix2 0 c) fun a => by
      match a with
      | ⟨0, _⟩ => rfl
      | ⟨1, _⟩ => rfl

/-- The reference's GRU stage read at (r, q): the normal form. The host writes the gate as the quotient
    1 / (1 + e^(−x)) of its own exponential and negation, which at the ideal values is the logistic. -/
theorem gruK_apply (aggr : FVec Ideal Cert.ReferenceIdeal.S50000x128 .f32) (hs : FVec Ideal Cert.ReferenceIdeal.S50000x64 .f32)
    (wiht : FVec Ideal Cert.ReferenceIdeal.S128x192 .f32) (whht : FVec Ideal Cert.ReferenceIdeal.S64x192 .f32)
    (bi2 bh2 : FVec Ideal Cert.ReferenceIdeal.S1x192 .f32) (r : Fin 50000) (q : Fin 64) :
    Cert.Spec.gruK (F := Ideal) aggr hs wiht whht bi2 bh2 (ix2 r q) = gruAt aggr hs wiht whht bi2 bh2 r q := by
  have e : Cert.Spec.gruK (F := Ideal) aggr hs wiht whht bi2 bh2 (ix2 r q)
      = cellWith (Ideal.ofBits .f32 0x3F800000#32)
          (fun x => Ideal.div (Ideal.ofBits .f32 0x3F800000#32) (Ideal.ofBits .f32 0x3F800000#32 + Ideal.exp (-x)))
          (extractStridedSlice Cert.ReferenceIdeal.S50000x64 ![0, 0] (Cert.Spec.preI (F := Ideal) aggr wiht bi2) Cert.ReferenceIdeal.Facts₀.slices_S50000x192_S50000x64_0_0 (ix2 r q))
          (extractStridedSlice Cert.ReferenceIdeal.S50000x64 ![0, 64] (Cert.Spec.preI (F := Ideal) aggr wiht bi2) Cert.ReferenceIdeal.Facts₀.slices_S50000x192_S50000x64_0_64 (ix2 r q))
          (extractStridedSlice Cert.ReferenceIdeal.S50000x64 ![0, 128] (Cert.Spec.preI (F := Ideal) aggr wiht bi2) Cert.ReferenceIdeal.Facts₀.slices_S50000x192_S50000x64_0_128 (ix2 r q))
          (extractStridedSlice Cert.ReferenceIdeal.S50000x64 ![0, 0] (Cert.Spec.preH (F := Ideal) hs whht bh2) Cert.ReferenceIdeal.Facts₀.slices_S50000x192_S50000x64_0_0 (ix2 r q))
          (extractStridedSlice Cert.ReferenceIdeal.S50000x64 ![0, 64] (Cert.Spec.preH (F := Ideal) hs whht bh2) Cert.ReferenceIdeal.Facts₀.slices_S50000x192_S50000x64_0_64 (ix2 r q))
          (extractStridedSlice Cert.ReferenceIdeal.S50000x64 ![0, 128] (Cert.Spec.preH (F := Ideal) hs whht bh2) Cert.ReferenceIdeal.Facts₀.slices_S50000x192_S50000x64_0_128 (ix2 r q))
          (hs (ix2 r q)) := rfl
  rw [e, Ideal.ofBits_one_f32,
    slice_cols_apply 0 (by omega) _ _ r q, slice_cols_apply 64 (by omega) _ _ r q, slice_cols_apply 128 (by omega) _ _ r q,
    slice_cols_apply 0 (by omega) _ _ r q, slice_cols_apply 64 (by omega) _ _ r q, slice_cols_apply 128 (by omega) _ _ r q,
    preI_apply, preI_apply, preI_apply, preH_apply, preH_apply, preH_apply]
  rfl

end Reference

end Cert.KernelIdeal.Regions

end
-- ==== Proof.Gru1.lean ====
/-
  GRU region 1: the array the region leaves is the GRU stage of the arrays it finds.

  The region runs the GRU kernel at 50 grid points.  Point t loads rows 1000 t … 1000 t + 999 of the
  summed messages (window 0) and of the old states (window 1), the whole weight matrices (windows 2, 3)
  and bias rows (windows 4, 5), and writes rows 1000 t … 1000 t + 999 of the new states (window 6).  A row
  of the GRU stage depends on the same row of the two row operands alone, so what point t writes is
  block t of the whole-array GRU stage; the 50 blocks cover the 50000 rows (row r lies in block
  r / 1000), so the array ends holding the GRU stage of the arrays as the region finds them.
-/
import proofs.«129615_j25563645346107_1_alg».proof.Proof.GruBody
import proofs.«129615_j25563645346107_1_alg».proof.Proof.Gen.KernelIdeal.Frame
import Idealize.ShloMosaic.Lib.Pipeline.Value

set_option maxRecDepth 16384

noncomputable section

namespace Cert.KernelIdeal.Regions

open Idealize.ShloMosaic Idealize.ShloMosaic.TcCoe Idealize.SL.Sem Idealize.ShloMosaic.ValueIdx
open Idealize.ShloMosaic.Pipeline (Dat)
open Cert.KernelIdeal.Gen

/-- The zero offsets of an access to a whole block, as the constant function. -/
theorem offsets_zero1 : (![0, 0] : Fin 2 → Nat) = fun _ => 0 := funext fun a => by fin_cases a <;> rfl

/-- This region's payload is the GRU kernel's: at (p, q) the normal form of its blocks. -/
theorem pay_gruAt1 (x0 : Vec Ideal S1000x128 .f32) (x1 : Vec Ideal S1000x64 .f32) (x2 : Vec Ideal S128x192 .f32)
    (x3 : Vec Ideal S64x192 .f32) (x4 x5 : Vec Ideal S1x192 .f32) (p : Fin 1000) (q : Fin 64) :
    k1_pay1 (F := Ideal) x0 x1 x2 x3 x4 x5 x1 (ix2 p q) = gruAt x0 x1 x2 x3 x4 x5 p q :=
  pay_gruAt x0 x1 x2 x3 x4 x5 p q

/-- The printed index maps, decided over the grid: the three row windows are at block t, the weight and
    bias windows at block 0. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The grid has 50 points. -/
theorem point_lt1 (t : Fin cfg1.N) : t.val < 50 := lt_of_lt_of_eq t.isLt N_1

/-- Row p of block t is row 1000 t + p of the array. -/
def row1 (t : Fin cfg1.N) (p : Fin 1000) : Fin 50000 :=
  ⟨t.val * 1000 + p.val, by have := point_lt1 t; have := p.isLt; omega⟩

section Blocks

variable (V : (c : Dev nD) → (b : Ref sig .tc) → Buf (Elt Ideal) ((c : Thread nD τ).loc b))

/-- The summed messages' block at point t holds rows 1000 t … of the array. -/
theorem blk1_0 (c : Dev nD) (t : Fin cfg1.N) (p : Fin 1000) (k : Fin 128) :
    (iblk1 V c 0 t : Vec Ideal S1000x128 .f32) (ix2 p k)
      = (V c (Pipeline.arrRef spec1 0) : S50000x128.Idx → EReal) (ix2 (row1 t p) k) := by
  obtain ⟨e0, e1, -⟩ := idx_facts1 t
  show V c (Pipeline.arrRef spec1 0) (((cfg1.win 0).blk t).view.emb (ix2 p k)) = _
  refine congrArg (V c (Pipeline.arrRef spec1 0)) (funext fun a => Fin.ext ?_)
  match a with
  | ⟨0, _⟩ => show win1_0.index t (0 : Fin 2) * 1000 + 1 * p.val = t.val * 1000 + p.val; rw [e0]; omega
  | ⟨1, _⟩ => show win1_0.index t (1 : Fin 2) * 128 + 1 * k.val = k.val; rw [e1]; omega

/-- The old states' block at point t holds rows 1000 t … of the array. -/
theorem blk1_1 (c : Dev nD) (t : Fin cfg1.N) (p : Fin 1000) (k : Fin 64) :
    (iblk1 V c 1 t : Vec Ideal S1000x64 .f32) (ix2 p k)
      = (V c (Pipeline.arrRef spec1 1) : S50000x64.Idx → EReal) (ix2 (row1 t p) k) := by
  obtain ⟨-, -, e0, e1, -⟩ := idx_facts1 t
  show V c (Pipeline.arrRef spec1 1) (((cfg1.win 1).blk t).view.emb (ix2 p k)) = _
  refine congrArg (V c (Pipeline.arrRef spec1 1)) (funext fun a => Fin.ext ?_)
  match a with
  | ⟨0, _⟩ => show win1_1.index t (0 : Fin 2) * 1000 + 1 * p.val = t.val * 1000 + p.val; rw [e0]; omega
  | ⟨1, _⟩ => show win1_1.index t (1 : Fin 2) * 64 + 1 * k.val = k.val; rw [e1]; omega

/-- The input weights' block at every point is the whole matrix. -/
theorem blk1_2 (c : Dev nD) (t : Fin cfg1.N) (k : Fin 128) (j : Fin 192) :
    (iblk1 V c 2 t : Vec Ideal S128x192 .f32) (ix2 k j)
      = (V c (Pipeline.arrRef spec1 2) : S128x192.Idx → EReal) (ix2 k j) := by
  obtain ⟨-, -, -, -, e0, e1, -⟩ := idx_facts1 t
  show V c (Pipeline.arrRef spec1 2) (((cfg1.win 2).blk t).view.emb (ix2 k j)) = _
  refine congrArg (V c (Pipeline.arrRef spec1 2)) (funext fun a => Fin.ext ?_)
  match a with
  | ⟨0, _⟩ => show win1_2.index t (0 : Fin 2) * 128 + 1 * k.val = k.val; rw [e0]; omega
  | ⟨1, _⟩ => show win1_2.index t (1 : Fin 2) * 192 + 1 * j.val = j.val; rw [e1]; omega

/-- The hidden weights' block at every point is the whole matrix. -/
theorem blk1_3 (c : Dev nD) (t : Fin cfg1.N) (k : Fin 64) (j : Fin 192) :
    (iblk1 V c 3 t : Vec Ideal S64x192 .f32) (ix2 k j)
      = (V c (Pipeline.arrRef spec1 3) : S64x192.Idx → EReal) (ix2 k j) := by
  obtain ⟨-, -, -, -, -, -, e0, e1, -⟩ := idx_facts1 t
  show V c (Pipeline.arrRef spec1 3) (((cfg1.win 3).blk t).view.emb (ix2 k j)) = _
  refine congrArg (V c (Pipeline.arrRef spec1 3)) (funext fun a => Fin.ext ?_)
  match a with
  | ⟨0, _⟩ => show win1_3.index t (0 : Fin 2) * 64 + 1 * k.val = k.val; rw [e0]; omega
  | ⟨1, _⟩ => show win1_3.index t (1 : Fin 2) * 192 + 1 * j.val = j.val; rw [e1]; omega

/-- The input bias's block at every point is the whole row. -/
theorem blk1_4 (c : Dev nD) (t : Fin cfg1.N) (j : Fin 192) :
    (iblk1 V c 4 t : Vec Ideal S1x192 .f32) (ix2 0 j)
      = (V c (Pipeline.arrRef spec1 4) : S1x192.Idx → EReal) (ix2 0 j) := by
  obtain ⟨-, -, -, -, -, -, -, -, e0, e1, -⟩ := idx_facts1 t
  show V c (Pipeline.arrRef spec1 4) (((cfg1.win 4).blk t).view.emb (ix2 0 j)) = _
  refine congrArg (V c (Pipeline.arrRef spec1 4)) (funext fun a => Fin.ext ?_)
  match a with
  | ⟨0, _⟩ => show win1_4.index t (0 : Fin 2) * 1 + 1 * 0 = 0; rw [e0]
  | ⟨1, _⟩ => show win1_4.index t (1 : Fin 2) * 192 + 1 * j.val = j.val; rw [e1]; omega

/-- The hidden bias's block at every point is the whole row. -/
theorem blk1_5 (c : Dev nD) (t : Fin cfg1.N) (j : Fin 192) :
    (iblk1 V c 5 t : Vec Ideal S1x192 .f32) (ix2 0 j)
      = (V c (Pipeline.arrRef spec1 5) : S1x192.Idx → EReal) (ix2 0 j) := by
  obtain ⟨-, -, -, -, -, -, -, -, -, -, e0, e1, -⟩ := idx_facts1 t
  show V c (Pipeline.arrRef spec1 5) (((cfg1.win 5).blk t).view.emb (ix2 0 j)) = _
  refine congrArg (V c (Pipeline.arrRef spec1 5)) (funext fun a => Fin.ext ?_)
  match a with
  | ⟨0, _⟩ => show win1_5.index t (0 : Fin 2) * 1 + 1 * 0 = 0; rw [e0]
  | ⟨1, _⟩ => show win1_5.index t (1 : Fin 2) * 192 + 1 * j.val = j.val; rw [e1]; omega

/-- Entry (p, q) of the new states' block at point t sits at (1000 t + p, q) of the array. -/
theorem emb1_6 (t : Fin cfg1.N) (p : Fin 1000) (q : Fin 64) :
    ((cfg1.win 6).blk t).view.emb (ix2 p q) = (ix2 (row1 t p) q : S50000x64.Idx) := by
  obtain ⟨-, -, -, -, -, -, -, -, -, -, -, -, e0, e1⟩ := idx_facts1 t
  refine funext fun a => Fin.ext ?_
  match a with
  | ⟨0, _⟩ => show win1_6.index t (0 : Fin 2) * 1000 + 1 * p.val = t.val * 1000 + p.val; rw [e0]; omega
  | ⟨1, _⟩ => show win1_6.index t (1 : Fin 2) * 64 + 1 * q.val = q.val; rw [e1]; omega

variable [Cert.ReferenceIdeal.Facts]

set_option maxHeartbeats 1000000 in
/-- WHAT POINT t WRITES BACK is block t of the GRU stage of the arrays as the region finds them. -/
theorem flushed1 (c : Dev nD) (t : Fin cfg1.N) :
    (dat1 V c).flushed 6 t = ((cfg1.win 6).blk t).view.read (Elt Ideal)
      (Cert.Spec.gruK (F := Ideal) (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5))) := by
  show (cfg1.win 6).cut (grid1.coords t) ((dat1 V c).after 6 t) = _
  rw [after1_6]
  unfold out1_6
  rw [View.canon_unit_zero offsets_zero1]
  simp only [View.ld_unit_zero (S := S1000x128) offsets_zero1, View.ld_unit_zero (S := S1000x64) offsets_zero1,
    View.ld_unit_zero (S := S128x192) offsets_zero1, View.ld_unit_zero (S := S64x192) offsets_zero1,
    View.ld_unit_zero (S := S1x192) offsets_zero1]
  funext j
  obtain ⟨p, q, rfl⟩ : ∃ (p : Fin 1000) (q : Fin 64), j = ix2 p q := ⟨j 0, j 1, eq_ix2 j⟩
  refine (pay_gruAt1 (iblk1 V c 0 t) (iblk1 V c 1 t) (iblk1 V c 2 t) (iblk1 V c 3 t) (iblk1 V c 4 t) (iblk1 V c 5 t) p q).trans ?_
  show _ = Cert.Spec.gruK (F := Ideal) (V c (Pipeline.arrRef spec1 0)) (V c (Pipeline.arrRef spec1 1)) (V c (Pipeline.arrRef spec1 2))
    (V c (Pipeline.arrRef spec1 3)) (V c (Pipeline.arrRef spec1 4)) (V c (Pipeline.arrRef spec1 5)) (((cfg1.win 6).blk t).view.emb (ix2 p q))
  rw [emb1_6 t p q]
  refine Eq.trans ?_ (gruK_apply (V c (Pipeline.arrRef spec1 0)) (V c (Pipeline.arrRef spec1 1)) (V c (Pipeline.arrRef spec1 2))
    (V c (Pipeline.arrRef spec1 3)) (V c (Pipeline.arrRef spec1 4)) (V c (Pipeline.arrRef spec1 5)) (row1 t p) q).symm
  exact gruAt_congr (M := 1000) (M' := 50000) (iblk1 V c 0 t : Vec Ideal S1000x128 .f32) (iblk1 V c 1 t : Vec Ideal S1000x64 .f32)
    (V c (Pipeline.arrRef spec1 0) : S50000x128.Idx → EReal) (V c (Pipeline.arrRef spec1 1) : S50000x64.Idx → EReal)
    (iblk1 V c 2 t : Vec Ideal S128x192 .f32) (V c (Pipeline.arrRef spec1 2) : S128x192.Idx → EReal)
    (iblk1 V c 3 t : Vec Ideal S64x192 .f32) (V c (Pipeline.arrRef spec1 3) : S64x192.Idx → EReal)
    (iblk1 V c 4 t : Vec Ideal S1x192 .f32) (iblk1 V c 5 t : Vec Ideal S1x192 .f32)
    (V c (Pipeline.arrRef spec1 4) : S1x192.Idx → EReal) (V c (Pipeline.arrRef spec1 5) : S1x192.Idx → EReal)
    p (row1 t p) q (fun k => blk1_0 V c t p k) (fun k => blk1_1 V c t p k)
    (fun k j => blk1_2 V c t k j) (fun k j => blk1_3 V c t k j) (fun j => blk1_4 V c t j) (fun j => blk1_5 V c t j)

/-- Every row lies in some point's block: row r in point r / 1000's. -/
theorem cover1 (i : S50000x64.Idx) :
    ∃ t : Fin cfg1.N, (cfg1.win 6).flush t = true ∧ i ∈ ((cfg1.win 6).blk t).view.set := by
  have hi0 : (i 0).val < 50000 := (i 0).isLt
  have hi1 : (i 1).val < 64 := (i 1).isLt
  have hN : cfg1.N = 50 := N_1
  have ht : (i 0).val / 1000 < cfg1.N := by rw [hN]; omega
  obtain ⟨-, -, -, -, -, -, -, -, -, -, -, -, e0, e1⟩ := idx_facts1 ⟨(i 0).val / 1000, ht⟩
  have e0' : win1_6.index ⟨(i 0).val / 1000, ht⟩ (0 : Fin 2) = (i 0).val / 1000 := e0
  refine ⟨⟨(i 0).val / 1000, ht⟩, flush1_6 _, ?_⟩
  show i ∈ ((View.whole main_v42).slice (win1_6.rect ⟨(i 0).val / 1000, ht⟩)).set
  rw [View.set_slice_whole, Rect.mem_set_unit]
  intro a
  match a with
  | ⟨0, _⟩ =>
    show win1_6.index ⟨(i 0).val / 1000, ht⟩ (0 : Fin 2) * 1000 ≤ (i 0).val
      ∧ (i 0).val < win1_6.index ⟨(i 0).val / 1000, ht⟩ (0 : Fin 2) * 1000 + 1000
    rw [e0']; omega
  | ⟨1, _⟩ =>
    show win1_6.index ⟨(i 0).val / 1000, ht⟩ (1 : Fin 2) * 64 ≤ (i 1).val
      ∧ (i 1).val < win1_6.index ⟨(i 0).val / 1000, ht⟩ (1 : Fin 2) * 64 + 64
    rw [e1]; omega

/-- THE ARRAY after the region: the GRU stage of the arrays as the region finds them. -/
theorem arr1_eq (c : Dev nD) :
    (dat1 (F := Ideal) V c).arrAt 6 cfg1.N
      = Cert.Spec.gruK (F := Ideal) (V c (Pipeline.arrRef spec1 0)) (V c (Pipeline.arrRef spec1 1)) (V c (Pipeline.arrRef spec1 2))
          (V c (Pipeline.arrRef spec1 3)) (V c (Pipeline.arrRef spec1 4)) (V c (Pipeline.arrRef spec1 5)) :=
  (dat1 (F := Ideal) V c).arrAt_eq_of_cover 6 _ (fun t _ => flushed1 V c t) cover1

end Blocks

/-- Region 1's output array after the region is the GRU stage of the six arrays the region finds. -/
theorem gru1_final [Cert.KernelIdeal.Facts] [Cert.ReferenceIdeal.Facts]
    (V : (c : Dev nD) → (b : Ref sig .tc) → Buf (Elt Ideal) ((c : Thread nD τ).loc b)) (c : Dev nD) :
    (Gen.dat1 (F := Ideal) V c).arrAt 6 cfg1.N
      = Cert.Spec.gruK (F := Ideal) (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) :=
  arr1_eq V c

end Cert.KernelIdeal.Regions

end
-- ==== Proof.Gru3.lean ====
/-
  GRU region 3: the array the region leaves is the GRU stage of the arrays it finds.

  The region runs the GRU kernel at 50 grid points.  Point t loads rows 1000 t … 1000 t + 999 of the
  summed messages (window 0) and of the old states (window 1), the whole weight matrices (windows 2, 3)
  and bias rows (windows 4, 5), and writes rows 1000 t … 1000 t + 999 of the new states (window 6).  A row
  of the GRU stage depends on the same row of the two row operands alone, so what point t writes is
  block t of the whole-array GRU stage; the 50 blocks cover the 50000 rows (row r lies in block
  r / 1000), so the array ends holding the GRU stage of the arrays as the region finds them.
-/
import proofs.«129615_j25563645346107_1_alg».proof.Proof.GruBody
import proofs.«129615_j25563645346107_1_alg».proof.Proof.Gen.KernelIdeal.Frame
import Idealize.ShloMosaic.Lib.Pipeline.Value

set_option maxRecDepth 16384

noncomputable section

namespace Cert.KernelIdeal.Regions

open Idealize.ShloMosaic Idealize.ShloMosaic.TcCoe Idealize.SL.Sem Idealize.ShloMosaic.ValueIdx
open Idealize.ShloMosaic.Pipeline (Dat)
open Cert.KernelIdeal.Gen

/-- The zero offsets of an access to a whole block, as the constant function. -/
theorem offsets_zero3 : (![0, 0] : Fin 2 → Nat) = fun _ => 0 := funext fun a => by fin_cases a <;> rfl

/-- This region's payload is the GRU kernel's: at (p, q) the normal form of its blocks. -/
theorem pay_gruAt3 (x0 : Vec Ideal S1000x128 .f32) (x1 : Vec Ideal S1000x64 .f32) (x2 : Vec Ideal S128x192 .f32)
    (x3 : Vec Ideal S64x192 .f32) (x4 x5 : Vec Ideal S1x192 .f32) (p : Fin 1000) (q : Fin 64) :
    k3_pay1 (F := Ideal) x0 x1 x2 x3 x4 x5 x1 (ix2 p q) = gruAt x0 x1 x2 x3 x4 x5 p q :=
  pay_gruAt x0 x1 x2 x3 x4 x5 p q

/-- The printed index maps, decided over the grid: the three row windows are at block t, the weight and
    bias windows at block 0. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- The grid has 50 points. -/
theorem point_lt3 (t : Fin cfg3.N) : t.val < 50 := lt_of_lt_of_eq t.isLt N_3

/-- Row p of block t is row 1000 t + p of the array. -/
def row3 (t : Fin cfg3.N) (p : Fin 1000) : Fin 50000 :=
  ⟨t.val * 1000 + p.val, by have := point_lt3 t; have := p.isLt; omega⟩

section Blocks

variable (V : (c : Dev nD) → (b : Ref sig .tc) → Buf (Elt Ideal) ((c : Thread nD τ).loc b))

/-- The summed messages' block at point t holds rows 1000 t … of the array. -/
theorem blk3_0 (c : Dev nD) (t : Fin cfg3.N) (p : Fin 1000) (k : Fin 128) :
    (iblk3 V c 0 t : Vec Ideal S1000x128 .f32) (ix2 p k)
      = (V c (Pipeline.arrRef spec3 0) : S50000x128.Idx → EReal) (ix2 (row3 t p) k) := by
  obtain ⟨e0, e1, -⟩ := idx_facts3 t
  show V c (Pipeline.arrRef spec3 0) (((cfg3.win 0).blk t).view.emb (ix2 p k)) = _
  refine congrArg (V c (Pipeline.arrRef spec3 0)) (funext fun a => Fin.ext ?_)
  match a with
  | ⟨0, _⟩ => show win3_0.index t (0 : Fin 2) * 1000 + 1 * p.val = t.val * 1000 + p.val; rw [e0]; omega
  | ⟨1, _⟩ => show win3_0.index t (1 : Fin 2) * 128 + 1 * k.val = k.val; rw [e1]; omega

/-- The old states' block at point t holds rows 1000 t … of the array. -/
theorem blk3_1 (c : Dev nD) (t : Fin cfg3.N) (p : Fin 1000) (k : Fin 64) :
    (iblk3 V c 1 t : Vec Ideal S1000x64 .f32) (ix2 p k)
      = (V c (Pipeline.arrRef spec3 1) : S50000x64.Idx → EReal) (ix2 (row3 t p) k) := by
  obtain ⟨-, -, e0, e1, -⟩ := idx_facts3 t
  show V c (Pipeline.arrRef spec3 1) (((cfg3.win 1).blk t).view.emb (ix2 p k)) = _
  refine congrArg (V c (Pipeline.arrRef spec3 1)) (funext fun a => Fin.ext ?_)
  match a with
  | ⟨0, _⟩ => show win3_1.index t (0 : Fin 2) * 1000 + 1 * p.val = t.val * 1000 + p.val; rw [e0]; omega
  | ⟨1, _⟩ => show win3_1.index t (1 : Fin 2) * 64 + 1 * k.val = k.val; rw [e1]; omega

/-- The input weights' block at every point is the whole matrix. -/
theorem blk3_2 (c : Dev nD) (t : Fin cfg3.N) (k : Fin 128) (j : Fin 192) :
    (iblk3 V c 2 t : Vec Ideal S128x192 .f32) (ix2 k j)
      = (V c (Pipeline.arrRef spec3 2) : S128x192.Idx → EReal) (ix2 k j) := by
  obtain ⟨-, -, -, -, e0, e1, -⟩ := idx_facts3 t
  show V c (Pipeline.arrRef spec3 2) (((cfg3.win 2).blk t).view.emb (ix2 k j)) = _
  refine congrArg (V c (Pipeline.arrRef spec3 2)) (funext fun a => Fin.ext ?_)
  match a with
  | ⟨0, _⟩ => show win3_2.index t (0 : Fin 2) * 128 + 1 * k.val = k.val; rw [e0]; omega
  | ⟨1, _⟩ => show win3_2.index t (1 : Fin 2) * 192 + 1 * j.val = j.val; rw [e1]; omega

/-- The hidden weights' block at every point is the whole matrix. -/
theorem blk3_3 (c : Dev nD) (t : Fin cfg3.N) (k : Fin 64) (j : Fin 192) :
    (iblk3 V c 3 t : Vec Ideal S64x192 .f32) (ix2 k j)
      = (V c (Pipeline.arrRef spec3 3) : S64x192.Idx → EReal) (ix2 k j) := by
  obtain ⟨-, -, -, -, -, -, e0, e1, -⟩ := idx_facts3 t
  show V c (Pipeline.arrRef spec3 3) (((cfg3.win 3).blk t).view.emb (ix2 k j)) = _
  refine congrArg (V c (Pipeline.arrRef spec3 3)) (funext fun a => Fin.ext ?_)
  match a with
  | ⟨0, _⟩ => show win3_3.index t (0 : Fin 2) * 64 + 1 * k.val = k.val; rw [e0]; omega
  | ⟨1, _⟩ => show win3_3.index t (1 : Fin 2) * 192 + 1 * j.val = j.val; rw [e1]; omega

/-- The input bias's block at every point is the whole row. -/
theorem blk3_4 (c : Dev nD) (t : Fin cfg3.N) (j : Fin 192) :
    (iblk3 V c 4 t : Vec Ideal S1x192 .f32) (ix2 0 j)
      = (V c (Pipeline.arrRef spec3 4) : S1x192.Idx → EReal) (ix2 0 j) := by
  obtain ⟨-, -, -, -, -, -, -, -, e0, e1, -⟩ := idx_facts3 t
  show V c (Pipeline.arrRef spec3 4) (((cfg3.win 4).blk t).view.emb (ix2 0 j)) = _
  refine congrArg (V c (Pipeline.arrRef spec3 4)) (funext fun a => Fin.ext ?_)
  match a with
  | ⟨0, _⟩ => show win3_4.index t (0 : Fin 2) * 1 + 1 * 0 = 0; rw [e0]
  | ⟨1, _⟩ => show win3_4.index t (1 : Fin 2) * 192 + 1 * j.val = j.val; rw [e1]; omega

/-- The hidden bias's block at every point is the whole row. -/
theorem blk3_5 (c : Dev nD) (t : Fin cfg3.N) (j : Fin 192) :
    (iblk3 V c 5 t : Vec Ideal S1x192 .f32) (ix2 0 j)
      = (V c (Pipeline.arrRef spec3 5) : S1x192.Idx → EReal) (ix2 0 j) := by
  obtain ⟨-, -, -, -, -, -, -, -, -, -, e0, e1, -⟩ := idx_facts3 t
  show V c (Pipeline.arrRef spec3 5) (((cfg3.win 5).blk t).view.emb (ix2 0 j)) = _
  refine congrArg (V c (Pipeline.arrRef spec3 5)) (funext fun a => Fin.ext ?_)
  match a with
  | ⟨0, _⟩ => show win3_5.index t (0 : Fin 2) * 1 + 1 * 0 = 0; rw [e0]
  | ⟨1, _⟩ => show win3_5.index t (1 : Fin 2) * 192 + 1 * j.val = j.val; rw [e1]; omega

/-- Entry (p, q) of the new states' block at point t sits at (1000 t + p, q) of the array. -/
theorem emb3_6 (t : Fin cfg3.N) (p : Fin 1000) (q : Fin 64) :
    ((cfg3.win 6).blk t).view.emb (ix2 p q) = (ix2 (row3 t p) q : S50000x64.Idx) := by
  obtain ⟨-, -, -, -, -, -, -, -, -, -, -, -, e0, e1⟩ := idx_facts3 t
  refine funext fun a => Fin.ext ?_
  match a with
  | ⟨0, _⟩ => show win3_6.index t (0 : Fin 2) * 1000 + 1 * p.val = t.val * 1000 + p.val; rw [e0]; omega
  | ⟨1, _⟩ => show win3_6.index t (1 : Fin 2) * 64 + 1 * q.val = q.val; rw [e1]; omega

variable [Cert.ReferenceIdeal.Facts]

set_option maxHeartbeats 1000000 in
/-- WHAT POINT t WRITES BACK is block t of the GRU stage of the arrays as the region finds them. -/
theorem flushed3 (c : Dev nD) (t : Fin cfg3.N) :
    (dat3 V c).flushed 6 t = ((cfg3.win 6).blk t).view.read (Elt Ideal)
      (Cert.Spec.gruK (F := Ideal) (V c (Pipeline.arrRef spec3 0)) (V c (Pipeline.arrRef spec3 1)) (V c (Pipeline.arrRef spec3 2))
        (V c (Pipeline.arrRef spec3 3)) (V c (Pipeline.arrRef spec3 4)) (V c (Pipeline.arrRef spec3 5))) := by
  show (cfg3.win 6).cut (grid3.coords t) ((dat3 V c).after 6 t) = _
  rw [after3_6]
  unfold out3_6
  rw [View.canon_unit_zero offsets_zero3]
  simp only [View.ld_unit_zero (S := S1000x128) offsets_zero3, View.ld_unit_zero (S := S1000x64) offsets_zero3,
    View.ld_unit_zero (S := S128x192) offsets_zero3, View.ld_unit_zero (S := S64x192) offsets_zero3,
    View.ld_unit_zero (S := S1x192) offsets_zero3]
  funext j
  obtain ⟨p, q, rfl⟩ : ∃ (p : Fin 1000) (q : Fin 64), j = ix2 p q := ⟨j 0, j 1, eq_ix2 j⟩
  refine (pay_gruAt3 (iblk3 V c 0 t) (iblk3 V c 1 t) (iblk3 V c 2 t) (iblk3 V c 3 t) (iblk3 V c 4 t) (iblk3 V c 5 t) p q).trans ?_
  show _ = Cert.Spec.gruK (F := Ideal) (V c (Pipeline.arrRef spec3 0)) (V c (Pipeline.arrRef spec3 1)) (V c (Pipeline.arrRef spec3 2))
    (V c (Pipeline.arrRef spec3 3)) (V c (Pipeline.arrRef spec3 4)) (V c (Pipeline.arrRef spec3 5)) (((cfg3.win 6).blk t).view.emb (ix2 p q))
  rw [emb3_6 t p q]
  refine Eq.trans ?_ (gruK_apply (V c (Pipeline.arrRef spec3 0)) (V c (Pipeline.arrRef spec3 1)) (V c (Pipeline.arrRef spec3 2))
    (V c (Pipeline.arrRef spec3 3)) (V c (Pipeline.arrRef spec3 4)) (V c (Pipeline.arrRef spec3 5)) (row3 t p) q).symm
  exact gruAt_congr (M := 1000) (M' := 50000) (iblk3 V c 0 t : Vec Ideal S1000x128 .f32) (iblk3 V c 1 t : Vec Ideal S1000x64 .f32)
    (V c (Pipeline.arrRef spec3 0) : S50000x128.Idx → EReal) (V c (Pipeline.arrRef spec3 1) : S50000x64.Idx → EReal)
    (iblk3 V c 2 t : Vec Ideal S128x192 .f32) (V c (Pipeline.arrRef spec3 2) : S128x192.Idx → EReal)
    (iblk3 V c 3 t : Vec Ideal S64x192 .f32) (V c (Pipeline.arrRef spec3 3) : S64x192.Idx → EReal)
    (iblk3 V c 4 t : Vec Ideal S1x192 .f32) (iblk3 V c 5 t : Vec Ideal S1x192 .f32)
    (V c (Pipeline.arrRef spec3 4) : S1x192.Idx → EReal) (V c (Pipeline.arrRef spec3 5) : S1x192.Idx → EReal)
    p (row3 t p) q (fun k => blk3_0 V c t p k) (fun k => blk3_1 V c t p k)
    (fun k j => blk3_2 V c t k j) (fun k j => blk3_3 V c t k j) (fun j => blk3_4 V c t j) (fun j => blk3_5 V c t j)

/-- Every row lies in some point's block: row r in point r / 1000's. -/
theorem cover3 (i : S50000x64.Idx) :
    ∃ t : Fin cfg3.N, (cfg3.win 6).flush t = true ∧ i ∈ ((cfg3.win 6).blk t).view.set := by
  have hi0 : (i 0).val < 50000 := (i 0).isLt
  have hi1 : (i 1).val < 64 := (i 1).isLt
  have hN : cfg3.N = 50 := N_3
  have ht : (i 0).val / 1000 < cfg3.N := by rw [hN]; omega
  obtain ⟨-, -, -, -, -, -, -, -, -, -, -, -, e0, e1⟩ := idx_facts3 ⟨(i 0).val / 1000, ht⟩
  have e0' : win3_6.index ⟨(i 0).val / 1000, ht⟩ (0 : Fin 2) = (i 0).val / 1000 := e0
  refine ⟨⟨(i 0).val / 1000, ht⟩, flush3_6 _, ?_⟩
  show i ∈ ((View.whole main_v79).slice (win3_6.rect ⟨(i 0).val / 1000, ht⟩)).set
  rw [View.set_slice_whole, Rect.mem_set_unit]
  intro a
  match a with
  | ⟨0, _⟩ =>
    show win3_6.index ⟨(i 0).val / 1000, ht⟩ (0 : Fin 2) * 1000 ≤ (i 0).val
      ∧ (i 0).val < win3_6.index ⟨(i 0).val / 1000, ht⟩ (0 : Fin 2) * 1000 + 1000
    rw [e0']; omega
  | ⟨1, _⟩ =>
    show win3_6.index ⟨(i 0).val / 1000, ht⟩ (1 : Fin 2) * 64 ≤ (i 1).val
      ∧ (i 1).val < win3_6.index ⟨(i 0).val / 1000, ht⟩ (1 : Fin 2) * 64 + 64
    rw [e1]; omega

/-- THE ARRAY after the region: the GRU stage of the arrays as the region finds them. -/
theorem arr3_eq (c : Dev nD) :
    (dat3 (F := Ideal) V c).arrAt 6 cfg3.N
      = Cert.Spec.gruK (F := Ideal) (V c (Pipeline.arrRef spec3 0)) (V c (Pipeline.arrRef spec3 1)) (V c (Pipeline.arrRef spec3 2))
          (V c (Pipeline.arrRef spec3 3)) (V c (Pipeline.arrRef spec3 4)) (V c (Pipeline.arrRef spec3 5)) :=
  (dat3 (F := Ideal) V c).arrAt_eq_of_cover 6 _ (fun t _ => flushed3 V c t) cover3

end Blocks

/-- Region 3's output array after the region is the GRU stage of the six arrays the region finds. -/
theorem gru3_final [Cert.KernelIdeal.Facts] [Cert.ReferenceIdeal.Facts]
    (V : (c : Dev nD) → (b : Ref sig .tc) → Buf (Elt Ideal) ((c : Thread nD τ).loc b)) (c : Dev nD) :
    (Gen.dat3 (F := Ideal) V c).arrAt 6 cfg3.N
      = Cert.Spec.gruK (F := Ideal) (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) :=
  arr3_eq V c

end Cert.KernelIdeal.Regions

end
-- ==== Proof.Gru5.lean ====
/-
  GRU region 5: the array the region leaves is the GRU stage of the arrays it finds.

  The region runs the GRU kernel at 50 grid points.  Point t loads rows 1000 t … 1000 t + 999 of the
  summed messages (window 0) and of the old states (window 1), the whole weight matrices (windows 2, 3)
  and bias rows (windows 4, 5), and writes rows 1000 t … 1000 t + 999 of the new states (window 6).  A row
  of the GRU stage depends on the same row of the two row operands alone, so what point t writes is
  block t of the whole-array GRU stage; the 50 blocks cover the 50000 rows (row r lies in block
  r / 1000), so the array ends holding the GRU stage of the arrays as the region finds them.
-/
import proofs.«129615_j25563645346107_1_alg».proof.Proof.GruBody
import proofs.«129615_j25563645346107_1_alg».proof.Proof.Gen.KernelIdeal.Frame
import Idealize.ShloMosaic.Lib.Pipeline.Value

set_option maxRecDepth 16384

noncomputable section

namespace Cert.KernelIdeal.Regions

open Idealize.ShloMosaic Idealize.ShloMosaic.TcCoe Idealize.SL.Sem Idealize.ShloMosaic.ValueIdx
open Idealize.ShloMosaic.Pipeline (Dat)
open Cert.KernelIdeal.Gen

/-- The zero offsets of an access to a whole block, as the constant function. -/
theorem offsets_zero5 : (![0, 0] : Fin 2 → Nat) = fun _ => 0 := funext fun a => by fin_cases a <;> rfl

/-- This region's payload is the GRU kernel's: at (p, q) the normal form of its blocks. -/
theorem pay_gruAt5 (x0 : Vec Ideal S1000x128 .f32) (x1 : Vec Ideal S1000x64 .f32) (x2 : Vec Ideal S128x192 .f32)
    (x3 : Vec Ideal S64x192 .f32) (x4 x5 : Vec Ideal S1x192 .f32) (p : Fin 1000) (q : Fin 64) :
    k5_pay1 (F := Ideal) x0 x1 x2 x3 x4 x5 x1 (ix2 p q) = gruAt x0 x1 x2 x3 x4 x5 p q :=
  pay_gruAt x0 x1 x2 x3 x4 x5 p q

/-- The printed index maps, decided over the grid: the three row windows are at block t, the weight and
    bias windows at block 0. -/
theorem idx_facts5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0 :=
  (by decide +kernel : ∀ t : Fin grid5.N, _)

/-- The grid has 50 points. -/
theorem point_lt5 (t : Fin cfg5.N) : t.val < 50 := lt_of_lt_of_eq t.isLt N_5

/-- Row p of block t is row 1000 t + p of the array. -/
def row5 (t : Fin cfg5.N) (p : Fin 1000) : Fin 50000 :=
  ⟨t.val * 1000 + p.val, by have := point_lt5 t; have := p.isLt; omega⟩

section Blocks

variable (V : (c : Dev nD) → (b : Ref sig .tc) → Buf (Elt Ideal) ((c : Thread nD τ).loc b))

/-- The summed messages' block at point t holds rows 1000 t … of the array. -/
theorem blk5_0 (c : Dev nD) (t : Fin cfg5.N) (p : Fin 1000) (k : Fin 128) :
    (iblk5 V c 0 t : Vec Ideal S1000x128 .f32) (ix2 p k)
      = (V c (Pipeline.arrRef spec5 0) : S50000x128.Idx → EReal) (ix2 (row5 t p) k) := by
  obtain ⟨e0, e1, -⟩ := idx_facts5 t
  show V c (Pipeline.arrRef spec5 0) (((cfg5.win 0).blk t).view.emb (ix2 p k)) = _
  refine congrArg (V c (Pipeline.arrRef spec5 0)) (funext fun a => Fin.ext ?_)
  match a with
  | ⟨0, _⟩ => show win5_0.index t (0 : Fin 2) * 1000 + 1 * p.val = t.val * 1000 + p.val; rw [e0]; omega
  | ⟨1, _⟩ => show win5_0.index t (1 : Fin 2) * 128 + 1 * k.val = k.val; rw [e1]; omega

/-- The old states' block at point t holds rows 1000 t … of the array. -/
theorem blk5_1 (c : Dev nD) (t : Fin cfg5.N) (p : Fin 1000) (k : Fin 64) :
    (iblk5 V c 1 t : Vec Ideal S1000x64 .f32) (ix2 p k)
      = (V c (Pipeline.arrRef spec5 1) : S50000x64.Idx → EReal) (ix2 (row5 t p) k) := by
  obtain ⟨-, -, e0, e1, -⟩ := idx_facts5 t
  show V c (Pipeline.arrRef spec5 1) (((cfg5.win 1).blk t).view.emb (ix2 p k)) = _
  refine congrArg (V c (Pipeline.arrRef spec5 1)) (funext fun a => Fin.ext ?_)
  match a with
  | ⟨0, _⟩ => show win5_1.index t (0 : Fin 2) * 1000 + 1 * p.val = t.val * 1000 + p.val; rw [e0]; omega
  | ⟨1, _⟩ => show win5_1.index t (1 : Fin 2) * 64 + 1 * k.val = k.val; rw [e1]; omega

/-- The input weights' block at every point is the whole matrix. -/
theorem blk5_2 (c : Dev nD) (t : Fin cfg5.N) (k : Fin 128) (j : Fin 192) :
    (iblk5 V c 2 t : Vec Ideal S128x192 .f32) (ix2 k j)
      = (V c (Pipeline.arrRef spec5 2) : S128x192.Idx → EReal) (ix2 k j) := by
  obtain ⟨-, -, -, -, e0, e1, -⟩ := idx_facts5 t
  show V c (Pipeline.arrRef spec5 2) (((cfg5.win 2).blk t).view.emb (ix2 k j)) = _
  refine congrArg (V c (Pipeline.arrRef spec5 2)) (funext fun a => Fin.ext ?_)
  match a with
  | ⟨0, _⟩ => show win5_2.index t (0 : Fin 2) * 128 + 1 * k.val = k.val; rw [e0]; omega
  | ⟨1, _⟩ => show win5_2.index t (1 : Fin 2) * 192 + 1 * j.val = j.val; rw [e1]; omega

/-- The hidden weights' block at every point is the whole matrix. -/
theorem blk5_3 (c : Dev nD) (t : Fin cfg5.N) (k : Fin 64) (j : Fin 192) :
    (iblk5 V c 3 t : Vec Ideal S64x192 .f32) (ix2 k j)
      = (V c (Pipeline.arrRef spec5 3) : S64x192.Idx → EReal) (ix2 k j) := by
  obtain ⟨-, -, -, -, -, -, e0, e1, -⟩ := idx_facts5 t
  show V c (Pipeline.arrRef spec5 3) (((cfg5.win 3).blk t).view.emb (ix2 k j)) = _
  refine congrArg (V c (Pipeline.arrRef spec5 3)) (funext fun a => Fin.ext ?_)
  match a with
  | ⟨0, _⟩ => show win5_3.index t (0 : Fin 2) * 64 + 1 * k.val = k.val; rw [e0]; omega
  | ⟨1, _⟩ => show win5_3.index t (1 : Fin 2) * 192 + 1 * j.val = j.val; rw [e1]; omega

/-- The input bias's block at every point is the whole row. -/
theorem blk5_4 (c : Dev nD) (t : Fin cfg5.N) (j : Fin 192) :
    (iblk5 V c 4 t : Vec Ideal S1x192 .f32) (ix2 0 j)
      = (V c (Pipeline.arrRef spec5 4) : S1x192.Idx → EReal) (ix2 0 j) := by
  obtain ⟨-, -, -, -, -, -, -, -, e0, e1, -⟩ := idx_facts5 t
  show V c (Pipeline.arrRef spec5 4) (((cfg5.win 4).blk t).view.emb (ix2 0 j)) = _
  refine congrArg (V c (Pipeline.arrRef spec5 4)) (funext fun a => Fin.ext ?_)
  match a with
  | ⟨0, _⟩ => show win5_4.index t (0 : Fin 2) * 1 + 1 * 0 = 0; rw [e0]
  | ⟨1, _⟩ => show win5_4.index t (1 : Fin 2) * 192 + 1 * j.val = j.val; rw [e1]; omega

/-- The hidden bias's block at every point is the whole row. -/
theorem blk5_5 (c : Dev nD) (t : Fin cfg5.N) (j : Fin 192) :
    (iblk5 V c 5 t : Vec Ideal S1x192 .f32) (ix2 0 j)
      = (V c (Pipeline.arrRef spec5 5) : S1x192.Idx → EReal) (ix2 0 j) := by
  obtain ⟨-, -, -, -, -, -, -, -, -, -, e0, e1, -⟩ := idx_facts5 t
  show V c (Pipeline.arrRef spec5 5) (((cfg5.win 5).blk t).view.emb (ix2 0 j)) = _
  refine congrArg (V c (Pipeline.arrRef spec5 5)) (funext fun a => Fin.ext ?_)
  match a with
  | ⟨0, _⟩ => show win5_5.index t (0 : Fin 2) * 1 + 1 * 0 = 0; rw [e0]
  | ⟨1, _⟩ => show win5_5.index t (1 : Fin 2) * 192 + 1 * j.val = j.val; rw [e1]; omega

/-- Entry (p, q) of the new states' block at point t sits at (1000 t + p, q) of the array. -/
theorem emb5_6 (t : Fin cfg5.N) (p : Fin 1000) (q : Fin 64) :
    ((cfg5.win 6).blk t).view.emb (ix2 p q) = (ix2 (row5 t p) q : S50000x64.Idx) := by
  obtain ⟨-, -, -, -, -, -, -, -, -, -, -, -, e0, e1⟩ := idx_facts5 t
  refine funext fun a => Fin.ext ?_
  match a with
  | ⟨0, _⟩ => show win5_6.index t (0 : Fin 2) * 1000 + 1 * p.val = t.val * 1000 + p.val; rw [e0]; omega
  | ⟨1, _⟩ => show win5_6.index t (1 : Fin 2) * 64 + 1 * q.val = q.val; rw [e1]; omega

variable [Cert.ReferenceIdeal.Facts]

set_option maxHeartbeats 1000000 in
/-- WHAT POINT t WRITES BACK is block t of the GRU stage of the arrays as the region finds them. -/
theorem flushed5 (c : Dev nD) (t : Fin cfg5.N) :
    (dat5 V c).flushed 6 t = ((cfg5.win 6).blk t).view.read (Elt Ideal)
      (Cert.Spec.gruK (F := Ideal) (V c (Pipeline.arrRef spec5 0)) (V c (Pipeline.arrRef spec5 1)) (V c (Pipeline.arrRef spec5 2))
        (V c (Pipeline.arrRef spec5 3)) (V c (Pipeline.arrRef spec5 4)) (V c (Pipeline.arrRef spec5 5))) := by
  show (cfg5.win 6).cut (grid5.coords t) ((dat5 V c).after 6 t) = _
  rw [after5_6]
  unfold out5_6
  rw [View.canon_unit_zero offsets_zero5]
  simp only [View.ld_unit_zero (S := S1000x128) offsets_zero5, View.ld_unit_zero (S := S1000x64) offsets_zero5,
    View.ld_unit_zero (S := S128x192) offsets_zero5, View.ld_unit_zero (S := S64x192) offsets_zero5,
    View.ld_unit_zero (S := S1x192) offsets_zero5]
  funext j
  obtain ⟨p, q, rfl⟩ : ∃ (p : Fin 1000) (q : Fin 64), j = ix2 p q := ⟨j 0, j 1, eq_ix2 j⟩
  refine (pay_gruAt5 (iblk5 V c 0 t) (iblk5 V c 1 t) (iblk5 V c 2 t) (iblk5 V c 3 t) (iblk5 V c 4 t) (iblk5 V c 5 t) p q).trans ?_
  show _ = Cert.Spec.gruK (F := Ideal) (V c (Pipeline.arrRef spec5 0)) (V c (Pipeline.arrRef spec5 1)) (V c (Pipeline.arrRef spec5 2))
    (V c (Pipeline.arrRef spec5 3)) (V c (Pipeline.arrRef spec5 4)) (V c (Pipeline.arrRef spec5 5)) (((cfg5.win 6).blk t).view.emb (ix2 p q))
  rw [emb5_6 t p q]
  refine Eq.trans ?_ (gruK_apply (V c (Pipeline.arrRef spec5 0)) (V c (Pipeline.arrRef spec5 1)) (V c (Pipeline.arrRef spec5 2))
    (V c (Pipeline.arrRef spec5 3)) (V c (Pipeline.arrRef spec5 4)) (V c (Pipeline.arrRef spec5 5)) (row5 t p) q).symm
  exact gruAt_congr (M := 1000) (M' := 50000) (iblk5 V c 0 t : Vec Ideal S1000x128 .f32) (iblk5 V c 1 t : Vec Ideal S1000x64 .f32)
    (V c (Pipeline.arrRef spec5 0) : S50000x128.Idx → EReal) (V c (Pipeline.arrRef spec5 1) : S50000x64.Idx → EReal)
    (iblk5 V c 2 t : Vec Ideal S128x192 .f32) (V c (Pipeline.arrRef spec5 2) : S128x192.Idx → EReal)
    (iblk5 V c 3 t : Vec Ideal S64x192 .f32) (V c (Pipeline.arrRef spec5 3) : S64x192.Idx → EReal)
    (iblk5 V c 4 t : Vec Ideal S1x192 .f32) (iblk5 V c 5 t : Vec Ideal S1x192 .f32)
    (V c (Pipeline.arrRef spec5 4) : S1x192.Idx → EReal) (V c (Pipeline.arrRef spec5 5) : S1x192.Idx → EReal)
    p (row5 t p) q (fun k => blk5_0 V c t p k) (fun k => blk5_1 V c t p k)
    (fun k j => blk5_2 V c t k j) (fun k j => blk5_3 V c t k j) (fun j => blk5_4 V c t j) (fun j => blk5_5 V c t j)

/-- Every row lies in some point's block: row r in point r / 1000's. -/
theorem cover5 (i : S50000x64.Idx) :
    ∃ t : Fin cfg5.N, (cfg5.win 6).flush t = true ∧ i ∈ ((cfg5.win 6).blk t).view.set := by
  have hi0 : (i 0).val < 50000 := (i 0).isLt
  have hi1 : (i 1).val < 64 := (i 1).isLt
  have hN : cfg5.N = 50 := N_5
  have ht : (i 0).val / 1000 < cfg5.N := by rw [hN]; omega
  obtain ⟨-, -, -, -, -, -, -, -, -, -, -, -, e0, e1⟩ := idx_facts5 ⟨(i 0).val / 1000, ht⟩
  have e0' : win5_6.index ⟨(i 0).val / 1000, ht⟩ (0 : Fin 2) = (i 0).val / 1000 := e0
  refine ⟨⟨(i 0).val / 1000, ht⟩, flush5_6 _, ?_⟩
  show i ∈ ((View.whole main_v116).slice (win5_6.rect ⟨(i 0).val / 1000, ht⟩)).set
  rw [View.set_slice_whole, Rect.mem_set_unit]
  intro a
  match a with
  | ⟨0, _⟩ =>
    show win5_6.index ⟨(i 0).val / 1000, ht⟩ (0 : Fin 2) * 1000 ≤ (i 0).val
      ∧ (i 0).val < win5_6.index ⟨(i 0).val / 1000, ht⟩ (0 : Fin 2) * 1000 + 1000
    rw [e0']; omega
  | ⟨1, _⟩ =>
    show win5_6.index ⟨(i 0).val / 1000, ht⟩ (1 : Fin 2) * 64 ≤ (i 1).val
      ∧ (i 1).val < win5_6.index ⟨(i 0).val / 1000, ht⟩ (1 : Fin 2) * 64 + 64
    rw [e1]; omega

/-- THE ARRAY after the region: the GRU stage of the arrays as the region finds them. -/
theorem arr5_eq (c : Dev nD) :
    (dat5 (F := Ideal) V c).arrAt 6 cfg5.N
      = Cert.Spec.gruK (F := Ideal) (V c (Pipeline.arrRef spec5 0)) (V c (Pipeline.arrRef spec5 1)) (V c (Pipeline.arrRef spec5 2))
          (V c (Pipeline.arrRef spec5 3)) (V c (Pipeline.arrRef spec5 4)) (V c (Pipeline.arrRef spec5 5)) :=
  (dat5 (F := Ideal) V c).arrAt_eq_of_cover 6 _ (fun t _ => flushed5 V c t) cover5

end Blocks

/-- Region 5's output array after the region is the GRU stage of the six arrays the region finds. -/
theorem gru5_final [Cert.KernelIdeal.Facts] [Cert.ReferenceIdeal.Facts]
    (V : (c : Dev nD) → (b : Ref sig .tc) → Buf (Elt Ideal) ((c : Thread nD τ).loc b)) (c : Dev nD) :
    (Gen.dat5 (F := Ideal) V c).arrAt 6 cfg5.N
      = Cert.Spec.gruK (F := Ideal) (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) :=
  arr5_eq V c

end Cert.KernelIdeal.Regions

end
-- ==== Proof.Gru7.lean ====
/-
  GRU region 7: the array the region leaves is the GRU stage of the arrays it finds.

  The region runs the GRU kernel at 50 grid points.  Point t loads rows 1000 t … 1000 t + 999 of the
  summed messages (window 0) and of the old states (window 1), the whole weight matrices (windows 2, 3)
  and bias rows (windows 4, 5), and writes rows 1000 t … 1000 t + 999 of the new states (window 6).  A row
  of the GRU stage depends on the same row of the two row operands alone, so what point t writes is
  block t of the whole-array GRU stage; the 50 blocks cover the 50000 rows (row r lies in block
  r / 1000), so the array ends holding the GRU stage of the arrays as the region finds them.
-/
import proofs.«129615_j25563645346107_1_alg».proof.Proof.GruBody
import proofs.«129615_j25563645346107_1_alg».proof.Proof.Gen.KernelIdeal.Frame
import Idealize.ShloMosaic.Lib.Pipeline.Value

set_option maxRecDepth 16384

noncomputable section

namespace Cert.KernelIdeal.Regions

open Idealize.ShloMosaic Idealize.ShloMosaic.TcCoe Idealize.SL.Sem Idealize.ShloMosaic.ValueIdx
open Idealize.ShloMosaic.Pipeline (Dat)
open Cert.KernelIdeal.Gen

/-- The zero offsets of an access to a whole block, as the constant function. -/
theorem offsets_zero7 : (![0, 0] : Fin 2 → Nat) = fun _ => 0 := funext fun a => by fin_cases a <;> rfl

/-- This region's payload is the GRU kernel's: at (p, q) the normal form of its blocks. -/
theorem pay_gruAt7 (x0 : Vec Ideal S1000x128 .f32) (x1 : Vec Ideal S1000x64 .f32) (x2 : Vec Ideal S128x192 .f32)
    (x3 : Vec Ideal S64x192 .f32) (x4 x5 : Vec Ideal S1x192 .f32) (p : Fin 1000) (q : Fin 64) :
    k7_pay1 (F := Ideal) x0 x1 x2 x3 x4 x5 x1 (ix2 p q) = gruAt x0 x1 x2 x3 x4 x5 p q :=
  pay_gruAt x0 x1 x2 x3 x4 x5 p q

/-- The printed index maps, decided over the grid: the three row windows are at block t, the weight and
    bias windows at block 0. -/
theorem idx_facts7 : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0
    ∧ win7_6.index t (0 : Fin 2) = t.val ∧ win7_6.index t (1 : Fin 2) = 0 :=
  (by decide +kernel : ∀ t : Fin grid7.N, _)

/-- The grid has 50 points. -/
theorem point_lt7 (t : Fin cfg7.N) : t.val < 50 := lt_of_lt_of_eq t.isLt N_7

/-- Row p of block t is row 1000 t + p of the array. -/
def row7 (t : Fin cfg7.N) (p : Fin 1000) : Fin 50000 :=
  ⟨t.val * 1000 + p.val, by have := point_lt7 t; have := p.isLt; omega⟩

section Blocks

variable (V : (c : Dev nD) → (b : Ref sig .tc) → Buf (Elt Ideal) ((c : Thread nD τ).loc b))

/-- The summed messages' block at point t holds rows 1000 t … of the array. -/
theorem blk7_0 (c : Dev nD) (t : Fin cfg7.N) (p : Fin 1000) (k : Fin 128) :
    (iblk7 V c 0 t : Vec Ideal S1000x128 .f32) (ix2 p k)
      = (V c (Pipeline.arrRef spec7 0) : S50000x128.Idx → EReal) (ix2 (row7 t p) k) := by
  obtain ⟨e0, e1, -⟩ := idx_facts7 t
  show V c (Pipeline.arrRef spec7 0) (((cfg7.win 0).blk t).view.emb (ix2 p k)) = _
  refine congrArg (V c (Pipeline.arrRef spec7 0)) (funext fun a => Fin.ext ?_)
  match a with
  | ⟨0, _⟩ => show win7_0.index t (0 : Fin 2) * 1000 + 1 * p.val = t.val * 1000 + p.val; rw [e0]; omega
  | ⟨1, _⟩ => show win7_0.index t (1 : Fin 2) * 128 + 1 * k.val = k.val; rw [e1]; omega

/-- The old states' block at point t holds rows 1000 t … of the array. -/
theorem blk7_1 (c : Dev nD) (t : Fin cfg7.N) (p : Fin 1000) (k : Fin 64) :
    (iblk7 V c 1 t : Vec Ideal S1000x64 .f32) (ix2 p k)
      = (V c (Pipeline.arrRef spec7 1) : S50000x64.Idx → EReal) (ix2 (row7 t p) k) := by
  obtain ⟨-, -, e0, e1, -⟩ := idx_facts7 t
  show V c (Pipeline.arrRef spec7 1) (((cfg7.win 1).blk t).view.emb (ix2 p k)) = _
  refine congrArg (V c (Pipeline.arrRef spec7 1)) (funext fun a => Fin.ext ?_)
  match a with
  | ⟨0, _⟩ => show win7_1.index t (0 : Fin 2) * 1000 + 1 * p.val = t.val * 1000 + p.val; rw [e0]; omega
  | ⟨1, _⟩ => show win7_1.index t (1 : Fin 2) * 64 + 1 * k.val = k.val; rw [e1]; omega

/-- The input weights' block at every point is the whole matrix. -/
theorem blk7_2 (c : Dev nD) (t : Fin cfg7.N) (k : Fin 128) (j : Fin 192) :
    (iblk7 V c 2 t : Vec Ideal S128x192 .f32) (ix2 k j)
      = (V c (Pipeline.arrRef spec7 2) : S128x192.Idx → EReal) (ix2 k j) := by
  obtain ⟨-, -, -, -, e0, e1, -⟩ := idx_facts7 t
  show V c (Pipeline.arrRef spec7 2) (((cfg7.win 2).blk t).view.emb (ix2 k j)) = _
  refine congrArg (V c (Pipeline.arrRef spec7 2)) (funext fun a => Fin.ext ?_)
  match a with
  | ⟨0, _⟩ => show win7_2.index t (0 : Fin 2) * 128 + 1 * k.val = k.val; rw [e0]; omega
  | ⟨1, _⟩ => show win7_2.index t (1 : Fin 2) * 192 + 1 * j.val = j.val; rw [e1]; omega

/-- The hidden weights' block at every point is the whole matrix. -/
theorem blk7_3 (c : Dev nD) (t : Fin cfg7.N) (k : Fin 64) (j : Fin 192) :
    (iblk7 V c 3 t : Vec Ideal S64x192 .f32) (ix2 k j)
      = (V c (Pipeline.arrRef spec7 3) : S64x192.Idx → EReal) (ix2 k j) := by
  obtain ⟨-, -, -, -, -, -, e0, e1, -⟩ := idx_facts7 t
  show V c (Pipeline.arrRef spec7 3) (((cfg7.win 3).blk t).view.emb (ix2 k j)) = _
  refine congrArg (V c (Pipeline.arrRef spec7 3)) (funext fun a => Fin.ext ?_)
  match a with
  | ⟨0, _⟩ => show win7_3.index t (0 : Fin 2) * 64 + 1 * k.val = k.val; rw [e0]; omega
  | ⟨1, _⟩ => show win7_3.index t (1 : Fin 2) * 192 + 1 * j.val = j.val; rw [e1]; omega

/-- The input bias's block at every point is the whole row. -/
theorem blk7_4 (c : Dev nD) (t : Fin cfg7.N) (j : Fin 192) :
    (iblk7 V c 4 t : Vec Ideal S1x192 .f32) (ix2 0 j)
      = (V c (Pipeline.arrRef spec7 4) : S1x192.Idx → EReal) (ix2 0 j) := by
  obtain ⟨-, -, -, -, -, -, -, -, e0, e1, -⟩ := idx_facts7 t
  show V c (Pipeline.arrRef spec7 4) (((cfg7.win 4).blk t).view.emb (ix2 0 j)) = _
  refine congrArg (V c (Pipeline.arrRef spec7 4)) (funext fun a => Fin.ext ?_)
  match a with
  | ⟨0, _⟩ => show win7_4.index t (0 : Fin 2) * 1 + 1 * 0 = 0; rw [e0]
  | ⟨1, _⟩ => show win7_4.index t (1 : Fin 2) * 192 + 1 * j.val = j.val; rw [e1]; omega

/-- The hidden bias's block at every point is the whole row. -/
theorem blk7_5 (c : Dev nD) (t : Fin cfg7.N) (j : Fin 192) :
    (iblk7 V c 5 t : Vec Ideal S1x192 .f32) (ix2 0 j)
      = (V c (Pipeline.arrRef spec7 5) : S1x192.Idx → EReal) (ix2 0 j) := by
  obtain ⟨-, -, -, -, -, -, -, -, -, -, e0, e1, -⟩ := idx_facts7 t
  show V c (Pipeline.arrRef spec7 5) (((cfg7.win 5).blk t).view.emb (ix2 0 j)) = _
  refine congrArg (V c (Pipeline.arrRef spec7 5)) (funext fun a => Fin.ext ?_)
  match a with
  | ⟨0, _⟩ => show win7_5.index t (0 : Fin 2) * 1 + 1 * 0 = 0; rw [e0]
  | ⟨1, _⟩ => show win7_5.index t (1 : Fin 2) * 192 + 1 * j.val = j.val; rw [e1]; omega

/-- Entry (p, q) of the new states' block at point t sits at (1000 t + p, q) of the array. -/
theorem emb7_6 (t : Fin cfg7.N) (p : Fin 1000) (q : Fin 64) :
    ((cfg7.win 6).blk t).view.emb (ix2 p q) = (ix2 (row7 t p) q : S50000x64.Idx) := by
  obtain ⟨-, -, -, -, -, -, -, -, -, -, -, -, e0, e1⟩ := idx_facts7 t
  refine funext fun a => Fin.ext ?_
  match a with
  | ⟨0, _⟩ => show win7_6.index t (0 : Fin 2) * 1000 + 1 * p.val = t.val * 1000 + p.val; rw [e0]; omega
  | ⟨1, _⟩ => show win7_6.index t (1 : Fin 2) * 64 + 1 * q.val = q.val; rw [e1]; omega

variable [Cert.ReferenceIdeal.Facts]

set_option maxHeartbeats 1000000 in
/-- WHAT POINT t WRITES BACK is block t of the GRU stage of the arrays as the region finds them. -/
theorem flushed7 (c : Dev nD) (t : Fin cfg7.N) :
    (dat7 V c).flushed 6 t = ((cfg7.win 6).blk t).view.read (Elt Ideal)
      (Cert.Spec.gruK (F := Ideal) (V c (Pipeline.arrRef spec7 0)) (V c (Pipeline.arrRef spec7 1)) (V c (Pipeline.arrRef spec7 2))
        (V c (Pipeline.arrRef spec7 3)) (V c (Pipeline.arrRef spec7 4)) (V c (Pipeline.arrRef spec7 5))) := by
  show (cfg7.win 6).cut (grid7.coords t) ((dat7 V c).after 6 t) = _
  rw [after7_6]
  unfold out7_6
  rw [View.canon_unit_zero offsets_zero7]
  simp only [View.ld_unit_zero (S := S1000x128) offsets_zero7, View.ld_unit_zero (S := S1000x64) offsets_zero7,
    View.ld_unit_zero (S := S128x192) offsets_zero7, View.ld_unit_zero (S := S64x192) offsets_zero7,
    View.ld_unit_zero (S := S1x192) offsets_zero7]
  funext j
  obtain ⟨p, q, rfl⟩ : ∃ (p : Fin 1000) (q : Fin 64), j = ix2 p q := ⟨j 0, j 1, eq_ix2 j⟩
  refine (pay_gruAt7 (iblk7 V c 0 t) (iblk7 V c 1 t) (iblk7 V c 2 t) (iblk7 V c 3 t) (iblk7 V c 4 t) (iblk7 V c 5 t) p q).trans ?_
  show _ = Cert.Spec.gruK (F := Ideal) (V c (Pipeline.arrRef spec7 0)) (V c (Pipeline.arrRef spec7 1)) (V c (Pipeline.arrRef spec7 2))
    (V c (Pipeline.arrRef spec7 3)) (V c (Pipeline.arrRef spec7 4)) (V c (Pipeline.arrRef spec7 5)) (((cfg7.win 6).blk t).view.emb (ix2 p q))
  rw [emb7_6 t p q]
  refine Eq.trans ?_ (gruK_apply (V c (Pipeline.arrRef spec7 0)) (V c (Pipeline.arrRef spec7 1)) (V c (Pipeline.arrRef spec7 2))
    (V c (Pipeline.arrRef spec7 3)) (V c (Pipeline.arrRef spec7 4)) (V c (Pipeline.arrRef spec7 5)) (row7 t p) q).symm
  exact gruAt_congr (M := 1000) (M' := 50000) (iblk7 V c 0 t : Vec Ideal S1000x128 .f32) (iblk7 V c 1 t : Vec Ideal S1000x64 .f32)
    (V c (Pipeline.arrRef spec7 0) : S50000x128.Idx → EReal) (V c (Pipeline.arrRef spec7 1) : S50000x64.Idx → EReal)
    (iblk7 V c 2 t : Vec Ideal S128x192 .f32) (V c (Pipeline.arrRef spec7 2) : S128x192.Idx → EReal)
    (iblk7 V c 3 t : Vec Ideal S64x192 .f32) (V c (Pipeline.arrRef spec7 3) : S64x192.Idx → EReal)
    (iblk7 V c 4 t : Vec Ideal S1x192 .f32) (iblk7 V c 5 t : Vec Ideal S1x192 .f32)
    (V c (Pipeline.arrRef spec7 4) : S1x192.Idx → EReal) (V c (Pipeline.arrRef spec7 5) : S1x192.Idx → EReal)
    p (row7 t p) q (fun k => blk7_0 V c t p k) (fun k => blk7_1 V c t p k)
    (fun k j => blk7_2 V c t k j) (fun k j => blk7_3 V c t k j) (fun j => blk7_4 V c t j) (fun j => blk7_5 V c t j)

/-- Every row lies in some point's block: row r in point r / 1000's. -/
theorem cover7 (i : S50000x64.Idx) :
    ∃ t : Fin cfg7.N, (cfg7.win 6).flush t = true ∧ i ∈ ((cfg7.win 6).blk t).view.set := by
  have hi0 : (i 0).val < 50000 := (i 0).isLt
  have hi1 : (i 1).val < 64 := (i 1).isLt
  have hN : cfg7.N = 50 := N_7
  have ht : (i 0).val / 1000 < cfg7.N := by rw [hN]; omega
  obtain ⟨-, -, -, -, -, -, -, -, -, -, -, -, e0, e1⟩ := idx_facts7 ⟨(i 0).val / 1000, ht⟩
  have e0' : win7_6.index ⟨(i 0).val / 1000, ht⟩ (0 : Fin 2) = (i 0).val / 1000 := e0
  refine ⟨⟨(i 0).val / 1000, ht⟩, flush7_6 _, ?_⟩
  show i ∈ ((View.whole main_v153).slice (win7_6.rect ⟨(i 0).val / 1000, ht⟩)).set
  rw [View.set_slice_whole, Rect.mem_set_unit]
  intro a
  match a with
  | ⟨0, _⟩ =>
    show win7_6.index ⟨(i 0).val / 1000, ht⟩ (0 : Fin 2) * 1000 ≤ (i 0).val
      ∧ (i 0).val < win7_6.index ⟨(i 0).val / 1000, ht⟩ (0 : Fin 2) * 1000 + 1000
    rw [e0']; omega
  | ⟨1, _⟩ =>
    show win7_6.index ⟨(i 0).val / 1000, ht⟩ (1 : Fin 2) * 64 ≤ (i 1).val
      ∧ (i 1).val < win7_6.index ⟨(i 0).val / 1000, ht⟩ (1 : Fin 2) * 64 + 64
    rw [e1]; omega

/-- THE ARRAY after the region: the GRU stage of the arrays as the region finds them. -/
theorem arr7_eq (c : Dev nD) :
    (dat7 (F := Ideal) V c).arrAt 6 cfg7.N
      = Cert.Spec.gruK (F := Ideal) (V c (Pipeline.arrRef spec7 0)) (V c (Pipeline.arrRef spec7 1)) (V c (Pipeline.arrRef spec7 2))
          (V c (Pipeline.arrRef spec7 3)) (V c (Pipeline.arrRef spec7 4)) (V c (Pipeline.arrRef spec7 5)) :=
  (dat7 (F := Ideal) V c).arrAt_eq_of_cover 6 _ (fun t _ => flushed7 V c t) cover7

end Blocks

/-- Region 7's output array after the region is the GRU stage of the six arrays the region finds. -/
theorem gru7_final [Cert.KernelIdeal.Facts] [Cert.ReferenceIdeal.Facts]
    (V : (c : Dev nD) → (b : Ref sig .tc) → Buf (Elt Ideal) ((c : Thread nD τ).loc b)) (c : Dev nD) :
    (Gen.dat7 (F := Ideal) V c).arrAt 6 cfg7.N
      = Cert.Spec.gruK (F := Ideal) (V c (Pipeline.arrRef spec7 0)) (V c (Pipeline.arrRef spec7 1)) (V c (Pipeline.arrRef spec7 2)) (V c (Pipeline.arrRef spec7 3)) (V c (Pipeline.arrRef spec7 4)) (V c (Pipeline.arrRef spec7 5)) :=
  arr7_eq V c

end Cert.KernelIdeal.Regions

end
-- ==== Proof.lean ====
/-
  The certificate of the two-direction, two-layer message-passing network with GRU updates.

  Kernel side: the program's @main runs nine stretches of host operations (slicing the weights, gathering
  the node states along the edges, summing the messages into their nodes, transposing and reshaping) around
  eight kernel regions — four message regions, each an affine map of the rows (hs (ia e) | hs (ib e)),
  and four GRU regions.  Reference side: the same network written with whole-array host operations.
  At the ideal values both programs compute one function, `Spec.net`, of the fourteen arguments:
    * each message region's output array is `Spec.msgK` of its entry arrays and each GRU region's is
      `Spec.gruK` (a block of rows times the whole right operand is the block of the whole product; the
      kernel's logistic is 1 / (1 + e^(−x)), the reference's expansion; nothing is reassociated, so no
      finiteness is used);
    * the buffers are followed through the segments of @main to the result (`Chain.result`);
    * the reference's run, read back operation by operation, is the same composition (`RefValue.run`);
    * the two programs differ in how a bias vector becomes a row (a reshape against a broadcast along a new
      axis): the same row (`Spec.Rows`).
  The three frames are the generated ones (the reference's is its run with the result dropped), and the
  idealization rewrote nothing, so `preserves` is trivial.
-/
import proofs.«129615_j25563645346107_1_alg».proof.Defs
import proofs.«129615_j25563645346107_1_alg».proof.Proof.Gen.Kernel
import proofs.«129615_j25563645346107_1_alg».proof.Proof.Gen.Kernel.Frame
import proofs.«129615_j25563645346107_1_alg».proof.Proof.Gen.KernelIdeal
import proofs.«129615_j25563645346107_1_alg».proof.Proof.Gen.KernelIdeal.Frame
import proofs.«129615_j25563645346107_1_alg».proof.Proof.Gen.ReferenceIdeal
import proofs.«129615_j25563645346107_1_alg».proof.Proof.Gen.ReferenceIdeal.Run
import proofs.«129615_j25563645346107_1_alg».proof.Proof.Gen.Pre_finite_inputs
import proofs.«129615_j25563645346107_1_alg».proof.Proof.KernelRun
import proofs.«129615_j25563645346107_1_alg».proof.Proof.Chain
import proofs.«129615_j25563645346107_1_alg».proof.Proof.RefNet
import proofs.«129615_j25563645346107_1_alg».proof.Proof.Rows
import proofs.«129615_j25563645346107_1_alg».proof.Proof.Msg0
import proofs.«129615_j25563645346107_1_alg».proof.Proof.Msg2
import proofs.«129615_j25563645346107_1_alg».proof.Proof.Msg4
import proofs.«129615_j25563645346107_1_alg».proof.Proof.Msg6
import proofs.«129615_j25563645346107_1_alg».proof.Proof.Gru1
import proofs.«129615_j25563645346107_1_alg».proof.Proof.Gru3
import proofs.«129615_j25563645346107_1_alg».proof.Proof.Gru5
import proofs.«129615_j25563645346107_1_alg».proof.Proof.Gru7
import Idealize.ShloMosaic.Adequacy
import Idealize.ShloMosaic.Init

noncomputable section

namespace Cert.Proof

open Idealize.ShloMosaic Idealize.SL.Sem

/-- What the eight regions compute. -/
theorem regionValues : Cert.KernelIdeal.Chain.RegionValues :=
  ⟨Cert.KernelIdeal.Regions.msg0_final, Cert.KernelIdeal.Regions.msg2_final, Cert.KernelIdeal.Regions.msg4_final, Cert.KernelIdeal.Regions.msg6_final,
   Cert.KernelIdeal.Regions.gru1_final, Cert.KernelIdeal.Regions.gru3_final, Cert.KernelIdeal.Regions.gru5_final, Cert.KernelIdeal.Regions.gru7_final⟩

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- A 128-entry bias vector broadcast along a new leading axis is the vector reshaped to a row. -/
theorem rows128 : (Cert.Spec.rowB128 (F := Ideal)) = Cert.KernelIdeal.Chain.rk128 :=
  funext fun v => (Cert.Spec.Rows.shapeCast_rowB128 v _).symm
/-- The same for the 192-entry gate biases. -/
theorem rows192 : (Cert.Spec.rowB192 (F := Ideal)) = Cert.KernelIdeal.Chain.rk192 :=
  funext fun v => (Cert.Spec.Rows.shapeCast_rowB192 v _).symm

/-- From memories that agree on the arguments both programs end with the network of the arguments in their
    result buffers. -/
theorem algebraic : Cert.algebraic_KernelIdeal_ReferenceIdeal := by
  intro m ρ m' ρ' _ hagree
  refine ⟨fun c => Cert.Spec.net (F := Ideal) Cert.KernelIdeal.Chain.rk128 Cert.KernelIdeal.Chain.rk192 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · refine (θ_run (Cert.KernelIdeal.defs (F := Ideal)) _ _).mono (fun r h c => ⟨(h c).1.trans ?_, (h c).2⟩)
      (Cert.KernelIdeal.Run.run_result (F := Ideal) m ρ)
    exact Cert.KernelIdeal.Chain.result m ρ c regionValues
  · refine (θ_run (Cert.ReferenceIdeal.defs (F := Ideal)) _ _).mono (fun r h c => ⟨(h c).1.trans ?_, (h c).2⟩)
      (Cert.ReferenceIdeal.RefValue.run (F := Ideal) m' ρ')
    obtain ⟨e0, e1, e2, e3, e4, e5, e6, e7, e8, e9, e10, e11, e12, e13⟩ := hagree c
    rw [e0, e1, e2, e3, e4, e5, e6, e7, e8, e9, e10, e11, e12, e13, rows128, rows192]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
